-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v175)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v175) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x65536x3 : Shape := ⟨3, ![2, 65536, 3]⟩
abbrev S10x10 : Shape := ⟨2, ![10, 10]⟩
abbrev S10 : Shape := ⟨1, ![10]⟩
abbrev S2x65536x16 : Shape := ⟨3, ![2, 65536, 16]⟩
abbrev S2x16384x16 : Shape := ⟨3, ![2, 16384, 16]⟩
abbrev S_ : Shape := ⟨0, ![]⟩

class Facts : Prop where
  bcast_S_S2x65536x3 : S_.BroadcastsInDim S2x65536x3 (![] : Fin 0 → Fin S2x65536x3.rank)
  reducesTo_S2x65536x3_S_d0_1_2 : S2x65536x3.ReducesTo [0, 1, 2] S_
  h_S_ : 0 < S_.numel
  bcast_S_S10x10 : S_.BroadcastsInDim S10x10 (![] : Fin 0 → Fin S10x10.rank)
  reducesTo_S10x10_S_d0_1 : S10x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg4 : FVec F S10 .f32) (main_arg5 : FVec F S10 .f32) (main_arg6 : FVec F S10 .f32) (main_v13 : IVec S_ 1) (main_v16 : IVec S10 1) : IVec S_ 1 :=
  let main_c_5 : IVec S_ 1 := constantI S_ 1 1#1
  let main_v17 : IVec S_ 1 := (fun x v => Host.reduce IntOp.andi x v reducesTo_S10_S_d0 h_S_) main_v16 main_c_5
  let main_v18 : IVec S_ 1 := andi main_v13 main_v17
  let main_v19 : FVec F S10 .f32 := Host.absf main_arg4
  let main_cst_6 : FVec F S_ .f32 := constant S_ .f32 0x7F800000#32
  let main_v20 : FVec F S10 .f32 := broadcastInDim S10 ![] bcast_S_S10 main_cst_6
  let main_v21 : IVec S10 1 := cmpf .olt main_v19 main_v20
  let main_c_7 : IVec S_ 1 := constantI S_ 1 1#1
  let main_v22 : IVec S_ 1 := (fun x v => Host.reduce IntOp.andi x v reducesTo_S10_S_d0 h_S_) main_v21 main_c_7
  let main_v23 : IVec S_ 1 := andi main_v18 main_v22
  let main_v24 : FVec F S10 .f32 := Host.absf main_arg5
  let main_cst_8 : FVec F S_ .f32 := constant S_ .f32 0x7F800000#32
  let main_v25 : FVec F S10 .f32 := broadcastInDim S10 ![] bcast_S_S10 main_cst_8
  let main_v26 : IVec S10 1 := cmpf .olt main_v24 main_v25
  let main_c_9 : IVec S_ 1 := constantI S_ 1 1#1
  let main_v27 : IVec S_ 1 := (fun x v => Host.reduce IntOp.andi x v reducesTo_S10_S_d0 h_S_) main_v26 main_c_9
  let main_v28 : IVec S_ 1 := andi main_v23 main_v27
  let main_v29 : FVec F S10 .f32 := Host.absf main_arg6
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  main_v33

def fn {F : FTy → Type} [FloatOps F] (main_arg0 : FVec F S2x65536x3 .f32) (main_arg1 : FVec F S10x10 .f32) (main_arg2 : FVec F S10x10 .f32) (main_arg3 : FVec F S10 .f32) (main_arg4 : FVec F S10 .f32) (main_arg5 : FVec F S10 .f32) (main_arg6 : FVec F S10 .f32) (main_arg7 : IVec S2x65536x16 32) (main_arg8 : IVec S2x16384x16 32) : IVec S_ 1 :=
  let main_v0 : FVec F S2x65536x3 .f32 := Host.absf main_arg0
  let main_cst : FVec F S_ .f32 := constant S_ .f32 0x7F800000#32
  let main_v1 : FVec F S2x65536x3 .f32 := broadcastInDim S2x65536x3 ![] bcast_S_S2x65536x3 main_cst
  let main_v2 : IVec S2x65536x3 1 := cmpf .olt main_v0 main_v1
  let main_c : IVec S_ 1 := constantI S_ 1 1#1
  let main_v3 : IVec S_ 1 := (fun x v => Host.reduce IntOp.andi x v reducesTo_S2x65536x3_S_d0_1_2 h_S_) main_v2 main_c
  let main_v4 : FVec F S10x10 .f32 := Host.absf main_arg1
  let main_cst_0 : FVec F S_ .f32 := constant S_ .f32 0x7F800000#32
  let main_v5 : FVec F S10x10 .f32 := broadcastInDim S10x10 ![] bcast_S_S10x10 main_cst_0
  let main_v6 : IVec S10x10 1 := cmpf .olt main_v4 main_v5
  let main_c_1 : IVec S_ 1 := constantI S_ 1 1#1
  let main_v7 : IVec S_ 1 := (fun x v => Host.reduce IntOp.andi x v reducesTo_S10x10_S_d0_1 h_S_) main_v6 main_c_1
  let main_v8 : IVec S_ 1 := andi main_v3 main_v7
  let main_v9 : FVec F S10x10 .f32 := Host.absf main_arg2
  let main_cst_2 : FVec F S_ .f32 := constant S_ .f32 0x7F800000#32
  let main_v10 : FVec F S10x10 .f32 := broadcastInDim S10x10 ![] bcast_S_S10x10 main_cst_2
  let main_v11 : IVec S10x10 1 := cmpf .olt main_v9 main_v10
  let main_c_3 : IVec S_ 1 := constantI S_ 1 1#1
  let main_v12 : IVec S_ 1 := (fun x v => Host.reduce IntOp.andi x v reducesTo_S10x10_S_d0_1 h_S_) main_v11 main_c_3
  let main_v13 : IVec S_ 1 := andi main_v8 main_v12
  let main_v14 : FVec F S10 .f32 := Host.absf main_arg3
  let main_cst_4 : FVec F S_ .f32 := constant S_ .f32 0x7F800000#32
  let main_v15 : FVec F S10 .f32 := broadcastInDim S10 ![] bcast_S_S10 main_cst_4
  let main_v16 : IVec S10 1 := cmpf .olt main_v14 main_v15
  fn_part1 (F := F) main_arg4 main_arg5 main_arg6 main_v13 main_v16
-- ==== Kernel.lean ====
abbrev S2x65536x3 : Shape := ⟨3, ![2, 65536, 3]⟩
abbrev S10x10 : Shape := ⟨2, ![10, 10]⟩
abbrev S10 : Shape := ⟨1, ![10]⟩
abbrev S2x65536x16 : Shape := ⟨3, ![2, 65536, 16]⟩
abbrev S2x16384x16 : Shape := ⟨3, ![2, 16384, 16]⟩
abbrev S_ : Shape := ⟨0, ![]⟩
abbrev S2x65536x16x1 : Shape := ⟨4, ![2, 65536, 16, 1]⟩
abbrev S2x65536x16x3 : Shape := ⟨4, ![2, 65536, 16, 3]⟩
abbrev S2x65536x48 : Shape := ⟨3, ![2, 65536, 48]⟩
abbrev S1x10 : Shape := ⟨2, ![1, 10]⟩
abbrev S2x65536x10 : Shape := ⟨3, ![2, 65536, 10]⟩
abbrev S1x512x3 : Shape := ⟨3, ![1, 512, 3]⟩
abbrev S1x512x48 : Shape := ⟨3, ![1, 512, 48]⟩
abbrev S1x512x10 : Shape := ⟨3, ![1, 512, 10]⟩
abbrev S512x3 : Shape := ⟨2, ![512, 3]⟩
abbrev S512x48 : Shape := ⟨2, ![512, 48]⟩
abbrev S512x1x3 : Shape := ⟨3, ![512, 1, 3]⟩
abbrev S512x16x3 : Shape := ⟨3, ![512, 16, 3]⟩
abbrev S512x16 : Shape := ⟨2, ![512, 16]⟩
abbrev S512x16x1 : Shape := ⟨3, ![512, 16, 1]⟩
abbrev S512x16x10 : Shape := ⟨3, ![512, 16, 10]⟩
abbrev S8192x10 : Shape := ⟨2, ![8192, 10]⟩
abbrev S512x10 : Shape := ⟨2, ![512, 10]⟩
abbrev S512x1x10 : Shape := ⟨3, ![512, 1, 10]⟩
abbrev S16384x10 : Shape := ⟨2, ![16384, 10]⟩
abbrev S2x16384x1 : Shape := ⟨3, ![2, 16384, 1]⟩
abbrev S2x16384 : Shape := ⟨2, ![2, 16384]⟩
abbrev S2x16384x10 : Shape := ⟨3, ![2, 16384, 10]⟩
abbrev S1x16384x10 : Shape := ⟨3, ![1, 16384, 10]⟩

abbrev nBuf : Space → Nat
  | .hbm => 220
  | .vmem => 12
  | .smem => 0
  | _ => 0

abbrev hbmTy0_0 (i : Nat) : BufTy := match i % 128 with
  | 0 => ⟨S2x65536x3, .f32⟩
  | 1 => ⟨S10x10, .f32⟩
  | 2 => ⟨S10x10, .f32⟩
  | 3 => ⟨S10, .f32⟩
  | 4 => ⟨S10, .f32⟩
  | 5 => ⟨S10, .f32⟩
  | 6 => ⟨S10, .f32⟩
  | 7 => ⟨S2x65536x16, .i32⟩
  | 8 => ⟨S2x16384x16, .i32⟩
  | 9 => ⟨S_, .i32⟩
  | 10 => ⟨S2x65536x16, .i32⟩
  | 11 => ⟨S2x65536x16, .i1⟩
  | 12 => ⟨S_, .i32⟩
  | 13 => ⟨S2x65536x16, .i32⟩
  | 14 => ⟨S2x65536x16, .i32⟩
  | 15 => ⟨S2x65536x16, .i32⟩
  | 16 => ⟨S2x65536x16x1, .i32⟩
  | 17 => ⟨S2x65536x16x3, .f32⟩
  | 18 => ⟨S2x65536x48, .f32⟩
  | 19 => ⟨S1x10, .f32⟩
  | 20 => ⟨S1x10, .f32⟩
  | 21 => ⟨S1x10, .f32⟩
  | 22 => ⟨S1x10, .f32⟩
  | 23 => ⟨S2x65536x10, .f32⟩
  | 24 => ⟨S_, .f32⟩
  | 25 => ⟨S16384x10, .f32⟩
  | 26 => ⟨S2x16384x1, .i32⟩
  | 27 => ⟨S2x16384, .i32⟩
  | 28 => ⟨S_, .i32⟩
  | 29 => ⟨S2x16384, .i32⟩
  | 30 => ⟨S2x16384, .i1⟩
  | 31 => ⟨S_, .i32⟩
  | 32 => ⟨S2x16384, .i32⟩
  | 33 => ⟨S2x16384, .i32⟩
  | 34 => ⟨S2x16384, .i32⟩
  | 35 => ⟨S2x16384x1, .i32⟩
  | 36 => ⟨S2x16384x10, .f32⟩
  | 37 => ⟨S1x16384x10, .f32⟩
  | 38 => ⟨S2x16384x10, .f32⟩
  | 39 => ⟨S2x16384x10, .f32⟩
  | 40 => ⟨S2x16384x1, .i32⟩
  | 41 => ⟨S2x16384, .i32⟩
  | 42 => ⟨S_, .i32⟩
  | 43 => ⟨S2x16384, .i32⟩
  | 44 => ⟨S2x16384, .i1⟩
  | 45 => ⟨S_, .i32⟩
  | 46 => ⟨S2x16384, .i32⟩
  | 47 => ⟨S2x16384, .i32⟩
  | 48 => ⟨S2x16384, .i32⟩
  | 49 => ⟨S2x16384x1, .i32⟩
  | 50 => ⟨S2x16384x10, .f32⟩
  | 51 => ⟨S2x16384x10, .f32⟩
  | 52 => ⟨S2x16384x1, .i32⟩
  | 53 => ⟨S2x16384, .i32⟩
  | 54 => ⟨S_, .i32⟩
  | 55 => ⟨S2x16384, .i32⟩
  | 56 => ⟨S2x16384, .i1⟩
  | 57 => ⟨S_, .i32⟩
  | 58 => ⟨S2x16384, .i32⟩
  | 59 => ⟨S2x16384, .i32⟩
  | 60 => ⟨S2x16384, .i32⟩
  | 61 => ⟨S2x16384x1, .i32⟩
  | 62 => ⟨S2x16384x10, .f32⟩
  | 63 => ⟨S2x16384x10, .f32⟩
  | 64 => ⟨S2x16384x1, .i32⟩
  | 65 => ⟨S2x16384, .i32⟩
  | 66 => ⟨S_, .i32⟩
  | 67 => ⟨S2x16384, .i32⟩
  | 68 => ⟨S2x16384, .i1⟩
  | 69 => ⟨S_, .i32⟩
  | 70 => ⟨S2x16384, .i32⟩
  | 71 => ⟨S2x16384, .i32⟩
  | 72 => ⟨S2x16384, .i32⟩
  | 73 => ⟨S2x16384x1, .i32⟩
  | 74 => ⟨S2x16384x10, .f32⟩
  | 75 => ⟨S2x16384x10, .f32⟩
  | 76 => ⟨S2x16384x1, .i32⟩
  | 77 => ⟨S2x16384, .i32⟩
  | 78 => ⟨S_, .i32⟩
  | 79 => ⟨S2x16384, .i32⟩
  | 80 => ⟨S2x16384, .i1⟩
  | 81 => ⟨S_, .i32⟩
  | 82 => ⟨S2x16384, .i32⟩
  | 83 => ⟨S2x16384, .i32⟩
  | 84 => ⟨S2x16384, .i32⟩
  | 85 => ⟨S2x16384x1, .i32⟩
  | 86 => ⟨S2x16384x10, .f32⟩
  | 87 => ⟨S2x16384x10, .f32⟩
  | 88 => ⟨S2x16384x1, .i32⟩
  | 89 => ⟨S2x16384, .i32⟩
  | 90 => ⟨S_, .i32⟩
  | 91 => ⟨S2x16384, .i32⟩
  | 92 => ⟨S2x16384, .i1⟩
  | 93 => ⟨S_, .i32⟩
  | 94 => ⟨S2x16384, .i32⟩
  | 95 => ⟨S2x16384, .i32⟩
  | 96 => ⟨S2x16384, .i32⟩
  | 97 => ⟨S2x16384x1, .i32⟩
  | 98 => ⟨S2x16384x10, .f32⟩
  | 99 => ⟨S2x16384x10, .f32⟩
  | 100 => ⟨S2x16384x1, .i32⟩
  | 101 => ⟨S2x16384, .i32⟩
  | 102 => ⟨S_, .i32⟩
  | 103 => ⟨S2x16384, .i32⟩
  | 104 => ⟨S2x16384, .i1⟩
  | 105 => ⟨S_, .i32⟩
  | 106 => ⟨S2x16384, .i32⟩
  | 107 => ⟨S2x16384, .i32⟩
  | 108 => ⟨S2x16384, .i32⟩
  | 109 => ⟨S2x16384x1, .i32⟩
  | 110 => ⟨S2x16384x10, .f32⟩
  | 111 => ⟨S2x16384x10, .f32⟩
  | 112 => ⟨S2x16384x1, .i32⟩
  | 113 => ⟨S2x16384, .i32⟩
  | 114 => ⟨S_, .i32⟩
  | 115 => ⟨S2x16384, .i32⟩
  | 116 => ⟨S2x16384, .i1⟩
  | 117 => ⟨S_, .i32⟩
  | 118 => ⟨S2x16384, .i32⟩
  | 119 => ⟨S2x16384, .i32⟩
  | 120 => ⟨S2x16384, .i32⟩
  | 121 => ⟨S2x16384x1, .i32⟩
  | 122 => ⟨S2x16384x10, .f32⟩
  | 123 => ⟨S2x16384x10, .f32⟩
  | 124 => ⟨S2x16384x1, .i32⟩
  | 125 => ⟨S2x16384, .i32⟩
  | 126 => ⟨S_, .i32⟩
  | 127 => ⟨S2x16384, .i32⟩
  | _ => ⟨S2x65536x3, .f32⟩

abbrev hbmTy0_1 (i : Nat) : BufTy := match i % 128 with
  | 0 => ⟨S2x16384, .i1⟩
  | 1 => ⟨S_, .i32⟩
  | 2 => ⟨S2x16384, .i32⟩
  | 3 => ⟨S2x16384, .i32⟩
  | 4 => ⟨S2x16384, .i32⟩
  | 5 => ⟨S2x16384x1, .i32⟩
  | 6 => ⟨S2x16384x10, .f32⟩
  | 7 => ⟨S2x16384x10, .f32⟩
  | 8 => ⟨S2x16384x1, .i32⟩
  | 9 => ⟨S2x16384, .i32⟩
  | 10 => ⟨S_, .i32⟩
  | 11 => ⟨S2x16384, .i32⟩
  | 12 => ⟨S2x16384, .i1⟩
  | 13 => ⟨S_, .i32⟩
  | 14 => ⟨S2x16384, .i32⟩
  | 15 => ⟨S2x16384, .i32⟩
  | 16 => ⟨S2x16384, .i32⟩
  | 17 => ⟨S2x16384x1, .i32⟩
  | 18 => ⟨S2x16384x10, .f32⟩
  | 19 => ⟨S2x16384x10, .f32⟩
  | 20 => ⟨S2x16384x1, .i32⟩
  | 21 => ⟨S2x16384, .i32⟩
  | 22 => ⟨S_, .i32⟩
  | 23 => ⟨S2x16384, .i32⟩
  | 24 => ⟨S2x16384, .i1⟩
  | 25 => ⟨S_, .i32⟩
  | 26 => ⟨S2x16384, .i32⟩
  | 27 => ⟨S2x16384, .i32⟩
  | 28 => ⟨S2x16384, .i32⟩
  | 29 => ⟨S2x16384x1, .i32⟩
  | 30 => ⟨S2x16384x10, .f32⟩
  | 31 => ⟨S2x16384x10, .f32⟩
  | 32 => ⟨S2x16384x1, .i32⟩
  | 33 => ⟨S2x16384, .i32⟩
  | 34 => ⟨S_, .i32⟩
  | 35 => ⟨S2x16384, .i32⟩
  | 36 => ⟨S2x16384, .i1⟩
  | 37 => ⟨S_, .i32⟩
  | 38 => ⟨S2x16384, .i32⟩
  | 39 => ⟨S2x16384, .i32⟩
  | 40 => ⟨S2x16384, .i32⟩
  | 41 => ⟨S2x16384x1, .i32⟩
  | 42 => ⟨S2x16384x10, .f32⟩
  | 43 => ⟨S2x16384x10, .f32⟩
  | 44 => ⟨S2x16384x1, .i32⟩
  | 45 => ⟨S2x16384, .i32⟩
  | 46 => ⟨S_, .i32⟩
  | 47 => ⟨S2x16384, .i32⟩
  | 48 => ⟨S2x16384, .i1⟩
  | 49 => ⟨S_, .i32⟩
  | 50 => ⟨S2x16384, .i32⟩
  | 51 => ⟨S2x16384, .i32⟩
  | 52 => ⟨S2x16384, .i32⟩
  | 53 => ⟨S2x16384x1, .i32⟩
  | 54 => ⟨S2x16384x10, .f32⟩
  | 55 => ⟨S2x16384x10, .f32⟩
  | 56 => ⟨S2x16384x1, .i32⟩
  | 57 => ⟨S2x16384, .i32⟩
  | 58 => ⟨S_, .i32⟩
  | 59 => ⟨S2x16384, .i32⟩
  | 60 => ⟨S2x16384, .i1⟩
  | 61 => ⟨S_, .i32⟩
  | 62 => ⟨S2x16384, .i32⟩
  | 63 => ⟨S2x16384, .i32⟩
  | 64 => ⟨S2x16384, .i32⟩
  | 65 => ⟨S2x16384x1, .i32⟩
  | 66 => ⟨S2x16384x10, .f32⟩
  | 67 => ⟨S2x16384x10, .f32⟩
  | 68 => ⟨S2x16384x1, .i32⟩
  | 69 => ⟨S2x16384, .i32⟩
  | 70 => ⟨S_, .i32⟩
  | 71 => ⟨S2x16384, .i32⟩
  | 72 => ⟨S2x16384, .i1⟩
  | 73 => ⟨S_, .i32⟩
  | 74 => ⟨S2x16384, .i32⟩
  | 75 => ⟨S2x16384, .i32⟩
  | 76 => ⟨S2x16384, .i32⟩
  | 77 => ⟨S2x16384x1, .i32⟩
  | 78 => ⟨S2x16384x10, .f32⟩
  | 79 => ⟨S2x16384x10, .f32⟩
  | 80 => ⟨S2x16384x1, .i32⟩
  | 81 => ⟨S2x16384, .i32⟩
  | 82 => ⟨S_, .i32⟩
  | 83 => ⟨S2x16384, .i32⟩
  | 84 => ⟨S2x16384, .i1⟩
  | 85 => ⟨S_, .i32⟩
  | 86 => ⟨S2x16384, .i32⟩
  | 87 => ⟨S2x16384, .i32⟩
  | 88 => ⟨S2x16384, .i32⟩
  | 89 => ⟨S2x16384x1, .i32⟩
  | 90 => ⟨S2x16384x10, .f32⟩
  | 91 => ⟨S2x16384x10, .f32⟩
  | _ => ⟨S2x65536x3, .f32⟩

abbrev hbmTy (i : Nat) : BufTy := match i / 128 with
  | 0 => hbmTy0_0 i
  | 1 => hbmTy0_1 i
  | _ => ⟨S2x65536x3, .f32⟩

abbrev bufTy : (tb : Table) → Fin (tcTables nBuf tb) → BufTy
  | .hbm, ⟨i, _⟩ => hbmTy i
  | .local _ .vmem, ⟨0, _⟩ => ⟨S1x512x3, .f32⟩
  | .local _ .vmem, ⟨1, _⟩ => ⟨S1x512x3, .f32⟩
  | .local _ .vmem, ⟨2, _⟩ => ⟨S1x512x48, .f32⟩
  | .local _ .vmem, ⟨3, _⟩ => ⟨S1x512x48, .f32⟩
  | .local _ .vmem, ⟨4, _⟩ => ⟨S10x10, .f32⟩
  | .local _ .vmem, ⟨5, _⟩ => ⟨S10x10, .f32⟩
  | .local _ .vmem, ⟨6, _⟩ => ⟨S1x10, .f32⟩
  | .local _ .vmem, ⟨7, _⟩ => ⟨S1x10, .f32⟩
  | .local _ .vmem, ⟨8, _⟩ => ⟨S1x10, .f32⟩
  | .local _ .vmem, ⟨9, _⟩ => ⟨S1x10, .f32⟩
  | .local _ .vmem, ⟨10, _⟩ => ⟨S1x512x10, .f32⟩
  | .local _ .vmem, ⟨11, _⟩ => ⟨S1x512x10, .f32⟩
  | _, _ => ⟨S2x65536x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c_1 : Ref sig .tc := ⟨.hbm, 28, rfl⟩
abbrev main_v16 : Ref sig .tc := ⟨.hbm, 29, rfl⟩
abbrev main_v17 : Ref sig .tc := ⟨.hbm, 30, rfl⟩
abbrev main_c_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_3 : Ref sig .tc := ⟨.hbm, 42, rfl⟩
abbrev main_v28 : Ref sig .tc := ⟨.hbm, 43, rfl⟩
abbrev main_v29 : Ref sig .tc := ⟨.hbm, 44, rfl⟩
abbrev main_c_4 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_c_5 : Ref sig .tc := ⟨.hbm, 54, rfl⟩
abbrev main_v38 : Ref sig .tc := ⟨.hbm, 55, rfl⟩
abbrev main_v39 : Ref sig .tc := ⟨.hbm, 56, rfl⟩
abbrev main_c_6 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_c_7 : Ref sig .tc := ⟨.hbm, 66, rfl⟩
abbrev main_v48 : Ref sig .tc := ⟨.hbm, 67, rfl⟩
abbrev main_v49 : Ref sig .tc := ⟨.hbm, 68, rfl⟩
abbrev main_c_8 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_c_9 : Ref sig .tc := ⟨.hbm, 78, rfl⟩
abbrev main_v58 : Ref sig .tc := ⟨.hbm, 79, rfl⟩
abbrev main_v59 : Ref sig .tc := ⟨.hbm, 80, rfl⟩
abbrev main_c_10 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_c_11 : Ref sig .tc := ⟨.hbm, 90, rfl⟩
abbrev main_v68 : Ref sig .tc := ⟨.hbm, 91, rfl⟩
abbrev main_v69 : Ref sig .tc := ⟨.hbm, 92, rfl⟩
abbrev main_c_12 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_c_13 : Ref sig .tc := ⟨.hbm, 102, rfl⟩
abbrev main_v78 : Ref sig .tc := ⟨.hbm, 103, rfl⟩
abbrev main_v79 : Ref sig .tc := ⟨.hbm, 104, rfl⟩
abbrev main_c_14 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_c_15 : Ref sig .tc := ⟨.hbm, 114, rfl⟩
abbrev main_v88 : Ref sig .tc := ⟨.hbm, 115, rfl⟩
abbrev main_v89 : Ref sig .tc := ⟨.hbm, 116, rfl⟩
abbrev main_c_16 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_c_17 : Ref sig .tc := ⟨.hbm, 126, rfl⟩
abbrev main_v98 : Ref sig .tc := ⟨.hbm, 127, rfl⟩
abbrev main_v99 : Ref sig .tc := ⟨.hbm, 128, rfl⟩
abbrev main_c_18 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_c_19 : Ref sig .tc := ⟨.hbm, 138, rfl⟩
abbrev main_v108 : Ref sig .tc := ⟨.hbm, 139, rfl⟩
abbrev main_v109 : Ref sig .tc := ⟨.hbm, 140, rfl⟩
abbrev main_c_20 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_c_21 : Ref sig .tc := ⟨.hbm, 150, rfl⟩
abbrev main_v118 : Ref sig .tc := ⟨.hbm, 151, rfl⟩
abbrev main_v119 : Ref sig .tc := ⟨.hbm, 152, rfl⟩
abbrev main_c_22 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_c_23 : Ref sig .tc := ⟨.hbm, 162, rfl⟩
abbrev main_v128 : Ref sig .tc := ⟨.hbm, 163, rfl⟩
abbrev main_v129 : Ref sig .tc := ⟨.hbm, 164, rfl⟩
abbrev main_c_24 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_c_25 : Ref sig .tc := ⟨.hbm, 174, rfl⟩
abbrev main_v138 : Ref sig .tc := ⟨.hbm, 175, rfl⟩
abbrev main_v139 : Ref sig .tc := ⟨.hbm, 176, rfl⟩
abbrev main_c_26 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_c_27 : Ref sig .tc := ⟨.hbm, 186, rfl⟩
abbrev main_v148 : Ref sig .tc := ⟨.hbm, 187, rfl⟩
abbrev main_v149 : Ref sig .tc := ⟨.hbm, 188, rfl⟩
abbrev main_c_28 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_c_29 : Ref sig .tc := ⟨.hbm, 198, rfl⟩
abbrev main_v158 : Ref sig .tc := ⟨.hbm, 199, rfl⟩
abbrev main_v159 : Ref sig .tc := ⟨.hbm, 200, rfl⟩
abbrev main_c_30 : Ref sig .tc := ⟨.hbm, 201, rfl⟩
abbrev main_v160 : Ref sig .tc := ⟨.hbm, 202, rfl⟩
abbrev main_v161 : Ref sig .tc := ⟨.hbm, 203, rfl⟩
abbrev main_v162 : Ref sig .tc := ⟨.hbm, 204, rfl⟩
abbrev main_v163 : Ref sig .tc := ⟨.hbm, 205, rfl⟩
abbrev main_v164 : Ref sig .tc := ⟨.hbm, 206, rfl⟩
abbrev main_v165 : Ref sig .tc := ⟨.hbm, 207, rfl⟩
abbrev main_v166 : Ref sig .tc := ⟨.hbm, 208, rfl⟩
abbrev main_v167 : Ref sig .tc := ⟨.hbm, 209, rfl⟩
abbrev main_c_31 : Ref sig .tc := ⟨.hbm, 210, rfl⟩
abbrev main_v168 : Ref sig .tc := ⟨.hbm, 211, rfl⟩
abbrev main_v169 : Ref sig .tc := ⟨.hbm, 212, rfl⟩
abbrev main_c_32 : Ref sig .tc := ⟨.hbm, 213, rfl⟩
abbrev main_v170 : Ref sig .tc := ⟨.hbm, 214, rfl⟩
abbrev main_v171 : Ref sig .tc := ⟨.hbm, 215, rfl⟩
abbrev main_v172 : Ref sig .tc := ⟨.hbm, 216, rfl⟩
abbrev main_v173 : Ref sig .tc := ⟨.hbm, 217, rfl⟩
abbrev main_v174 : Ref sig .tc := ⟨.hbm, 218, rfl⟩
abbrev main_v175 : Ref sig .tc := ⟨.hbm, 219, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨2, ![2, 128], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x48 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S10x10 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S10x10 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x10 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x10 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x10 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x10 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x10 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

class Facts₀ : Prop where
  bcast_S_S2x65536x16 : S_.BroadcastsInDim S2x65536x16 (![] : Fin 0 → Fin S2x65536x16.rank)
  bcast_S2x65536x16_S2x65536x16x1_0_1_2 : S2x65536x16.BroadcastsInDim S2x65536x16x1 (![0, 1, 2] : Fin 3 → Fin S2x65536x16x1.rank)
  shapeCasts_S2x65536x16x3_S2x65536x48 : S2x65536x16x3.ShapeCasts S2x65536x48
  shapeCasts_S10_S1x10 : S10.ShapeCasts S1x10
  inb_S1x512x3_S1x512x3_0_0_0 : ∀ a, (![0, 0, 0] : Fin 3 → Nat) a + S1x512x3.size a ≤ S1x512x3.size a
  h_S1x512x3 : 0 < S1x512x3.numel
  shapeCasts_S1x512x3_S512x3 : S1x512x3.ShapeCasts S512x3
  inb_S1x512x48_S1x512x48_0_0_0 : ∀ a, (![0, 0, 0] : Fin 3 → Nat) a + S1x512x48.size a ≤ S1x512x48.size a
  h_S1x512x48 : 0 < S1x512x48.numel
  shapeCasts_S1x512x48_S512x48 : S1x512x48.ShapeCasts S512x48
  slices_S512x48_o0_0_S512x3 : S512x48.Slices ![0, 0] S512x3
  slices_S512x48_o0_3_S512x3 : S512x48.Slices ![0, 3] S512x3
  slices_S512x48_o0_6_S512x3 : S512x48.Slices ![0, 6] S512x3
  slices_S512x48_o0_9_S512x3 : S512x48.Slices ![0, 9] S512x3
  slices_S512x48_o0_12_S512x3 : S512x48.Slices ![0, 12] S512x3
  slices_S512x48_o0_15_S512x3 : S512x48.Slices ![0, 15] S512x3
  slices_S512x48_o0_18_S512x3 : S512x48.Slices ![0, 18] S512x3
  slices_S512x48_o0_21_S512x3 : S512x48.Slices ![0, 21] S512x3
  slices_S512x48_o0_24_S512x3 : S512x48.Slices ![0, 24] S512x3
  slices_S512x48_o0_27_S512x3 : S512x48.Slices ![0, 27] S512x3
  slices_S512x48_o0_30_S512x3 : S512x48.Slices ![0, 30] S512x3
  slices_S512x48_o0_33_S512x3 : S512x48.Slices ![0, 33] S512x3
  slices_S512x48_o0_36_S512x3 : S512x48.Slices ![0, 36] S512x3
  slices_S512x48_o0_39_S512x3 : S512x48.Slices ![0, 39] S512x3
  slices_S512x48_o0_42_S512x3 : S512x48.Slices ![0, 42] S512x3
  slices_S512x48_o0_45_S512x3 : S512x48.Slices ![0, 45] S512x3
  shapeCasts_S512x3_S512x1x3 : S512x3.ShapeCasts S512x1x3
  concatenates_S512x1x3_S512x1x3_S512x1x3_S512x1x3_S512x1x3_S512x1x3_S512x1x3_S512x1x3_S512x1x3_S512x1x3_S512x1x3_S512x1x3_S512x1x3_S512x1x3_S512x1x3_S512x1x3_S512x16x3_d1 : Shape.Concatenates [S512x1x3, S512x1x3, S512x1x3, S512x1x3, S512x1x3, S512x1x3, S512x1x3, S512x1x3, S512x1x3, S512x1x3, S512x1x3, S512x1x3, S512x1x3, S512x1x3, S512x1x3, S512x1x3] S512x16x3 1
  shapeCasts_S512x1x3_S512x1x3 : S512x1x3.ShapeCasts S512x1x3
  broadcasts_S512x1x3_S512x16x3 : S512x1x3.Broadcasts S512x16x3
  reduces_S512x16x3_S512x16 : S512x16x3.Reduces [2] S512x16
  shapeCasts_S512x16_S512x16x1 : S512x16.ShapeCasts S512x16x1
  concatenates_S512x16x1_S512x16x3_S512x16x3_S512x16x3_S512x16x10_d2 : Shape.Concatenates [S512x16x1, S512x16x3, S512x16x3, S512x16x3] S512x16x10 2
  inb_S10x10_S10x10_0_0 : ∀ a, (![0, 0] : Fin 2 → Nat) a + S10x10.size a ≤ S10x10.size a
  h_S10x10 : 0 < S10x10.numel
  shapeCasts_S512x16x10_S8192x10 : S512x16x10.ShapeCasts S8192x10
  transposes_S10x10_p1_0_S10x10 : S10x10.Transposes [1, 0] S10x10
  shapeCasts_S8192x10_S512x16x10 : S8192x10.ShapeCasts S512x16x10
  reduces_S512x16x10_S512x10 : S512x16x10.Reduces [1] S512x10
  shapeCasts_S512x10_S512x1x10 : S512x10.ShapeCasts S512x1x10
  broadcasts_S512x1x10_S512x16x10 : S512x1x10.Broadcasts S512x16x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S512x10 : S1x10.Broadcasts S512x10
  inb_S1x512x10_S1x512x10_0_0_0 : ∀ a, (![0, 0, 0] : Fin 3 → Nat) a + S1x512x10.size a ≤ S1x512x10.size a
  h_S1x512x10 : 0 < S1x512x10.numel
  shapeCasts_S1x512x10_S512x10 : S1x512x10.ShapeCasts S512x10
  shapeCasts_S512x10_S1x512x10 : S512x10.ShapeCasts S1x512x10
  bcast_S_S16384x10 : S_.BroadcastsInDim S16384x10 (![] : Fin 0 → Fin S16384x10.rank)
  slices_S2x16384x16_S2x16384x1_0_0_0 : S2x16384x16.Slices ![0, 0, 0] S2x16384x1
  shapeCasts_S2x16384x1_S2x16384 : S2x16384x1.ShapeCasts S2x16384
  bcast_S_S2x16384 : S_.BroadcastsInDim S2x16384 (![] : Fin 0 → Fin S2x16384.rank)
  bcast_S2x16384_S2x16384x1_0_1 : S2x16384.BroadcastsInDim S2x16384x1 (![0, 1] : Fin 2 → Fin S2x16384x1.rank)
  bcast_S16384x10_S1x16384x10_1_2 : S16384x10.BroadcastsInDim S1x16384x10 (![1, 2] : Fin 2 → Fin S1x16384x10.rank)
  bcast_S1x16384x10_S2x16384x10_0_1_2 : S1x16384x10.BroadcastsInDim S2x16384x10 (![0, 1, 2] : Fin 3 → Fin S2x16384x10.rank)
  slices_S2x16384x16_S2x16384x1_0_0_1 : S2x16384x16.Slices ![0, 0, 1] S2x16384x1
  slices_S2x16384x16_S2x16384x1_0_0_2 : S2x16384x16.Slices ![0, 0, 2] S2x16384x1
  slices_S2x16384x16_S2x16384x1_0_0_3 : S2x16384x16.Slices ![0, 0, 3] S2x16384x1
  slices_S2x16384x16_S2x16384x1_0_0_4 : S2x16384x16.Slices ![0, 0, 4] S2x16384x1
  slices_S2x16384x16_S2x16384x1_0_0_5 : S2x16384x16.Slices ![0, 0, 5] S2x16384x1
  slices_S2x16384x16_S2x16384x1_0_0_6 : S2x16384x16.Slices ![0, 0, 6] S2x16384x1
  slices_S2x16384x16_S2x16384x1_0_0_7 : S2x16384x16.Slices ![0, 0, 7] S2x16384x1
  slices_S2x16384x16_S2x16384x1_0_0_8 : S2x16384x16.Slices ![0, 0, 8] S2x16384x1
  slices_S2x16384x16_S2x16384x1_0_0_9 : S2x16384x16.Slices ![0, 0, 9] S2x16384x1
  slices_S2x16384x16_S2x16384x1_0_0_10 : S2x16384x16.Slices ![0, 0, 10] S2x16384x1
  slices_S2x16384x16_S2x16384x1_0_0_11 : S2x16384x16.Slices ![0, 0, 11] S2x16384x1
  slices_S2x16384x16_S2x16384x1_0_0_12 : S2x16384x16.Slices ![0, 0, 12] S2x16384x1
  slices_S2x16384x16_S2x16384x1_0_0_13 : S2x16384x16.Slices ![0, 0, 13] S2x16384x1
  slices_S2x16384x16_S2x16384x1_0_0_14 : S2x16384x16.Slices ![0, 0, 14] S2x16384x1
  slices_S2x16384x16_S2x16384x1_0_0_15 : S2x16384x16.Slices ![0, 0, 15] S2x16384x1
  gather_S2x65536x3_S2x65536x16x1_S2x65536x16x3_3_1_0_0_1_3_113_wf : GatherDims.WF S2x65536x3 S2x65536x16x1 S2x65536x16x3 [3] [1] [0] [1] [0] 3 ![1, 1, 3]
  dot_S8192x10_S10x10_S8192x10_1_0_0_1_n_n_wf : DotDims.WF S8192x10 S10x10 S8192x10 [1] [0] [0] [1] [] []
  dot_S512x10_S10x10_S512x10_1_0_0_1_n_n_wf : DotDims.WF S512x10 S10x10 S512x10 [1] [0] [0] [1] [] []
  gather_S2x65536x10_S2x16384x1_S2x16384x10_2_1_0_0_1_2_1110_wf : GatherDims.WF S2x65536x10 S2x16384x1 S2x16384x10 [2] [1] [0] [1] [0] 2 ![1, 1, 10]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x3.size a ≤ S2x65536x3.size a
  hwx0_0 : ∀ i : grid0.Coords, EltTy.bits .f32 = 32 ∨ (Rect.block (s := S2x65536x3) S1x512x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x48.size a ≤ S2x65536x48.size a
  hwx0_1 : ∀ i : grid0.Coords, EltTy.bits .f32 = 32 ∨ (Rect.block (s := S2x65536x48) S1x512x48.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10x10.size a ≤ S10x10.size a
  hwx0_2 : ∀ i : grid0.Coords, EltTy.bits .f32 = 32 ∨ (Rect.block (s := S10x10) S10x10.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S10x10.size a ≤ S10x10.size a
  hwx0_3 : ∀ i : grid0.Coords, EltTy.bits .f32 = 32 ∨ (Rect.block (s := S10x10) S10x10.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x10.size a ≤ S1x10.size a
  hwx0_4 : ∀ i : grid0.Coords, EltTy.bits .f32 = 32 ∨ (Rect.block (s := S1x10) S1x10.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x10.size a ≤ S1x10.size a
  hwx0_5 : ∀ i : grid0.Coords, EltTy.bits .f32 = 32 ∨ (Rect.block (s := S1x10) S1x10.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x10.size a ≤ S1x10.size a
  hwx0_6 : ∀ i : grid0.Coords, EltTy.bits .f32 = 32 ∨ (Rect.block (s := S1x10) S1x10.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x10.size a ≤ S1x10.size a
  hwx0_7 : ∀ i : grid0.Coords, EltTy.bits .f32 = 32 ∨ (Rect.block (s := S1x10) S1x10.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x512x10.size a ≤ S2x65536x10.size a
  hwx0_8 : ∀ i : grid0.Coords, EltTy.bits .f32 = 32 ∨ (Rect.block (s := S2x65536x10) S1x512x10.size (cc0_transform_8 i) (hinb0_8 i)).WholeWords (EltTy.packing .f32)

variable [Facts₀]

def gather_S2x65536x3_S2x65536x16x1_S2x65536x16x3_3_1_0_0_1_3_113 : GatherDims S2x65536x3 S2x65536x16x1 S2x65536x16x3 where
  offsetDims := [3]
  collapsedSliceDims := [1]
  operandBatchingDims := [0]
  startIndicesBatchingDims := [0]
  startIndexMap := [1]
  indexVectorDim := 3
  sliceSizes := ![1, 1, 3]
  wf := gather_S2x65536x3_S2x65536x16x1_S2x65536x16x3_3_1_0_0_1_3_113_wf
def dot_S8192x10_S10x10_S8192x10_1_0_0_1_n_n : DotDims S8192x10 S10x10 S8192x10 where
  lhsContracting := [1]
  rhsContracting := [0]
  lhsNonContracting := [0]
  rhsNonContracting := [1]
  lhsBatch := []
  rhsBatch := []
  wf := dot_S8192x10_S10x10_S8192x10_1_0_0_1_n_n_wf
def dot_S512x10_S10x10_S512x10_1_0_0_1_n_n : DotDims S512x10 S10x10 S512x10 where
  lhsContracting := [1]
  rhsContracting := [0]
  lhsNonContracting := [0]
  rhsNonContracting := [1]
  lhsBatch := []
  rhsBatch := []
  wf := dot_S512x10_S10x10_S512x10_1_0_0_1_n_n_wf
def gather_S2x65536x10_S2x16384x1_S2x16384x10_2_1_0_0_1_2_1110 : GatherDims S2x65536x10 S2x16384x1 S2x16384x10 where
  offsetDims := [2]
  collapsedSliceDims := [1]
  operandBatchingDims := [0]
  startIndicesBatchingDims := [0]
  startIndexMap := [1]
  indexVectorDim := 2
  sliceSizes := ![1, 1, 10]
  wf := gather_S2x65536x10_S2x16384x1_S2x16384x10_2_1_0_0_1_2_1110_wf

abbrev win0_0 : Pipeline.Window sig grid0 :=
  Pipeline.Window.ofSpec (Memref.whole main_arg0) S1x512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1x512x48.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S10x10.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S10x10.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x10.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1x10.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S1x10.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v11) S1x10.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v12) S1x512x10.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S2x65536x3 : Shape := ⟨3, ![2, 65536, 3]⟩
abbrev S10x10 : Shape := ⟨2, ![10, 10]⟩
abbrev S10 : Shape := ⟨1, ![10]⟩
abbrev S2x65536x16 : Shape := ⟨3, ![2, 65536, 16]⟩
abbrev S2x16384x16 : Shape := ⟨3, ![2, 16384, 16]⟩
abbrev S_ : Shape := ⟨0, ![]⟩
abbrev S2x65536x16x1 : Shape := ⟨4, ![2, 65536, 16, 1]⟩
abbrev S2x65536x16x3 : Shape := ⟨4, ![2, 65536, 16, 3]⟩
abbrev S2x65536x1x3 : Shape := ⟨4, ![2, 65536, 1, 3]⟩
abbrev S2x65536x16x10 : Shape := ⟨4, ![2, 65536, 16, 10]⟩
abbrev S2x65536x10 : Shape := ⟨3, ![2, 65536, 10]⟩
abbrev S2x65536x1x10 : Shape := ⟨4, ![2, 65536, 1, 10]⟩
abbrev S1x1x10 : Shape := ⟨3, ![1, 1, 10]⟩
abbrev S2x16384x16x1 : Shape := ⟨4, ![2, 16384, 16, 1]⟩
abbrev S2x16384x16x10 : Shape := ⟨4, ![2, 16384, 16, 10]⟩
abbrev S2x16384x10 : Shape := ⟨3, ![2, 16384, 10]⟩

abbrev nBuf : Space → Nat
  | .hbm => 77
  | .vmem => 0
  | .smem => 0
  | _ => 0

abbrev bufTy : (tb : Table) → Fin (tcTables nBuf tb) → BufTy
  | .hbm, ⟨0, _⟩ => ⟨S2x65536x3, .f32⟩
  | .hbm, ⟨1, _⟩ => ⟨S10x10, .f32⟩
  | .hbm, ⟨2, _⟩ => ⟨S10x10, .f32⟩
  | .hbm, ⟨3, _⟩ => ⟨S10, .f32⟩
  | .hbm, ⟨4, _⟩ => ⟨S10, .f32⟩
  | .hbm, ⟨5, _⟩ => ⟨S10, .f32⟩
  | .hbm, ⟨6, _⟩ => ⟨S10, .f32⟩
  | .hbm, ⟨7, _⟩ => ⟨S2x65536x16, .i32⟩
  | .hbm, ⟨8, _⟩ => ⟨S2x16384x16, .i32⟩
  | .hbm, ⟨9, _⟩ => ⟨S_, .i32⟩
  | .hbm, ⟨10, _⟩ => ⟨S2x65536x16, .i32⟩
  | .hbm, ⟨11, _⟩ => ⟨S2x65536x16, .i1⟩
  | .hbm, ⟨12, _⟩ => ⟨S_, .i32⟩
  | .hbm, ⟨13, _⟩ => ⟨S2x65536x16, .i32⟩
  | .hbm, ⟨14, _⟩ => ⟨S2x65536x16, .i32⟩
  | .hbm, ⟨15, _⟩ => ⟨S2x65536x16, .i32⟩
  | .hbm, ⟨16, _⟩ => ⟨S2x65536x16x1, .i32⟩
  | .hbm, ⟨17, _⟩ => ⟨S2x65536x16x3, .f32⟩
  | .hbm, ⟨18, _⟩ => ⟨S2x65536x1x3, .f32⟩
  | .hbm, ⟨19, _⟩ => ⟨S2x65536x16x3, .f32⟩
  | .hbm, ⟨20, _⟩ => ⟨S2x65536x16x3, .f32⟩
  | .hbm, ⟨21, _⟩ => ⟨S2x65536x16x3, .f32⟩
  | .hbm, ⟨22, _⟩ => ⟨S_, .f32⟩
  | .hbm, ⟨23, _⟩ => ⟨S2x65536x16, .f32⟩
  | .hbm, ⟨24, _⟩ => ⟨S2x65536x16x1, .f32⟩
  | .hbm, ⟨25, _⟩ => ⟨S2x65536x16x1, .f32⟩
  | .hbm, ⟨26, _⟩ => ⟨S2x65536x16x3, .f32⟩
  | .hbm, ⟨27, _⟩ => ⟨S2x65536x16x10, .f32⟩
  | .hbm, ⟨28, _⟩ => ⟨S2x65536x16x10, .f32⟩
  | .hbm, ⟨29, _⟩ => ⟨S_, .f32⟩
  | .hbm, ⟨30, _⟩ => ⟨S2x65536x10, .f32⟩
  | .hbm, ⟨31, _⟩ => ⟨S_, .f32⟩
  | .hbm, ⟨32, _⟩ => ⟨S2x65536x10, .f32⟩
  | .hbm, ⟨33, _⟩ => ⟨S2x65536x10, .f32⟩
  | .hbm, ⟨34, _⟩ => ⟨S2x65536x1x10, .f32⟩
  | .hbm, ⟨35, _⟩ => ⟨S2x65536x16x10, .f32⟩
  | .hbm, ⟨36, _⟩ => ⟨S2x65536x16x10, .f32⟩
  | .hbm, ⟨37, _⟩ => ⟨S2x65536x16x10, .f32⟩
  | .hbm, ⟨38, _⟩ => ⟨S_, .f32⟩
  | .hbm, ⟨39, _⟩ => ⟨S2x65536x10, .f32⟩
  | .hbm, ⟨40, _⟩ => ⟨S2x65536x1x10, .f32⟩
  | .hbm, ⟨41, _⟩ => ⟨S2x65536x16x10, .f32⟩
  | .hbm, ⟨42, _⟩ => ⟨S2x65536x16x10, .f32⟩
  | .hbm, ⟨43, _⟩ => ⟨S2x65536x16x10, .f32⟩
  | .hbm, ⟨44, _⟩ => ⟨S_, .f32⟩
  | .hbm, ⟨45, _⟩ => ⟨S2x65536x10, .f32⟩
  | .hbm, ⟨46, _⟩ => ⟨S2x65536x10, .f32⟩
  | .hbm, ⟨47, _⟩ => ⟨S1x1x10, .f32⟩
  | .hbm, ⟨48, _⟩ => ⟨S2x65536x10, .f32⟩
  | .hbm, ⟨49, _⟩ => ⟨S2x65536x10, .f32⟩
  | .hbm, ⟨50, _⟩ => ⟨S_, .f32⟩
  | .hbm, ⟨51, _⟩ => ⟨S10, .f32⟩
  | .hbm, ⟨52, _⟩ => ⟨S10, .f32⟩
  | .hbm, ⟨53, _⟩ => ⟨S10, .f32⟩
  | .hbm, ⟨54, _⟩ => ⟨S1x1x10, .f32⟩
  | .hbm, ⟨55, _⟩ => ⟨S2x65536x10, .f32⟩
  | .hbm, ⟨56, _⟩ => ⟨S2x65536x10, .f32⟩
  | .hbm, ⟨57, _⟩ => ⟨S1x1x10, .f32⟩
  | .hbm, ⟨58, _⟩ => ⟨S2x65536x10, .f32⟩
  | .hbm, ⟨59, _⟩ => ⟨S2x65536x10, .f32⟩
  | .hbm, ⟨60, _⟩ => ⟨S1x1x10, .f32⟩
  | .hbm, ⟨61, _⟩ => ⟨S2x65536x10, .f32⟩
  | .hbm, ⟨62, _⟩ => ⟨S2x65536x10, .f32⟩
  | .hbm, ⟨63, _⟩ => ⟨S_, .f32⟩
  | .hbm, ⟨64, _⟩ => ⟨S2x65536x10, .f32⟩
  | .hbm, ⟨65, _⟩ => ⟨S2x65536x10, .f32⟩
  | .hbm, ⟨66, _⟩ => ⟨S_, .i32⟩
  | .hbm, ⟨67, _⟩ => ⟨S2x16384x16, .i32⟩
  | .hbm, ⟨68, _⟩ => ⟨S2x16384x16, .i1⟩
  | .hbm, ⟨69, _⟩ => ⟨S_, .i32⟩
  | .hbm, ⟨70, _⟩ => ⟨S2x16384x16, .i32⟩
  | .hbm, ⟨71, _⟩ => ⟨S2x16384x16, .i32⟩
  | .hbm, ⟨72, _⟩ => ⟨S2x16384x16, .i32⟩
  | .hbm, ⟨73, _⟩ => ⟨S2x16384x16x1, .i32⟩
  | .hbm, ⟨74, _⟩ => ⟨S2x16384x16x10, .f32⟩
  | .hbm, ⟨75, _⟩ => ⟨S_, .f32⟩
  | .hbm, ⟨76, _⟩ => ⟨S2x16384x10, .f32⟩
  | _, _ => ⟨S2x65536x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_5 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_call0_cst : Ref sig .tc := ⟨.hbm, 63, rfl⟩
abbrev main_call0_v0 : Ref sig .tc := ⟨.hbm, 64, rfl⟩
abbrev main_v46 : Ref sig .tc := ⟨.hbm, 65, rfl⟩
abbrev main_c_6 : Ref sig .tc := ⟨.hbm, 66, rfl⟩
abbrev main_v47 : Ref sig .tc := ⟨.hbm, 67, rfl⟩
abbrev main_v48 : Ref sig .tc := ⟨.hbm, 68, rfl⟩
abbrev main_c_7 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_8 : Ref sig .tc := ⟨.hbm, 75, rfl⟩
abbrev main_v54 : Ref sig .tc := ⟨.hbm, 76, rfl⟩

abbrev nD : Nat := 1
abbrev τ : Topo := Topo.v7x

variable {F : FTy → Type} [FloatOps F]

class Facts₀ : Prop where
  bcast_S_S2x65536x16 : S_.BroadcastsInDim S2x65536x16 (![] : Fin 0 → Fin S2x65536x16.rank)
  bcast_S2x65536x16_S2x65536x16x1_0_1_2 : S2x65536x16.BroadcastsInDim S2x65536x16x1 (![0, 1, 2] : Fin 3 → Fin S2x65536x16x1.rank)
  bcast_S2x65536x3_S2x65536x1x3_0_1_3 : S2x65536x3.BroadcastsInDim S2x65536x1x3 (![0, 1, 3] : Fin 3 → Fin S2x65536x1x3.rank)
  bcast_S2x65536x1x3_S2x65536x16x3_0_1_2_3 : S2x65536x1x3.BroadcastsInDim S2x65536x16x3 (![0, 1, 2, 3] : Fin 4 → Fin S2x65536x16x3.rank)
  reducesTo_S2x65536x16x3_S2x65536x16_d3 : S2x65536x16x3.ReducesTo [3] S2x65536x16
  h_S_ : 0 < S_.numel
  concatenates_S2x65536x16x1_S2x65536x16x3_S2x65536x16x3_S2x65536x16x3_S2x65536x16x10_d3 : Shape.Concatenates [S2x65536x16x1, S2x65536x16x3, S2x65536x16x3, S2x65536x16x3] S2x65536x16x10 3
  reducesTo_S2x65536x16x10_S2x65536x10_d2 : S2x65536x16x10.ReducesTo [2] S2x65536x10
  bcast_S_S2x65536x10 : S_.BroadcastsInDim S2x65536x10 (![] : Fin 0 → Fin S2x65536x10.rank)
  bcast_S2x65536x10_S2x65536x1x10_0_1_3 : S2x65536x10.BroadcastsInDim S2x65536x1x10 (![0, 1, 3] : Fin 3 → Fin S2x65536x1x10.rank)
  bcast_S2x65536x1x10_S2x65536x16x10_0_1_2_3 : S2x65536x1x10.BroadcastsInDim S2x65536x16x10 (![0, 1, 2, 3] : Fin 4 → Fin S2x65536x16x10.rank)
  bcast_S10_S1x1x10_2 : S10.BroadcastsInDim S1x1x10 (![2] : Fin 1 → Fin S1x1x10.rank)
  bcast_S1x1x10_S2x65536x10_0_1_2 : S1x1x10.BroadcastsInDim S2x65536x10 (![0, 1, 2] : Fin 3 → Fin S2x65536x10.rank)
  bcast_S_S10 : S_.BroadcastsInDim S10 (![] : Fin 0 → Fin S10.rank)
  bcast_S_S2x16384x16 : S_.BroadcastsInDim S2x16384x16 (![] : Fin 0 → Fin S2x16384x16.rank)
  bcast_S2x16384x16_S2x16384x16x1_0_1_2 : S2x16384x16.BroadcastsInDim S2x16384x16x1 (![0, 1, 2] : Fin 3 → Fin S2x16384x16x1.rank)
  reducesTo_S2x16384x16x10_S2x16384x10_d2 : S2x16384x16x10.ReducesTo [2] S2x16384x10
  gather_S2x65536x3_S2x65536x16x1_S2x65536x16x3_3_1_0_0_1_3_113_wf : GatherDims.WF S2x65536x3 S2x65536x16x1 S2x65536x16x3 [3] [1] [0] [1] [0] 3 ![1, 1, 3]
  dot_S2x65536x16x10_S10x10_S2x65536x16x10_3_1_012_0_n_n_wf : DotDims.WF S2x65536x16x10 S10x10 S2x65536x16x10 [3] [1] [0, 1, 2] [0] [] []
  dot_S2x65536x10_S10x10_S2x65536x10_2_1_01_0_n_n_wf : DotDims.WF S2x65536x10 S10x10 S2x65536x10 [2] [1] [0, 1] [0] [] []
  gather_S2x65536x10_S2x16384x16x1_S2x16384x16x10_3_1_0_0_1_3_1110_wf : GatherDims.WF S2x65536x10 S2x16384x16x1 S2x16384x16x10 [3] [1] [0] [1] [0] 3 ![1, 1, 10]

variable [Facts₀]

def gather_S2x65536x3_S2x65536x16x1_S2x65536x16x3_3_1_0_0_1_3_113 : GatherDims S2x65536x3 S2x65536x16x1 S2x65536x16x3 where
  offsetDims := [3]
  collapsedSliceDims := [1]
  operandBatchingDims := [0]
  startIndicesBatchingDims := [0]
  startIndexMap := [1]
  indexVectorDim := 3
  sliceSizes := ![1, 1, 3]
  wf := gather_S2x65536x3_S2x65536x16x1_S2x65536x16x3_3_1_0_0_1_3_113_wf
def dot_S2x65536x16x10_S10x10_S2x65536x16x10_3_1_012_0_n_n : DotDims S2x65536x16x10 S10x10 S2x65536x16x10 where
  lhsContracting := [3]
  rhsContracting := [1]
  lhsNonContracting := [0, 1, 2]
  rhsNonContracting := [0]
  lhsBatch := []
  rhsBatch := []
  wf := dot_S2x65536x16x10_S10x10_S2x65536x16x10_3_1_012_0_n_n_wf
def dot_S2x65536x10_S10x10_S2x65536x10_2_1_01_0_n_n : DotDims S2x65536x10 S10x10 S2x65536x10 where
  lhsContracting := [2]
  rhsContracting := [1]
  lhsNonContracting := [0, 1]
  rhsNonContracting := [0]
  lhsBatch := []
  rhsBatch := []
  wf := dot_S2x65536x10_S10x10_S2x65536x10_2_1_01_0_n_n_wf
def gather_S2x65536x10_S2x16384x16x1_S2x16384x16x10_3_1_0_0_1_3_1110 : GatherDims S2x65536x10 S2x16384x16x1 S2x16384x16x10 where
  offsetDims := [3]
  collapsedSliceDims := [1]
  operandBatchingDims := [0]
  startIndicesBatchingDims := [0]
  startIndexMap := [1]
  indexVectorDim := 3
  sliceSizes := ![1, 1, 10]
  wf := gather_S2x65536x10_S2x16384x16x1_S2x16384x16x10_3_1_0_0_1_3_1110_wf

class Facts : Prop extends Facts₀ where

variable [Facts]
-- ==== Proof.FrameDataB.lean ====
/-
  The proof data of the one pipelined region of `Kernel`, for any float instance.

  The region walks a grid of 2 × 128 points. At point `t` it is handed the block of 512 points of batch
  `t / 128` (their coordinates, window 0, and their 16 packed neighbours, window 1) and the six parameter
  tables whole (windows 2–7), and it leaves in the output block (window 8) one pure function of those eight
  blocks: `tileOut`, the kernel body's single whole-block store over the values it loaded.
  `V` names the arrays as the region finds them (after the host operations before it), `iblk` a window's
  block at a point, and `dats` says that after the body every input buffer still holds its block and the
  output buffer holds `tileOut` of the inputs' blocks.
-/
import proofs.«152972_j13804024889408_2_alg».proof.Proof.Gen.Kernel.Launch
import proofs.«152972_j13804024889408_2_alg».proof.Proof.Gen.Kernel.Skeleton
import proofs.«152972_j13804024889408_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- Core `c`'s buffer contents when the region is entered: the launch memory after the host operations
    that precede the region. -/
abbrev V0 (c : Dev nD) : Valuation τ sig (Elt F) := StableHlo.after (List.flatten [hostOps0]) (fun b => m (c, b))
/-- The same read at one reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses: every load and the one store take a whole buffer -/

abbrev rPt : Rect S1x512x3 := Rect.unit (s := S1x512x3) ![0, 0, 0] S1x512x3.size inb_S1x512x3_S1x512x3_0_0_0
abbrev rNb : Rect S1x512x48 := Rect.unit (s := S1x512x48) ![0, 0, 0] S1x512x48.size inb_S1x512x48_S1x512x48_0_0_0
abbrev rTab : Rect S10x10 := Rect.unit (s := S10x10) ![0, 0] S10x10.size inb_S10x10_S10x10_0_0
abbrev rRow : Rect S1x10 := Rect.unit (s := S1x10) ![0, 0] S1x10.size inb_S1x10_S1x10_0_0
abbrev rOut : Rect S1x512x10 := Rect.unit (s := S1x512x10) ![0, 0, 0] S1x512x10.size inb_S1x512x10_S1x512x10_0_0_0

/-- What the body leaves in the output buffer, from the eight input blocks: its one store, of the payload
    chain over the loaded values. -/
def tileOut (x0 : Vec F S1x512x3 .f32) (x1 : Vec F S1x512x48 .f32) (x2 x3 : Vec F S10x10 .f32)
    (x4 x5 x6 x7 : Vec F S1x10 .f32) : Vec F S1x512x10 .f32 :=
  View.canon [⟨rOut, k0_pay4 (k0_pay1 (View.ld x0 rPt) (View.ld x1 rNb)) (k0_pay2 (View.ld x0 rPt) (View.ld x1 rNb))
    (k0_pay3 (View.ld x2 rTab)) (View.ld x3 rTab) (View.ld x4 rRow) (View.ld x5 rRow) (View.ld x6 rRow) (View.ld x7 rRow)⟩]

/-- The store takes the whole output buffer, so it covers it. -/
theorem coverOut (p0 : Vec F S1x512x10 .f32) (y : S1x512x10.Idx) :
    ∃ pc ∈ ([⟨rOut, p0⟩] : List (View.Piece (Elt F) S1x512x10 .f32)), y ∈ pc.1.set :=
  View.cover_of_tiled [⟨rOut, p0⟩] S1x512x10.size (by rfl) y

/-! ## The proof data -/

/-- On core `c`: the arrays as the region finds them; after the body at point `t` each input buffer at its
    block and the output buffer at `tileOut` of the input blocks; the invariant the scoped rest, untouched;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => tileOut (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

/-- The proof data's arrays are the region-entry contents (the record projected, the fold never opened). -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t =
    tileOut (iblk m c 0 t) (iblk m c 1 t) (iblk m c 2 t) (iblk m c 3 t) (iblk m c 4 t) (iblk m c 5 t) (iblk m c 6 t) (iblk m c 7 t) := by
  dsimp only [dats]

end Cert.Kernel.Fr

end
-- ==== Proof.FrameRunB.lean ====
/-
  The frame of `Kernel`, for any float instance: every weakly fair execution of @main terminates, nothing
  faults, and the nine argument arrays end as they were launched.

  @main is fourteen host operations, the pipelined region, and 196 host operations after it. The region's
  body, run on whole staging buffers holding the eight input blocks, loads them, stores one value into the
  output buffer and returns the inputs untouched (`sound_kernel`). At every grid point each input buffer
  holds that point's block, whether or not the pipeline fetched it there — the parameter tables are fetched
  once, their index never moves — so the body's triple discharges the region's obligation (`sound_body`).
  The operations after the region allocate nothing, touch only unscoped buffers, and each writes only its
  own result, which is neither an argument nor an array the region stages; so the arguments are at the end
  what the operations before the region left, and none of those writes an argument either.
-/
import proofs.«152972_j13804024889408_2_alg».proof.Proof.FrameDataB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxRecDepth 200000 in
/-- @main is the operations before the region, the region, and the operations after it: it reduces to the
    region continued by the later operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- Each operation after the region writes only its own result, which is no array the region stages. -/
theorem tail_keeps_arrays : (hostOps1 : List (HloOp τ sig (Elt F))).Forall fun op =>
    ∀ w : Fin 9, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact fun w => StableHlo.devRef_ne_of_ne ((by decide : ∀ w : Fin 9, Pipeline.arrRef spec0 w ≠ _) w)

/-- Nor is it one of the six arguments the region does not stage. -/
theorem tail_keeps_args : (hostOps1 : List (HloOp τ sig (Elt F))).Forall fun op =>
    Proc.devRef .tc main_arg3 ∉ op.writes ∧ Proc.devRef .tc main_arg4 ∉ op.writes ∧ Proc.devRef .tc main_arg5 ∉ op.writes
      ∧ Proc.devRef .tc main_arg6 ∉ op.writes ∧ Proc.devRef .tc main_arg7 ∉ op.writes ∧ Proc.devRef .tc main_arg8 ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  exact (List.forall_iff_forall_mem.mp tail_keeps_arrays) op hop

/-! ## No host operation writes an argument -/

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [List.flatten_cons, List.flatten_nil, List.append_nil]
      exact (tail_keeps_args (F := F)).imp fun _ h => h.1)),
    Pipeline.withArrays_of_ne _ c (V0 m c) _ main_arg3 (by exact (by decide : ∀ w, Pipeline.arrRef spec0 w ≠ main_arg3))]
  exact V_main_arg3 m c
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [List.flatten_cons, List.flatten_nil, List.append_nil]
      exact (tail_keeps_args (F := F)).imp fun _ h => h.2.1)),
    Pipeline.withArrays_of_ne _ c (V0 m c) _ main_arg4 (by exact (by decide : ∀ w, Pipeline.arrRef spec0 w ≠ main_arg4))]
  exact V_main_arg4 m c
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [List.flatten_cons, List.flatten_nil, List.append_nil]
      exact (tail_keeps_args (F := F)).imp fun _ h => h.2.2.1)),
    Pipeline.withArrays_of_ne _ c (V0 m c) _ main_arg5 (by exact (by decide : ∀ w, Pipeline.arrRef spec0 w ≠ main_arg5))]
  exact V_main_arg5 m c
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [List.flatten_cons, List.flatten_nil, List.append_nil]
      exact (tail_keeps_args (F := F)).imp fun _ h => h.2.2.2.1)),
    Pipeline.withArrays_of_ne _ c (V0 m c) _ main_arg6 (by exact (by decide : ∀ w, Pipeline.arrRef spec0 w ≠ main_arg6))]
  exact V_main_arg6 m c
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [List.flatten_cons, List.flatten_nil, List.append_nil]
      exact (tail_keeps_args (F := F)).imp fun _ h => h.2.2.2.2.1)),
    Pipeline.withArrays_of_ne _ c (V0 m c) _ main_arg7 (by exact (by decide : ∀ w, Pipeline.arrRef spec0 w ≠ main_arg7))]
  exact V_main_arg7 m c
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [List.flatten_cons, List.flatten_nil, List.append_nil]
      exact (tail_keeps_args (F := F)).imp fun _ h => h.2.2.2.2.2)),
    Pipeline.withArrays_of_ne _ c (V0 m c) _ main_arg8 (by exact (by decide : ∀ w, Pipeline.arrRef spec0 w ≠ main_arg8))]
  exact V_main_arg8 m c

/-! ## Each input buffer holds its block at every point -/

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_0 (c : Dev nD) (t : Fin cfg0.N) (d) : (dats m 0 c).before 0 t d = iblk m c 0 t :=
  before0_0_of m (dats m 0 c) (A_eq m c 0) (after0_0 m c) t d
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_1 (c : Dev nD) (t : Fin cfg0.N) (d) : (dats m 0 c).before 1 t d = iblk m c 1 t :=
  before0_1_of m (dats m 0 c) (A_eq m c 1) (after0_1 m c) t d
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_2 (c : Dev nD) (t : Fin cfg0.N) (d) : (dats m 0 c).before 2 t d = iblk m c 2 t :=
  before0_2_of m (dats m 0 c) (A_eq m c 2) (after0_2 m c) t d
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_3 (c : Dev nD) (t : Fin cfg0.N) (d) : (dats m 0 c).before 3 t d = iblk m c 3 t :=
  before0_3_of m (dats m 0 c) (A_eq m c 3) (after0_3 m c) t d
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_4 (c : Dev nD) (t : Fin cfg0.N) (d) : (dats m 0 c).before 4 t d = iblk m c 4 t :=
  before0_4_of m (dats m 0 c) (A_eq m c 4) (after0_4 m c) t d
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_5 (c : Dev nD) (t : Fin cfg0.N) (d) : (dats m 0 c).before 5 t d = iblk m c 5 t :=
  before0_5_of m (dats m 0 c) (A_eq m c 5) (after0_5 m c) t d
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_6 (c : Dev nD) (t : Fin cfg0.N) (d) : (dats m 0 c).before 6 t d = iblk m c 6 t :=
  before0_6_of m (dats m 0 c) (A_eq m c 6) (after0_6 m c) t d
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_7 (c : Dev nD) (t : Fin cfg0.N) (d) : (dats m 0 c).before 7 t d = iblk m c 7 t :=
  before0_7_of m (dats m 0 c) (A_eq m c 7) (after0_7 m c) t d

/-! ## The frame claim's post from the frame run's -/

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).1 0).trans (((dats 0 c).arrAt_in 0 rfl _).trans ((hA c 0).trans (V_main_arg0 m c))),
      ((h c).1 2).trans (((dats 0 c).arrAt_in 2 rfl _).trans ((hA c 2).trans (V_main_arg1 m c))),
      ((h c).1 3).trans (((dats 0 c).arrAt_in 3 rfl _).trans ((hA c 3).trans (V_main_arg2 m c))),
      ((h c).2 main_arg3 (Pipeline.mem_restRefs_of main_arg3 (by decide) (by decide))).trans (W_main_arg3 m dats c),
      ((h c).2 main_arg4 (Pipeline.mem_restRefs_of main_arg4 (by decide) (by decide))).trans (W_main_arg4 m dats c),
      ((h c).2 main_arg5 (Pipeline.mem_restRefs_of main_arg5 (by decide) (by decide))).trans (W_main_arg5 m dats c),
      ((h c).2 main_arg6 (Pipeline.mem_restRefs_of main_arg6 (by decide) (by decide))).trans (W_main_arg6 m dats c),
      ((h c).2 main_arg7 (Pipeline.mem_restRefs_of main_arg7 (by decide) (by decide))).trans (W_main_arg7 m dats c),
      ((h c).2 main_arg8 (Pipeline.mem_restRefs_of main_arg8 (by decide) (by decide))).trans (W_main_arg8 m dats c)⟩) h

/-! ## The body's triple -/

set_option maxHeartbeats 1000000 in
/-- The body on whole staging buffers, the inputs' at contents `xW` and the output's at anything, runs to the
    continuation holding the inputs' as they were and the output's at `tileOut` of the inputs'. -/
theorem sound_kernel (c : Dev nD) (E : Set ℕ) (i : grid0.Coords) (arg2 : Memref sig .tc .vmem S1x512x3 .f32) (harg2 : arg2.IsWhole) (arg3 : Memref sig .tc .vmem S1x512x48 .f32) (harg3 : arg3.IsWhole) (arg4 : Memref sig .tc .vmem S10x10 .f32) (harg4 : arg4.IsWhole) (arg5 : Memref sig .tc .vmem S10x10 .f32) (harg5 : arg5.IsWhole) (arg6 : Memref sig .tc .vmem S1x10 .f32) (harg6 : arg6.IsWhole) (arg7 : Memref sig .tc .vmem S1x10 .f32) (harg7 : arg7.IsWhole) (arg8 : Memref sig .tc .vmem S1x10 .f32) (harg8 : arg8.IsWhole) (arg9 : Memref sig .tc .vmem S1x10 .f32) (harg9 : arg9.IsWhole) (arg10 : Memref sig .tc .vmem S1x512x10 .f32) (harg10 : arg10.IsWhole)
    (x0 : Vec F S1x512x3 .f32) (x1 : Vec F S1x512x48 .f32) (x2 x3 : Vec F S10x10 .f32) (x4 x5 x6 x7 : Vec F S1x10 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (tileOut x0 x1 x2 x3 x4 x5 x6 x7)) -∗ K ⟨⟩))
      ⊢ wp frame (wpE (defs₀ (F := F)) Variants.none c none) E (cc0__lambda_ i arg2 harg2 arg3 harg3 arg4 harg4 arg5 harg5 arg6 harg6 arg7 harg7 arg8 harg8 arg9 harg9 arg10 harg10) K := by
  simp only [cc0__lambda__eq_skeleton]; unfold cc0__lambda__skel
  simp only [k0_part1_eq_skeleton]; unfold k0_part1_skel
  simp only [k0_part2_eq_skeleton]; unfold k0_part2_skel
  simp only [bind_assoc, pure_bind]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  try dsimp only
  exact View.read_writes_eq_canon _ _ _ (coverOut _)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ (grid0.coords t) _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation (c : Dev nD) : BodyObligation (dats (F := F) m 0 c) (defs₀ (F := F)) Variants.none () Set.univ := fun t => by
  rw [bigSep_W0, bigSep_W0]
  exact sound_body m c t

/-! ## The run and the frame -/

set_option maxRecDepth 200000 in
set_option backward.isDefEq.respectTransparency.types false in
/-- Every weakly fair execution of @main terminates, every staged array ends at what the proof data computes
    and every other unscoped buffer as the operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the nine argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.Kernel.Fr

end
-- ==== Proof.FrameDataI.lean ====
/-
  The proof data of the one pipelined region of `KernelIdeal`, for any float instance.

  The region walks a grid of 2 × 128 points. At point `t` it is handed the block of 512 points of batch
  `t / 128` (their coordinates, window 0, and their 16 packed neighbours, window 1) and the six parameter
  tables whole (windows 2–7), and it leaves in the output block (window 8) one pure function of those eight
  blocks: `tileOut`, the kernel body's single whole-block store over the values it loaded.
  `V` names the arrays as the region finds them (after the host operations before it), `iblk` a window's
  block at a point, and `dats` says that after the body every input buffer still holds its block and the
  output buffer holds `tileOut` of the inputs' blocks.
-/
import proofs.«152972_j13804024889408_2_alg».proof.Proof.Gen.KernelIdeal.Launch
import proofs.«152972_j13804024889408_2_alg».proof.Proof.Gen.KernelIdeal.Skeleton
import proofs.«152972_j13804024889408_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- Core `c`'s buffer contents when the region is entered: the launch memory after the host operations
    that precede the region. -/
abbrev V0 (c : Dev nD) : Valuation τ sig (Elt F) := StableHlo.after (List.flatten [hostOps0]) (fun b => m (c, b))
/-- The same read at one reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses: every load and the one store take a whole buffer -/

abbrev rPt : Rect S1x512x3 := Rect.unit (s := S1x512x3) ![0, 0, 0] S1x512x3.size inb_S1x512x3_S1x512x3_0_0_0
abbrev rNb : Rect S1x512x48 := Rect.unit (s := S1x512x48) ![0, 0, 0] S1x512x48.size inb_S1x512x48_S1x512x48_0_0_0
abbrev rTab : Rect S10x10 := Rect.unit (s := S10x10) ![0, 0] S10x10.size inb_S10x10_S10x10_0_0
abbrev rRow : Rect S1x10 := Rect.unit (s := S1x10) ![0, 0] S1x10.size inb_S1x10_S1x10_0_0
abbrev rOut : Rect S1x512x10 := Rect.unit (s := S1x512x10) ![0, 0, 0] S1x512x10.size inb_S1x512x10_S1x512x10_0_0_0

/-- What the body leaves in the output buffer, from the eight input blocks: its one store, of the payload
    chain over the loaded values. -/
def tileOut (x0 : Vec F S1x512x3 .f32) (x1 : Vec F S1x512x48 .f32) (x2 x3 : Vec F S10x10 .f32)
    (x4 x5 x6 x7 : Vec F S1x10 .f32) : Vec F S1x512x10 .f32 :=
  View.canon [⟨rOut, k0_pay4 (k0_pay1 (View.ld x0 rPt) (View.ld x1 rNb)) (k0_pay2 (View.ld x0 rPt) (View.ld x1 rNb))
    (k0_pay3 (View.ld x2 rTab)) (View.ld x3 rTab) (View.ld x4 rRow) (View.ld x5 rRow) (View.ld x6 rRow) (View.ld x7 rRow)⟩]

/-- The store takes the whole output buffer, so it covers it. -/
theorem coverOut (p0 : Vec F S1x512x10 .f32) (y : S1x512x10.Idx) :
    ∃ pc ∈ ([⟨rOut, p0⟩] : List (View.Piece (Elt F) S1x512x10 .f32)), y ∈ pc.1.set :=
  View.cover_of_tiled [⟨rOut, p0⟩] S1x512x10.size (by rfl) y

/-! ## The proof data -/

/-- On core `c`: the arrays as the region finds them; after the body at point `t` each input buffer at its
    block and the output buffer at `tileOut` of the input blocks; the invariant the scoped rest, untouched;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => tileOut (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

/-- The proof data's arrays are the region-entry contents (the record projected, the fold never opened). -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t =
    tileOut (iblk m c 0 t) (iblk m c 1 t) (iblk m c 2 t) (iblk m c 3 t) (iblk m c 4 t) (iblk m c 5 t) (iblk m c 6 t) (iblk m c 7 t) := by
  dsimp only [dats]

end Cert.KernelIdeal.Fr

end
-- ==== Proof.FrameRunI.lean ====
/-
  The frame of `KernelIdeal`, for any float instance: every weakly fair execution of @main terminates, nothing
  faults, and the nine argument arrays end as they were launched.

  @main is fourteen host operations, the pipelined region, and 196 host operations after it. The region's
  body, run on whole staging buffers holding the eight input blocks, loads them, stores one value into the
  output buffer and returns the inputs untouched (`sound_kernel`). At every grid point each input buffer
  holds that point's block, whether or not the pipeline fetched it there — the parameter tables are fetched
  once, their index never moves — so the body's triple discharges the region's obligation (`sound_body`).
  The operations after the region allocate nothing, touch only unscoped buffers, and each writes only its
  own result, which is neither an argument nor an array the region stages; so the arguments are at the end
  what the operations before the region left, and none of those writes an argument either.
-/
import proofs.«152972_j13804024889408_2_alg».proof.Proof.FrameDataI

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxRecDepth 200000 in
/-- @main is the operations before the region, the region, and the operations after it: it reduces to the
    region continued by the later operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- Each operation after the region writes only its own result, which is no array the region stages. -/
theorem tail_keeps_arrays : (hostOps1 : List (HloOp τ sig (Elt F))).Forall fun op =>
    ∀ w : Fin 9, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact fun w => StableHlo.devRef_ne_of_ne ((by decide : ∀ w : Fin 9, Pipeline.arrRef spec0 w ≠ _) w)

/-- Nor is it one of the six arguments the region does not stage. -/
theorem tail_keeps_args : (hostOps1 : List (HloOp τ sig (Elt F))).Forall fun op =>
    Proc.devRef .tc main_arg3 ∉ op.writes ∧ Proc.devRef .tc main_arg4 ∉ op.writes ∧ Proc.devRef .tc main_arg5 ∉ op.writes
      ∧ Proc.devRef .tc main_arg6 ∉ op.writes ∧ Proc.devRef .tc main_arg7 ∉ op.writes ∧ Proc.devRef .tc main_arg8 ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  exact (List.forall_iff_forall_mem.mp tail_keeps_arrays) op hop

/-! ## No host operation writes an argument -/

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [List.flatten_cons, List.flatten_nil, List.append_nil]
      exact (tail_keeps_args (F := F)).imp fun _ h => h.1)),
    Pipeline.withArrays_of_ne _ c (V0 m c) _ main_arg3 (by exact (by decide : ∀ w, Pipeline.arrRef spec0 w ≠ main_arg3))]
  exact V_main_arg3 m c
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [List.flatten_cons, List.flatten_nil, List.append_nil]
      exact (tail_keeps_args (F := F)).imp fun _ h => h.2.1)),
    Pipeline.withArrays_of_ne _ c (V0 m c) _ main_arg4 (by exact (by decide : ∀ w, Pipeline.arrRef spec0 w ≠ main_arg4))]
  exact V_main_arg4 m c
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [List.flatten_cons, List.flatten_nil, List.append_nil]
      exact (tail_keeps_args (F := F)).imp fun _ h => h.2.2.1)),
    Pipeline.withArrays_of_ne _ c (V0 m c) _ main_arg5 (by exact (by decide : ∀ w, Pipeline.arrRef spec0 w ≠ main_arg5))]
  exact V_main_arg5 m c
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [List.flatten_cons, List.flatten_nil, List.append_nil]
      exact (tail_keeps_args (F := F)).imp fun _ h => h.2.2.2.1)),
    Pipeline.withArrays_of_ne _ c (V0 m c) _ main_arg6 (by exact (by decide : ∀ w, Pipeline.arrRef spec0 w ≠ main_arg6))]
  exact V_main_arg6 m c
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [List.flatten_cons, List.flatten_nil, List.append_nil]
      exact (tail_keeps_args (F := F)).imp fun _ h => h.2.2.2.2.1)),
    Pipeline.withArrays_of_ne _ c (V0 m c) _ main_arg7 (by exact (by decide : ∀ w, Pipeline.arrRef spec0 w ≠ main_arg7))]
  exact V_main_arg7 m c
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [List.flatten_cons, List.flatten_nil, List.append_nil]
      exact (tail_keeps_args (F := F)).imp fun _ h => h.2.2.2.2.2)),
    Pipeline.withArrays_of_ne _ c (V0 m c) _ main_arg8 (by exact (by decide : ∀ w, Pipeline.arrRef spec0 w ≠ main_arg8))]
  exact V_main_arg8 m c

/-! ## Each input buffer holds its block at every point -/

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_0 (c : Dev nD) (t : Fin cfg0.N) (d) : (dats m 0 c).before 0 t d = iblk m c 0 t :=
  before0_0_of m (dats m 0 c) (A_eq m c 0) (after0_0 m c) t d
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_1 (c : Dev nD) (t : Fin cfg0.N) (d) : (dats m 0 c).before 1 t d = iblk m c 1 t :=
  before0_1_of m (dats m 0 c) (A_eq m c 1) (after0_1 m c) t d
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_2 (c : Dev nD) (t : Fin cfg0.N) (d) : (dats m 0 c).before 2 t d = iblk m c 2 t :=
  before0_2_of m (dats m 0 c) (A_eq m c 2) (after0_2 m c) t d
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_3 (c : Dev nD) (t : Fin cfg0.N) (d) : (dats m 0 c).before 3 t d = iblk m c 3 t :=
  before0_3_of m (dats m 0 c) (A_eq m c 3) (after0_3 m c) t d
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_4 (c : Dev nD) (t : Fin cfg0.N) (d) : (dats m 0 c).before 4 t d = iblk m c 4 t :=
  before0_4_of m (dats m 0 c) (A_eq m c 4) (after0_4 m c) t d
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_5 (c : Dev nD) (t : Fin cfg0.N) (d) : (dats m 0 c).before 5 t d = iblk m c 5 t :=
  before0_5_of m (dats m 0 c) (A_eq m c 5) (after0_5 m c) t d
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_6 (c : Dev nD) (t : Fin cfg0.N) (d) : (dats m 0 c).before 6 t d = iblk m c 6 t :=
  before0_6_of m (dats m 0 c) (A_eq m c 6) (after0_6 m c) t d
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_7 (c : Dev nD) (t : Fin cfg0.N) (d) : (dats m 0 c).before 7 t d = iblk m c 7 t :=
  before0_7_of m (dats m 0 c) (A_eq m c 7) (after0_7 m c) t d

/-! ## The frame claim's post from the frame run's -/

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).1 0).trans (((dats 0 c).arrAt_in 0 rfl _).trans ((hA c 0).trans (V_main_arg0 m c))),
      ((h c).1 2).trans (((dats 0 c).arrAt_in 2 rfl _).trans ((hA c 2).trans (V_main_arg1 m c))),
      ((h c).1 3).trans (((dats 0 c).arrAt_in 3 rfl _).trans ((hA c 3).trans (V_main_arg2 m c))),
      ((h c).2 main_arg3 (Pipeline.mem_restRefs_of main_arg3 (by decide) (by decide))).trans (W_main_arg3 m dats c),
      ((h c).2 main_arg4 (Pipeline.mem_restRefs_of main_arg4 (by decide) (by decide))).trans (W_main_arg4 m dats c),
      ((h c).2 main_arg5 (Pipeline.mem_restRefs_of main_arg5 (by decide) (by decide))).trans (W_main_arg5 m dats c),
      ((h c).2 main_arg6 (Pipeline.mem_restRefs_of main_arg6 (by decide) (by decide))).trans (W_main_arg6 m dats c),
      ((h c).2 main_arg7 (Pipeline.mem_restRefs_of main_arg7 (by decide) (by decide))).trans (W_main_arg7 m dats c),
      ((h c).2 main_arg8 (Pipeline.mem_restRefs_of main_arg8 (by decide) (by decide))).trans (W_main_arg8 m dats c)⟩) h

/-! ## The body's triple -/

set_option maxHeartbeats 1000000 in
/-- The body on whole staging buffers, the inputs' at contents `xW` and the output's at anything, runs to the
    continuation holding the inputs' as they were and the output's at `tileOut` of the inputs'. -/
theorem sound_kernel (c : Dev nD) (E : Set ℕ) (i : grid0.Coords) (arg2 : Memref sig .tc .vmem S1x512x3 .f32) (harg2 : arg2.IsWhole) (arg3 : Memref sig .tc .vmem S1x512x48 .f32) (harg3 : arg3.IsWhole) (arg4 : Memref sig .tc .vmem S10x10 .f32) (harg4 : arg4.IsWhole) (arg5 : Memref sig .tc .vmem S10x10 .f32) (harg5 : arg5.IsWhole) (arg6 : Memref sig .tc .vmem S1x10 .f32) (harg6 : arg6.IsWhole) (arg7 : Memref sig .tc .vmem S1x10 .f32) (harg7 : arg7.IsWhole) (arg8 : Memref sig .tc .vmem S1x10 .f32) (harg8 : arg8.IsWhole) (arg9 : Memref sig .tc .vmem S1x10 .f32) (harg9 : arg9.IsWhole) (arg10 : Memref sig .tc .vmem S1x512x10 .f32) (harg10 : arg10.IsWhole)
    (x0 : Vec F S1x512x3 .f32) (x1 : Vec F S1x512x48 .f32) (x2 x3 : Vec F S10x10 .f32) (x4 x5 x6 x7 : Vec F S1x10 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (tileOut x0 x1 x2 x3 x4 x5 x6 x7)) -∗ K ⟨⟩))
      ⊢ wp frame (wpE (defs₀ (F := F)) Variants.none c none) E (cc0__lambda_ i arg2 harg2 arg3 harg3 arg4 harg4 arg5 harg5 arg6 harg6 arg7 harg7 arg8 harg8 arg9 harg9 arg10 harg10) K := by
  simp only [cc0__lambda__eq_skeleton]; unfold cc0__lambda__skel
  simp only [k0_part1_eq_skeleton]; unfold k0_part1_skel
  simp only [k0_part2_eq_skeleton]; unfold k0_part2_skel
  simp only [bind_assoc, pure_bind]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  try dsimp only
  exact View.read_writes_eq_canon _ _ _ (coverOut _)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ (grid0.coords t) _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation (c : Dev nD) : BodyObligation (dats (F := F) m 0 c) (defs₀ (F := F)) Variants.none () Set.univ := fun t => by
  rw [bigSep_W0, bigSep_W0]
  exact sound_body m c t

/-! ## The run and the frame -/

set_option maxRecDepth 200000 in
set_option backward.isDefEq.respectTransparency.types false in
/-- Every weakly fair execution of @main terminates, every staged array ends at what the proof data computes
    and every other unscoped buffer as the operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the nine argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.KernelIdeal.Fr

end
-- ==== Proof.KRun.lean ====
/-
  The idealized kernel's run with its result named: every weakly fair execution of @main terminates, the
  result buffer ends at what the 196 host operations after the region compute from the arrays the region
  leaves, and the nine arguments end as launched.
-/
import proofs.«152972_j13804024889408_2_alg».proof.Proof.FrameRunI

set_option maxRecDepth 16384

noncomputable section

namespace Cert.KernelIdeal.Fr

open Cert.KernelIdeal Cert.KernelIdeal.Gen
open Idealize.ShloMosaic Idealize.ShloMosaic.TcCoe
open Idealize.SL Idealize.SL.Sem
open Idealize.ShloMosaic.Pipeline (Dat Cfg Window BodyObligation cellOf)

variable {F : FTy → Type} [FloatOps F]
variable (m : (ℓ : Loc nD τ sig) → Buf (Elt F) ℓ) (ρ : Dev nD → PrngReg)

/-- What the result buffer holds at the end on core `c`. -/
def result (c : Dev nD) : Buf (Elt F) ((c.tc : Thread nD τ).loc main_v175) :=
  Pipeline.afterTail₀ cfgs (dats m) 0 (V0 m) [hostOps1] c main_v175

theorem run_result : θ_run defs (onTc (τ := τ) (main (F := F))) ⟨m, fun _ => 0, ρ⟩ (fun r => ∀ c : Dev nD,
      r.2.mem ((c.tc : Thread nD τ).loc main_v175) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c).2 main_v175 (Pipeline.mem_restRefs_of main_v175 (by decide) (by decide)),
      ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).1 3).trans (((dats m 0 c).arrAt_in 3 rfl _).trans ((A_eq m c 3).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩) (run_main m ρ)

end Cert.KernelIdeal.Fr

end
-- ==== Proof.Spec.lean ====
/-
  The mathematics both programs compute, stated once over the extended reals with plain finite indices.

  For one point with coordinates `x : Fin 3 → EReal` and its 16 neighbours `nb k : Fin 3 → EReal`:
  * `feat x nb k` is the 10 features of neighbour `k`: the distance `√(Σ_j (x_j − nb_kj)²)`, then the three
    differences `x − nb_k`, then `x`, then `nb_k`;
  * `attOf f w k o = Σ_i f k i · w o i` is the attention logit (the 1×1 convolution without bias);
  * `rowOf f a …` is the softmax over the 16 neighbours of the logits `a` (shifted by their maximum), the
    softmax-weighted sum of the features `f`, the second 1×1 convolution, the affine normalisation
    `(y − mean) · rsqrt(var + ε) · gamma + beta` and the clamp at zero;
  * `poolOf Y idx` is the maximum over the 16 sampled rows of `Y`, each row named by an index word that is
    wrapped when negative and clamped into the table.
-/
import Idealize.ShloMosaic.PureOps.Ideal
import Idealize.ShloMosaic.Lib.ValueIdx

noncomputable section

open scoped BigOperators

namespace Cert.Spec

open Idealize.ShloMosaic Idealize.ShloMosaic.ValueIdx

/-- Coordinate `j` of neighbour `k` in a row of 48 packed lanes. -/
def lane (k : Fin 16) (j : Fin 3) : Fin 48 := ⟨3 * k.val + j.val, by have := k.isLt; have := j.isLt; omega⟩

/-- Neighbour `k` of tile row `p` among the 8192 flattened rows of a tile. -/
def flat (p : Fin 512) (k : Fin 16) : Fin 8192 := ⟨16 * p.val + k.val, by have := p.isLt; have := k.isLt; omega⟩

/-- Row `p` of the `i`-th tile of 512 rows among the 65536 points of a batch. -/
def rowAt (i : Fin 128) (p : Fin 512) : Fin 65536 := ⟨512 * i.val + p.val, by have := i.isLt; have := p.isLt; omega⟩

/-- The normalisation's epsilon, as the word both programs spell. -/
def eps : EReal := Ideal.ofBits .f32 0x3727C5AC#32

/-- The clamp's zero, as the word both programs spell. -/
def zero : EReal := Ideal.ofBits .f32 0x00000000#32

/-- Distance from the point to neighbour `k`. -/
def dist (x : Fin 3 → EReal) (nb : Fin 16 → Fin 3 → EReal) (k : Fin 16) : EReal :=
  Ideal.sqrt (∑ j : Fin 3, (x j - nb k j) * (x j - nb k j))

/-- The ten features of neighbour `k`: distance, difference, point, neighbour. -/
def feat (x : Fin 3 → EReal) (nb : Fin 16 → Fin 3 → EReal) (k : Fin 16) (d : Fin 10) : EReal :=
  if _h1 : d.val < 1 then dist x nb k
  else if h4 : d.val < 4 then x ⟨d.val - 1, by omega⟩ - nb k ⟨d.val - 1, by omega⟩
  else if h7 : d.val < 7 then x ⟨d.val - 4, by omega⟩
  else nb k ⟨d.val - 7, by omega⟩

/-- Logits: features against the rows of the weight table. -/
def attOf (f : Fin 16 → Fin 10 → EReal) (w : Fin 10 → Fin 10 → EReal) (k : Fin 16) (o : Fin 10) : EReal :=
  ∑ i : Fin 10, f k i * w o i

/-- The largest logit of channel `o` over the neighbours. -/
def amax (a : Fin 16 → Fin 10 → EReal) (o : Fin 10) : EReal := ⨆ k : Fin 16, a k o

/-- Shifted exponentials. -/
def ex (a : Fin 16 → Fin 10 → EReal) (k : Fin 16) (o : Fin 10) : EReal := Ideal.exp (a k o - amax a o)

/-- Their sum over the neighbours. -/
def esum (a : Fin 16 → Fin 10 → EReal) (o : Fin 10) : EReal := ∑ k : Fin 16, ex a k o

/-- Softmax-weighted sum of the features. -/
def agg (f a : Fin 16 → Fin 10 → EReal) (d : Fin 10) : EReal :=
  ∑ k : Fin 16, f k d * Ideal.div (ex a k d) (esum a d)

/-- The second linear layer. -/
def lin (f a : Fin 16 → Fin 10 → EReal) (w2 : Fin 10 → Fin 10 → EReal) (o : Fin 10) : EReal :=
  ∑ i : Fin 10, agg f a i * w2 o i

/-- One output row from features `f` and logits `a`. -/
def rowOf (f a : Fin 16 → Fin 10 → EReal) (w2 : Fin 10 → Fin 10 → EReal) (gamma beta mean var : Fin 10 → EReal)
    (o : Fin 10) : EReal :=
  max ((lin f a w2 o - mean o) * Ideal.rsqrt (var o + eps) * gamma o + beta o) zero

/-- One output row from the point, its neighbours and the parameters. -/
def row (x : Fin 3 → EReal) (nb : Fin 16 → Fin 3 → EReal) (w w2 : Fin 10 → Fin 10 → EReal)
    (gamma beta mean var : Fin 10 → EReal) (o : Fin 10) : EReal :=
  rowOf (feat x nb) (attOf (feat x nb) w) w2 gamma beta mean var o

/-- A negative index word counts from the end of the table of 65536 rows. -/
def wrapW (w : BitVec 32) : BitVec 32 :=
  Scalar.select (IntOp.cmpi .slt w 0#32) (IntOp.addi w 65536#32) w

/-- The row an index word selects: read signed, clamped into the table. -/
def rowSel (w : BitVec 32) : Fin 65536 := ⟨min w.toInt.toNat 65535, by omega⟩

/-- The maximum over the 16 sampled rows. -/
def poolOf (Y : (⟨3, ![2, 65536, 10]⟩ : Shape).Idx → EReal) (idx : (⟨3, ![2, 16384, 16]⟩ : Shape).Idx → BitVec 32)
    (b : Fin 2) (m : Fin 16384) (o : Fin 10) : EReal :=
  ⨆ k : Fin 16, Y (ix3 b (rowSel (wrapW (idx (ix3 b m k)))) o)

end Cert.Spec

end
-- ==== Proof.KArray.lean ====
/-
  From the output blocks to the whole result array, and the arrays the host prepares before the region.

  The region walks 2 × 128 grid points; point t = 128 · b + i handles the 512 points of tile i of batch b. Its
  input blocks are restrictions of the arrays the region finds: rows 512 · i … 512 · i + 511 of batch b of the
  coordinate array and of the packed-neighbour array, and the six parameter tables whole. The block it writes back
  is one pure function of those blocks (the payload), and the output blocks tile the result array, so the result
  array after the run is ONE function of its index: at batch b, row n, channel o it is the payload of the point
  (b, n / 512) read at (0, n % 512, o). `arr8_apply` states that at row 512 · i + p.

  Before the region the host wraps negative index words, gathers every point's 16 neighbours' coordinates and packs
  the 16 × 3 numbers of a point into a row of 48 lanes (lane 3 · k + j is coordinate j of neighbour k), and adds a
  leading unit axis to four parameter vectors. `V_v7_apply` … `V_v11_apply` read those arrays at an index.
-/
import proofs.«152972_j13804024889408_2_alg».proof.Proof.FrameDataI
import proofs.«152972_j13804024889408_2_alg».proof.Proof.Spec
import proofs.«152972_j13804024889408_2_alg».proof.Proof.Gen.ReferenceIdeal.Read
import Idealize.ShloMosaic.Lib.Pipeline.Value
import Idealize.ShloMosaic.Lib.ValueIdx
import Idealize.ShloMosaic.Lib.ValueLayout

set_option maxRecDepth 16384

noncomputable section

namespace Cert.KArray

open Cert.KernelIdeal Cert.KernelIdeal.Gen Cert.KernelIdeal.Fr Idealize.ShloMosaic Idealize.ShloMosaic.ValueIdx
open Idealize.ShloMosaic.TcCoe

variable (m : (ℓ : Loc nD τ sig) → Buf (Elt Ideal) ℓ) (c : Dev nD)

/-- the point with grid coordinates (b, i) -/
def pt (b : Fin 2) (i : Fin 128) : Fin cfg0.N :=
  ⟨128 * b.val + i.val, by
    have hb := b.isLt; have hi := i.isLt
    show 128 * b.val + i.val < grid0.N
    rw [Gen.N_0]; omega⟩

/-- the coordinates of the 512 points of tile i of batch b, as a block -/
def blkPt (b : Fin 2) (i : Fin 128) : Vec Ideal S1x512x3 .f32 :=
  fun y => V m c main_arg0 (ix3 b (Cert.Spec.rowAt i (y 1)) (y 2))
/-- the packed neighbours of the same 512 points, as a block -/
def blkNb (b : Fin 2) (i : Fin 128) : Vec Ideal S1x512x48 .f32 :=
  fun y => V m c main_v7 (ix3 b (Cert.Spec.rowAt i (y 1)) (y 2))

/-- the payload of the point (b, i) -/
def payAt (b : Fin 2) (i : Fin 128) : Vec Ideal S1x512x10 .f32 :=
  k0_pay4 (F := Ideal) (k0_pay1 (blkPt m c b i) (blkNb m c b i)) (k0_pay2 (blkPt m c b i) (blkNb m c b i))
    (k0_pay3 (V m c main_arg1)) (V m c main_arg2) (V m c main_v8) (V m c main_v9) (V m c main_v10) (V m c main_v11)

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps, decided once over the 256 grid points: the three blocked windows sit at block
    (t / 128, t % 128, 0); the six whole tables at block (0, 0). -/
theorem idx_facts : ∀ t : Fin cfg0.N,
    (win0_0.index t (0 : Fin 3) = t.val / 128 ∧ win0_0.index t (1 : Fin 3) = t.val % 128 ∧ win0_0.index t (2 : Fin 3) = 0)
    ∧ (win0_1.index t (0 : Fin 3) = t.val / 128 ∧ win0_1.index t (1 : Fin 3) = t.val % 128 ∧ win0_1.index t (2 : Fin 3) = 0)
    ∧ (win0_8.index t (0 : Fin 3) = t.val / 128 ∧ win0_8.index t (1 : Fin 3) = t.val % 128 ∧ win0_8.index t (2 : Fin 3) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0) :=
  (by decide +kernel : ∀ t : Fin grid0.N, _)

/-- the batch of grid point t -/
def tb (t : Fin cfg0.N) : Fin 2 := ⟨t.val / 128, by
  have h : t.val < grid0.N := t.isLt
  rw [Gen.N_0] at h; omega⟩
/-- the tile of grid point t within its batch -/
def ti (t : Fin cfg0.N) : Fin 128 := ⟨t.val % 128, by omega⟩

/-! ## Each input block, read off its array -/

/-- Window 0's block at point t is the 512 points of tile t % 128 of batch t / 128. -/
theorem iblk0_eq (t : Fin cfg0.N) : (iblk (F := Ideal) m c 0 t : Vec Ideal S1x512x3 .f32) = blkPt m c (tb t) (ti t) := by
  obtain ⟨e0, e1, e2⟩ := (idx_facts t).1
  funext y
  show V m c main_arg0 (((cfg0.win 0).blk t).view.emb y) = V m c main_arg0 (ix3 (tb t) (Cert.Spec.rowAt (ti t) (y 1)) (y 2))
  refine congrArg (V m c main_arg0) ?_
  funext a; apply Fin.ext
  match a with
  | ⟨0, _⟩ => show win0_0.index t (0 : Fin 3) * 1 + 1 * (y 0).val = t.val / 128; have hy : (y 0).val < 1 := (y 0).isLt; omega
  | ⟨1, _⟩ => show win0_0.index t (1 : Fin 3) * 512 + 1 * (y 1).val = 512 * (t.val % 128) + (y 1).val; omega
  | ⟨2, _⟩ => show win0_0.index t (2 : Fin 3) * 3 + 1 * (y 2).val = (y 2).val; omega

/-- Window 1's block at point t is the packed neighbours of the same 512 points. -/
theorem iblk1_eq (t : Fin cfg0.N) : (iblk (F := Ideal) m c 1 t : Vec Ideal S1x512x48 .f32) = blkNb m c (tb t) (ti t) := by
  obtain ⟨e0, e1, e2⟩ := (idx_facts t).2.1
  funext y
  show V m c main_v7 (((cfg0.win 1).blk t).view.emb y) = V m c main_v7 (ix3 (tb t) (Cert.Spec.rowAt (ti t) (y 1)) (y 2))
  refine congrArg (V m c main_v7) ?_
  funext a; apply Fin.ext
  match a with
  | ⟨0, _⟩ => show win0_1.index t (0 : Fin 3) * 1 + 1 * (y 0).val = t.val / 128; have hy : (y 0).val < 1 := (y 0).isLt; omega
  | ⟨1, _⟩ => show win0_1.index t (1 : Fin 3) * 512 + 1 * (y 1).val = 512 * (t.val % 128) + (y 1).val; omega
  | ⟨2, _⟩ => show win0_1.index t (2 : Fin 3) * 48 + 1 * (y 2).val = (y 2).val; omega

/-- Window 2 stages its whole array at every point (the first weight table). -/
theorem iblk2_eq (t : Fin cfg0.N) : (iblk (F := Ideal) m c 2 t : Vec Ideal S10x10 .f32) = V m c main_arg1 := by
  obtain ⟨e0, e1⟩ := (idx_facts t).2.2.2.1
  funext y
  show V m c main_arg1 (((cfg0.win 2).blk t).view.emb y) = V m c main_arg1 y
  refine congrArg (V m c main_arg1) ?_
  funext a; apply Fin.ext
  match a with
  | ⟨0, _⟩ => show win0_2.index t (0 : Fin 2) * 10 + 1 * (y 0).val = (y 0).val; omega
  | ⟨1, _⟩ => show win0_2.index t (1 : Fin 2) * 10 + 1 * (y 1).val = (y 1).val; omega

/-- Window 3 stages its whole array at every point (the second weight table). -/
theorem iblk3_eq (t : Fin cfg0.N) : (iblk (F := Ideal) m c 3 t : Vec Ideal S10x10 .f32) = V m c main_arg2 := by
  obtain ⟨e0, e1⟩ := (idx_facts t).2.2.2.2.1
  funext y
  show V m c main_arg2 (((cfg0.win 3).blk t).view.emb y) = V m c main_arg2 y
  refine congrArg (V m c main_arg2) ?_
  funext a; apply Fin.ext
  match a with
  | ⟨0, _⟩ => show win0_3.index t (0 : Fin 2) * 10 + 1 * (y 0).val = (y 0).val; omega
  | ⟨1, _⟩ => show win0_3.index t (1 : Fin 2) * 10 + 1 * (y 1).val = (y 1).val; omega

/-- Window 4 stages its whole array at every point (the first parameter row). -/
theorem iblk4_eq (t : Fin cfg0.N) : (iblk (F := Ideal) m c 4 t : Vec Ideal S1x10 .f32) = V m c main_v8 := by
  obtain ⟨e0, e1⟩ := (idx_facts t).2.2.2.2.2.1
  funext y
  show V m c main_v8 (((cfg0.win 4).blk t).view.emb y) = V m c main_v8 y
  refine congrArg (V m c main_v8) ?_
  funext a; apply Fin.ext
  match a with
  | ⟨0, _⟩ => show win0_4.index t (0 : Fin 2) * 1 + 1 * (y 0).val = (y 0).val; omega
  | ⟨1, _⟩ => show win0_4.index t (1 : Fin 2) * 10 + 1 * (y 1).val = (y 1).val; omega

/-- Window 5 stages its whole array at every point (the second parameter row). -/
theorem iblk5_eq (t : Fin cfg0.N) : (iblk (F := Ideal) m c 5 t : Vec Ideal S1x10 .f32) = V m c main_v9 := by
  obtain ⟨e0, e1⟩ := (idx_facts t).2.2.2.2.2.2.1
  funext y
  show V m c main_v9 (((cfg0.win 5).blk t).view.emb y) = V m c main_v9 y
  refine congrArg (V m c main_v9) ?_
  funext a; apply Fin.ext
  match a with
  | ⟨0, _⟩ => show win0_5.index t (0 : Fin 2) * 1 + 1 * (y 0).val = (y 0).val; omega
  | ⟨1, _⟩ => show win0_5.index t (1 : Fin 2) * 10 + 1 * (y 1).val = (y 1).val; omega

/-- Window 6 stages its whole array at every point (the third parameter row). -/
theorem iblk6_eq (t : Fin cfg0.N) : (iblk (F := Ideal) m c 6 t : Vec Ideal S1x10 .f32) = V m c main_v10 := by
  obtain ⟨e0, e1⟩ := (idx_facts t).2.2.2.2.2.2.2.1
  funext y
  show V m c main_v10 (((cfg0.win 6).blk t).view.emb y) = V m c main_v10 y
  refine congrArg (V m c main_v10) ?_
  funext a; apply Fin.ext
  match a with
  | ⟨0, _⟩ => show win0_6.index t (0 : Fin 2) * 1 + 1 * (y 0).val = (y 0).val; omega
  | ⟨1, _⟩ => show win0_6.index t (1 : Fin 2) * 10 + 1 * (y 1).val = (y 1).val; omega

/-- Window 7 stages its whole array at every point (the fourth parameter row). -/
theorem iblk7_eq (t : Fin cfg0.N) : (iblk (F := Ideal) m c 7 t : Vec Ideal S1x10 .f32) = V m c main_v11 := by
  obtain ⟨e0, e1⟩ := (idx_facts t).2.2.2.2.2.2.2.2
  funext y
  show V m c main_v11 (((cfg0.win 7).blk t).view.emb y) = V m c main_v11 y
  refine congrArg (V m c main_v11) ?_
  funext a; apply Fin.ext
  match a with
  | ⟨0, _⟩ => show win0_7.index t (0 : Fin 2) * 1 + 1 * (y 0).val = (y 0).val; omega
  | ⟨1, _⟩ => show win0_7.index t (1 : Fin 2) * 10 + 1 * (y 1).val = (y 1).val; omega

/-! ## The whole result array as one function of its index -/

/-- the batch of an index of the result array -/
def bOf (idx : S2x65536x10.Idx) : Fin 2 := ⟨(idx 0).val, (idx 0).isLt⟩
/-- the tile a row lies in -/
def iOf (idx : S2x65536x10.Idx) : Fin 128 := ⟨(idx 1).val / 512, by have h : (idx 1).val < 65536 := (idx 1).isLt; omega⟩
/-- the position of an index inside its tile's block -/
def yOf (idx : S2x65536x10.Idx) : S1x512x10.Idx :=
  ix3 (0 : Fin 1) (⟨(idx 1).val % 512, by omega⟩ : Fin 512) (⟨(idx 2).val, (idx 2).isLt⟩ : Fin 10)

/-- Row n of batch b, channel o: the payload of the point (b, n / 512) at (0, n % 512, o). -/
def G : S2x65536x10.Idx → Elt Ideal .f32 := fun idx => payAt m c (bOf idx) (iOf idx) (yOf idx)

/-- G at an index whose coordinates are known. -/
theorem G_at (b : Fin 2) (i : Fin 128) (idx : S2x65536x10.Idx) (y : S1x512x10.Idx)
    (h0 : (idx 0).val = b.val) (h1 : (idx 1).val = 512 * i.val + (y 1).val) (h2 : (idx 2).val = (y 2).val) :
    G m c idx = payAt m c b i y := by
  have hy1 : (y 1).val < 512 := (y 1).isLt
  have hb : bOf idx = b := Fin.ext h0
  have hi : iOf idx = i := Fin.ext (by show (idx 1).val / 512 = i.val; omega)
  have hy : yOf idx = y := by
    funext a; apply Fin.ext
    match a with
    | ⟨0, _⟩ => show 0 = (y 0).val; have : (y 0).val < 1 := (y 0).isLt; omega
    | ⟨1, _⟩ => show (idx 1).val % 512 = (y 1).val; omega
    | ⟨2, _⟩ => show (idx 2).val = (y 2).val; exact h2
  unfold G
  rw [hb, hi, hy]

/-- What point t writes back is block t of G. -/
theorem flushed_eq (t : Fin cfg0.N) :
    (dats (F := Ideal) m 0 c).flushed 8 t = ((cfg0.win 8).blk t).view.read (Elt Ideal) (G m c) := by
  show (cfg0.win 8).cut (grid0.coords t) ((dats (F := Ideal) m 0 c).after 8 t) = _
  rw [after0_8]
  unfold tileOut
  rw [View.canon_unit_zero hz3]
  simp only [View.ld_unit_zero (S := S1x512x3) hz3, View.ld_unit_zero (S := S1x512x48) hz3,
    View.ld_unit_zero (S := S10x10) hz2, View.ld_unit_zero (S := S1x10) hz2]
  rw [iblk0_eq m c t, iblk1_eq m c t, iblk2_eq m c t, iblk3_eq m c t, iblk4_eq m c t, iblk5_eq m c t,
    iblk6_eq m c t, iblk7_eq m c t]
  obtain ⟨e0, e1, e2⟩ := (idx_facts t).2.2.1
  funext y
  show payAt m c (tb t) (ti t) y = G m c (((cfg0.win 8).blk t).view.emb y)
  refine (G_at m c (tb t) (ti t) _ y ?_ ?_ ?_).symm
  · show win0_8.index t (0 : Fin 3) * 1 + 1 * (y 0).val = t.val / 128
    have hy : (y 0).val < 1 := (y 0).isLt; omega
  · show win0_8.index t (1 : Fin 3) * 512 + 1 * (y 1).val = 512 * (t.val % 128) + (y 1).val
    omega
  · show win0_8.index t (2 : Fin 3) * 10 + 1 * (y 2).val = (y 2).val
    omega

/-- An index of the array is in point t's block iff each coordinate is in the block's range on its axis. -/
theorem mem_blk (t : Fin cfg0.N) (i : S2x65536x10.Idx) :
    i ∈ ((cfg0.win 8).blk t).view.set ↔ ∀ a : Fin 3, win0_8.index t a * S1x512x10.size a ≤ (i a).val ∧ (i a).val < win0_8.index t a * S1x512x10.size a + S1x512x10.size a := by
  show i ∈ ((View.whole main_v12).slice (win0_8.rect t)).set ↔ _
  rw [View.set_slice_whole, Rect.mem_set_unit]
  exact Iff.rfl

/-- Row n of batch b lies in the block of the point 128 · b + n / 512: the blocks cover the array. -/
theorem cover (i : S2x65536x10.Idx) :
    ∃ t : Fin cfg0.N, (cfg0.win 8).flush t = true ∧ i ∈ ((cfg0.win 8).blk t).view.set := by
  have hi0 : (i 0).val < 2 := (i 0).isLt
  have hi1 : (i 1).val < 65536 := (i 1).isLt
  have hi2 : (i 2).val < 10 := (i 2).isLt
  have hlt : 128 * (i 0).val + (i 1).val / 512 < cfg0.N := by
    show 128 * (i 0).val + (i 1).val / 512 < grid0.N
    rw [Gen.N_0]; omega
  refine ⟨⟨128 * (i 0).val + (i 1).val / 512, hlt⟩, flush0_8 _, ?_⟩
  rw [mem_blk]
  obtain ⟨e0, e1, e2⟩ := (idx_facts ⟨128 * (i 0).val + (i 1).val / 512, hlt⟩).2.2.1
  have e0' : win0_8.index ⟨128 * (i 0).val + (i 1).val / 512, hlt⟩ (0 : Fin 3) = (128 * (i 0).val + (i 1).val / 512) / 128 := e0
  have e1' : win0_8.index ⟨128 * (i 0).val + (i 1).val / 512, hlt⟩ (1 : Fin 3) = (128 * (i 0).val + (i 1).val / 512) % 128 := e1
  intro a
  match a with
  | ⟨0, _⟩ =>
    show win0_8.index ⟨128 * (i 0).val + (i 1).val / 512, hlt⟩ (0 : Fin 3) * 1 ≤ (i 0).val ∧ (i 0).val < win0_8.index ⟨128 * (i 0).val + (i 1).val / 512, hlt⟩ (0 : Fin 3) * 1 + 1
    omega
  | ⟨1, _⟩ =>
    show win0_8.index ⟨128 * (i 0).val + (i 1).val / 512, hlt⟩ (1 : Fin 3) * 512 ≤ (i 1).val ∧ (i 1).val < win0_8.index ⟨128 * (i 0).val + (i 1).val / 512, hlt⟩ (1 : Fin 3) * 512 + 512
    omega
  | ⟨2, _⟩ =>
    show win0_8.index ⟨128 * (i 0).val + (i 1).val / 512, hlt⟩ (2 : Fin 3) * 10 ≤ (i 2).val ∧ (i 2).val < win0_8.index ⟨128 * (i 0).val + (i 1).val / 512, hlt⟩ (2 : Fin 3) * 10 + 10
    omega

/-- After the run the result array is G. -/
theorem final : (dats (F := Ideal) m 0 c).arrAt 8 cfg0.N = G m c :=
  (dats (F := Ideal) m 0 c).arrAt_eq_of_cover 8 (G m c) (fun t _ => flushed_eq m c t) (cover)

/-- The result array at row 512 · i + p of batch b is the payload of the point (b, i) at row p. -/
theorem arr8_apply (b : Fin 2) (i : Fin 128) (p : Fin 512) (o : Fin 10) :
    (dats (F := Ideal) m 0 c).arrAt 8 cfg0.N (ix3 b (Cert.Spec.rowAt i p) o)
      = k0_pay4 (F := Ideal) (k0_pay1 (blkPt m c b i) (blkNb m c b i)) (k0_pay2 (blkPt m c b i) (blkNb m c b i))
          (k0_pay3 (V m c main_arg1)) (V m c main_arg2) (V m c main_v8) (V m c main_v9) (V m c main_v10) (V m c main_v11)
          (ix3 (0 : Fin 1) p o) := by
  rw [final m c]
  exact G_at m c b i (ix3 b (Cert.Spec.rowAt i p) o) (ix3 (0 : Fin 1) p o) rfl rfl rfl

/-! ## The arrays the host computes before the region -/

/-- The host reshapes main_arg3 : [10] to [1, 10] before the region. -/
theorem V_v8_eq : (V (F := Ideal) m c main_v8 : S1x10.Idx → Elt Ideal .f32)
    = shapeCast S1x10 (m ((c : Thread nD τ).loc main_arg3)) Facts₀.shapeCasts_S10_S1x10 := by
  dsimp only [V, V0]
  simp only [hostOps0, List.flatten_cons, List.flatten_nil, List.append_nil, List.cons_append, List.nil_append]
  show StableHlo.after _ (fun b => m (c, b)) (Proc.devRef .tc main_v8) = _
  after_results; rfl

/-- … so its entry (0, o) is the vector's entry o. -/
theorem V_v8_apply (o : Fin 10) :
    V (F := Ideal) m c main_v8 (ix2 (0 : Fin 1) o) = m ((c : Thread nD τ).loc main_arg3) (ix1 o) := by
  rw [V_v8_eq m c]
  exact shapeCast_a_1a_apply _ _ (0 : Fin 1) o

/-- The host reshapes main_arg4 : [10] to [1, 10] before the region. -/
theorem V_v9_eq : (V (F := Ideal) m c main_v9 : S1x10.Idx → Elt Ideal .f32)
    = shapeCast S1x10 (m ((c : Thread nD τ).loc main_arg4)) Facts₀.shapeCasts_S10_S1x10 := by
  dsimp only [V, V0]
  simp only [hostOps0, List.flatten_cons, List.flatten_nil, List.append_nil, List.cons_append, List.nil_append]
  show StableHlo.after _ (fun b => m (c, b)) (Proc.devRef .tc main_v9) = _
  after_results; rfl

/-- … so its entry (0, o) is the vector's entry o. -/
theorem V_v9_apply (o : Fin 10) :
    V (F := Ideal) m c main_v9 (ix2 (0 : Fin 1) o) = m ((c : Thread nD τ).loc main_arg4) (ix1 o) := by
  rw [V_v9_eq m c]
  exact shapeCast_a_1a_apply _ _ (0 : Fin 1) o

/-- The host reshapes main_arg5 : [10] to [1, 10] before the region. -/
theorem V_v10_eq : (V (F := Ideal) m c main_v10 : S1x10.Idx → Elt Ideal .f32)
    = shapeCast S1x10 (m ((c : Thread nD τ).loc main_arg5)) Facts₀.shapeCasts_S10_S1x10 := by
  dsimp only [V, V0]
  simp only [hostOps0, List.flatten_cons, List.flatten_nil, List.append_nil, List.cons_append, List.nil_append]
  show StableHlo.after _ (fun b => m (c, b)) (Proc.devRef .tc main_v10) = _
  after_results; rfl

/-- … so its entry (0, o) is the vector's entry o. -/
theorem V_v10_apply (o : Fin 10) :
    V (F := Ideal) m c main_v10 (ix2 (0 : Fin 1) o) = m ((c : Thread nD τ).loc main_arg5) (ix1 o) := by
  rw [V_v10_eq m c]
  exact shapeCast_a_1a_apply _ _ (0 : Fin 1) o

/-- The host reshapes main_arg6 : [10] to [1, 10] before the region. -/
theorem V_v11_eq : (V (F := Ideal) m c main_v11 : S1x10.Idx → Elt Ideal .f32)
    = shapeCast S1x10 (m ((c : Thread nD τ).loc main_arg6)) Facts₀.shapeCasts_S10_S1x10 := by
  dsimp only [V, V0]
  simp only [hostOps0, List.flatten_cons, List.flatten_nil, List.append_nil, List.cons_append, List.nil_append]
  show StableHlo.after _ (fun b => m (c, b)) (Proc.devRef .tc main_v11) = _
  after_results; rfl

/-- … so its entry (0, o) is the vector's entry o. -/
theorem V_v11_apply (o : Fin 10) :
    V (F := Ideal) m c main_v11 (ix2 (0 : Fin 1) o) = m ((c : Thread nD τ).loc main_arg6) (ix1 o) := by
  rw [V_v11_eq m c]
  exact shapeCast_a_1a_apply _ _ (0 : Fin 1) o

/-- The host gathers, for every point, its 16 neighbours' coordinates (index words wrapped when negative) and packs
    the 16 × 3 numbers of a point into one row of 48: the same gather the reference performs. -/
theorem V_v7_eq : (V (F := Ideal) m c main_v7 : S2x65536x48.Idx → Elt Ideal .f32)
    = shapeCast S2x65536x48 (Cert.ReferenceIdeal.Read.val_main_v6 (F := Ideal) (m ((c : Thread nD τ).loc main_arg0)) (m ((c : Thread nD τ).loc main_arg7)))
        Facts₀.shapeCasts_S2x65536x16x3_S2x65536x48 := by
  dsimp only [V, V0]
  simp only [hostOps0, List.flatten_cons, List.flatten_nil, List.append_nil, List.cons_append, List.nil_append]
  show StableHlo.after _ (fun b => m (c, b)) (Proc.devRef .tc main_v7) = _
  after_results; rfl

/-- Lane 3 · k + j of the packed row of point n is coordinate j of its neighbour k. -/
theorem V_v7_apply (b : Fin 2) (n : Fin 65536) (k : Fin 16) (j : Fin 3) :
    V (F := Ideal) m c main_v7 (ix3 b n (Cert.Spec.lane k j))
      = Cert.ReferenceIdeal.Read.val_main_v6 (F := Ideal) (m ((c : Thread nD τ).loc main_arg0)) (m ((c : Thread nD τ).loc main_arg7)) (ix4 b n k j) := by
  rw [V_v7_eq m c]
  refine shapeCast_apply _ _ _ _ ?_
  rw [Shape.rowMajor_val_four, Shape.rowMajor_val_three]
  show ((b.val * 65536 + n.val) * 16 + k.val) * 3 + j.val = (b.val * 65536 + n.val) * 48 + (3 * k.val + j.val)
  omega

end Cert.KArray

end
-- ==== Proof.KFeat.lean ====
/-
  The kernel's feature block, read one element at a time over the extended reals.

  A tile holds 512 points. Each point has three coordinates and sixteen neighbours, and the neighbours'
  coordinates arrive packed in one row of 48 lanes: lane `3k + j` is coordinate `j` of neighbour `k`.
  The block of features is built in four steps:
  * the packed row is cut into sixteen column slices of width three, each slice is viewed as a
    [512, 1, 3] array, and the sixteen are stacked along the middle axis: entry `(p, k, j)` of the stack is
    lane `3k + j` of row `p`;
  * the point's own coordinates are repeated along the middle axis: entry `(p, k, j)` is coordinate `j` of
    point `p`, whatever `k`;
  * the difference of the two, its squares summed over `j`, and the square root of that sum: the distance
    from point `p` to its neighbour `k`;
  * the four arrays [distance | difference | point | neighbour] laid side by side along the last axis,
    ten columns in all: column 0 is the distance, columns 1–3 the difference, 4–6 the point, 7–9 the
    neighbour.
  So entry `(p, k, d)` of the block is feature `d` of neighbour `k` of point `p` as the specification
  states it (`pay1_apply`). Flattening the first two axes puts neighbour `k` of point `p` in row
  `16 p + k` (`pay2_apply`), and the transposed weight table reads `(i, o)` at `(o, i)` (`pay3_apply`).
-/
import proofs.«152972_j13804024889408_2_alg».proof.Proof.Gen.KernelIdeal.Skeleton
import proofs.«152972_j13804024889408_2_alg».proof.Proof.Spec
import Idealize.ShloMosaic.Lib.ValueIdx
import Idealize.ShloMosaic.Lib.Pipeline.Value
import Idealize.ShloMosaic.PureOps.Ideal.Laws

noncomputable section

open scoped BigOperators

namespace Cert.KFeat

open Cert.KernelIdeal Cert.KernelIdeal.Gen Idealize.ShloMosaic Idealize.ShloMosaic.ValueIdx

/-! ## Changes of layout at an index

Each statement names the one element of the operand that an element of the re-laid array reads; the
only arithmetic is that of row-major positions. -/

section Layout
variable {α : Type}

/-- A [1, 512, 48] block viewed as [512, 48]: row `p`, lane `c` is element `(0, p, c)`; both sit at
    row-major position `48 p + c`. -/
theorem dropUnit48 (x : S1x512x48.Idx → α) (h : S1x512x48.ShapeCasts S512x48) (p : Fin 512) (c : Fin 48) :
    shapeCast S512x48 x h (ix2 p c) = x (ix3 (0 : Fin 1) p c) :=
  shapeCast_apply x h _ _ (by
    rw [Shape.rowMajor_val_three, Shape.rowMajor_val_two]
    show (0 * 512 + p.val) * 48 + c.val = p.val * 48 + c.val
    omega)

/-- A [1, 512, 3] block viewed as [512, 3]: row `p`, column `j` is element `(0, p, j)`. -/
theorem dropUnit3 (x : S1x512x3.Idx → α) (h : S1x512x3.ShapeCasts S512x3) (p : Fin 512) (j : Fin 3) :
    shapeCast S512x3 x h (ix2 p j) = x (ix3 (0 : Fin 1) p j) :=
  shapeCast_apply x h _ _ (by
    rw [Shape.rowMajor_val_three, Shape.rowMajor_val_two]
    show (0 * 512 + p.val) * 3 + j.val = p.val * 3 + j.val
    omega)

/-- The column slice of width three that starts at lane `o`, viewed as [512, 1, 3]: its element
    `(p, 0, j)` is lane `o + j` of row `p`. -/
theorem piece_apply (x : S512x48.Idx → α) (o : Nat) (h : S512x48.Slices ![0, o] S512x3) (hc : S512x3.ShapeCasts S512x1x3)
    (p : Fin 512) (z : Fin 1) (j : Fin 3) (c : Fin 48) (e : c.val = o + j.val) :
    shapeCast S512x1x3 (extractStridedSlice S512x3 ![0, o] x h) hc (ix3 p z j) = x (ix2 p c) := by
  refine (shapeCast_apply _ hc (ix3 p z j) (ix2 p j) ?_).trans ?_
  · rw [Shape.rowMajor_val_two, Shape.rowMajor_val_three]
    have hz := z.isLt
    show p.val * 3 + j.val = (p.val * 1 + z.val) * 3 + j.val
    omega
  · exact extractStridedSlice_apply _ x h (ix2 p j) (ix2 p c) (fun a => match a with
      | ⟨0, _⟩ => by show p.val = 0 + p.val; omega
      | ⟨1, _⟩ => by show c.val = o + j.val; exact e)

/-- Sixteen [512, 1, 3] pieces stacked along the middle axis: element `(p, k, j)` of the stack is
    element `(p, 0, j)` of piece `k`. -/
theorem stack_apply (f : Fin 16 → (S512x1x3.Idx → α))
    (h : Shape.Concatenates ((List.ofFn fun n : Fin 16 => (⟨S512x1x3, f n⟩ : (s : Shape) × (s.Idx → α))).map (·.1)) S512x16x3 1)
    (p : Fin 512) (k : Fin 16) (j : Fin 3) :
    concatenate S512x16x3 1 (List.ofFn fun n : Fin 16 => (⟨S512x1x3, f n⟩ : (s : Shape) × (s.Idx → α))) h (ix3 p k j)
      = f k (ix3 p (0 : Fin 1) j) :=
  concatenate_ofFn_unit_apply (t := S512x16x3) (s₁ := S512x1x3) 1 f h rfl rfl (ix3 p k j) k rfl (ix3 p (0 : Fin 1) j)
    (fun b hb => match b with
      | ⟨0, _⟩ => rfl
      | ⟨1, _⟩ => absurd rfl hb
      | ⟨2, _⟩ => rfl)

/-- The point's [1, 512, 3] block viewed as [512, 1, 3] and repeated sixteen times along the middle axis:
    element `(p, k, j)` is coordinate `j` of point `p` for every `k`. -/
theorem point_apply (x : S1x512x3.Idx → α) (h1 : S1x512x3.ShapeCasts S512x3) (h2 : S512x3.ShapeCasts S512x1x3)
    (h3 : S512x1x3.ShapeCasts S512x1x3) (h4 : S512x1x3.Broadcasts S512x16x3) (p : Fin 512) (k : Fin 16) (j : Fin 3) :
    broadcastTo S512x16x3 (shapeCast S512x1x3 (shapeCast S512x1x3 (shapeCast S512x3 x h1) h2) h3) h4 (ix3 p k j)
      = x (ix3 (0 : Fin 1) p j) := by
  refine (broadcastTo_apply _ h4 (ix3 p k j) (ix3 p (0 : Fin 1) j) (fun a => match a with
    | ⟨0, _⟩ => rfl
    | ⟨1, _⟩ => rfl
    | ⟨2, _⟩ => rfl)).trans ?_
  rw [shapeCast_self]
  refine (shapeCast_apply _ h2 (ix3 p (0 : Fin 1) j) (ix2 p j) ?_).trans (dropUnit3 x h1 p j)
  rw [Shape.rowMajor_val_two, Shape.rowMajor_val_three]
  show p.val * 3 + j.val = (p.val * 1 + 0) * 3 + j.val
  omega

end Layout

/-- The sum over the last axis of a [512, 16, 3] array of extended reals, started from zero, at `(p, k)`:
    the three-term sum over `j` of the entries `(p, k, j)`. -/
theorem sum3_apply (src : FVec Ideal S512x16x3 .f32) (h : S512x16x3.Reduces [2] S512x16) (hφ : FKind.Formats .f32)
    (hacc : (0x00000000#32 : BitVec 32) = FKind.add.neutral .f32 hφ) (p : Fin 512) (k : Fin 16) :
    multiReduction (F := Ideal) .add [2] S512x16 src 0x00000000#32 h hφ hacc (ix2 p k) = ∑ j : Fin 3, src (ix3 p k j) := by
  refine (Ideal.multiReduction_add_single src 0x00000000#32 h hφ hacc (ix2 p k)).trans ?_
  show ∑ j : Fin 3, src (h.lift (ix2 p k) j) = _
  refine Finset.sum_congr rfl fun j _ => congrArg src (funext fun a => match a with
    | ⟨0, _⟩ => Fin.ext rfl
    | ⟨1, _⟩ => Fin.ext rfl
    | ⟨2, _⟩ => Fin.ext rfl)

/-! ## The four pieces of the feature block

The block is the side-by-side arrangement of four arrays. Each is named here as a function of the two
loaded blocks, and the payload is their concatenation by unfolding definitions (`pay1_eq`): the sixteen
slices start at lanes 0, 3, …, 45, that is at lane `3 n` for `n` below sixteen. -/

section Pieces
variable {α : Type}

/-- Lanes `3 n … 3 n + 2` fit in a row of 48 lanes for every `n` below sixteen. -/
theorem slices3 (n : Fin 16) : S512x48.Slices ![0, 3 * n.val] S512x3 :=
  ⟨rfl, fun a => match a with
    | ⟨0, _⟩ => by show 0 + 512 ≤ 512; omega
    | ⟨1, _⟩ => by have := n.isLt; show 3 * n.val + 3 ≤ 48; omega⟩

/-- Neighbour `n`'s three lanes of every row, as a [512, 1, 3] array. -/
def pc (x : S512x48.Idx → α) (n : Fin 16) : S512x1x3.Idx → α :=
  shapeCast S512x1x3 (extractStridedSlice S512x3 ![0, 3 * n.val] x (slices3 n)) shapeCasts_S512x3_S512x1x3

/-- Sixteen pieces of extent one fill the middle axis of extent sixteen. -/
theorem hstack (x : S512x48.Idx → α) :
    Shape.Concatenates ((List.ofFn fun n : Fin 16 => (⟨S512x1x3, pc x n⟩ : (s : Shape) × (s.Idx → α))).map (·.1)) S512x16x3 1 :=
  concatenates_S512x1x3_S512x1x3_S512x1x3_S512x1x3_S512x1x3_S512x1x3_S512x1x3_S512x1x3_S512x1x3_S512x1x3_S512x1x3_S512x1x3_S512x1x3_S512x1x3_S512x1x3_S512x1x3_S512x16x3_d1

/-- The sixteen neighbours' pieces stacked along the middle axis. -/
def stk (x : S512x48.Idx → α) : S512x16x3.Idx → α :=
  concatenate S512x16x3 1 (List.ofFn fun n : Fin 16 => (⟨S512x1x3, pc x n⟩ : (s : Shape) × (s.Idx → α))) (hstack x)

end Pieces

/-- The neighbours: entry `(p, k, j)` is coordinate `j` of neighbour `k` of point `p`. -/
def nbr (v2 : Vec Ideal S1x512x48 .f32) : FVec Ideal S512x16x3 .f32 :=
  stk (shapeCast S512x48 v2 shapeCasts_S1x512x48_S512x48)

/-- The point, repeated for each neighbour: entry `(p, k, j)` is coordinate `j` of point `p`. -/
def pnt (v0 : Vec Ideal S1x512x3 .f32) : FVec Ideal S512x16x3 .f32 :=
  broadcastTo S512x16x3 (shapeCast S512x1x3 (shapeCast S512x1x3 (shapeCast S512x3 v0 shapeCasts_S1x512x3_S512x3)
    shapeCasts_S512x3_S512x1x3) shapeCasts_S512x1x3_S512x1x3) broadcasts_S512x1x3_S512x16x3

/-- The difference point − neighbour. -/
def dif (v0 : Vec Ideal S1x512x3 .f32) (v2 : Vec Ideal S1x512x48 .f32) : FVec Ideal S512x16x3 .f32 :=
  subf (pnt v0) (nbr v2)

/-- The distance: the square root of the sum over the three coordinates of the squared difference. -/
def dst (v0 : Vec Ideal S1x512x3 .f32) (v2 : Vec Ideal S1x512x48 .f32) : FVec Ideal S512x16x1 .f32 :=
  sqrt (shapeCast S512x16x1 (multiReduction (F := Ideal) .add [2] S512x16 (mulf (dif v0 v2) (dif v0 v2)) 0x00000000#32
    reduces_S512x16x3_S512x16 (.inl rfl) rfl) shapeCasts_S512x16_S512x16x1)

/-- The feature block is [distance | difference | point | neighbour] along the last axis. -/
theorem pay1_eq (v0 : Vec Ideal S1x512x3 .f32) (v2 : Vec Ideal S1x512x48 .f32) :
    k0_pay1 (F := Ideal) v0 v2
      = concatenate S512x16x10 2 [⟨S512x16x1, dst v0 v2⟩, ⟨S512x16x3, dif v0 v2⟩, ⟨S512x16x3, pnt v0⟩, ⟨S512x16x3, nbr v2⟩]
          concatenates_S512x16x1_S512x16x3_S512x16x3_S512x16x3_S512x16x10_d2 := rfl

/-! ## Each piece at an index -/

/-- Entry `(p, k, j)` of the neighbours is lane `3 k + j` of row `p` of the packed block. -/
theorem nbr_apply (v2 : Vec Ideal S1x512x48 .f32) (p : Fin 512) (k : Fin 16) (j : Fin 3) :
    nbr v2 (ix3 p k j) = v2 (ix3 (0 : Fin 1) p (Cert.Spec.lane k j)) := by
  unfold nbr stk
  refine (stack_apply _ _ p k j).trans ?_
  unfold pc
  refine (piece_apply _ _ _ _ p (0 : Fin 1) j (Cert.Spec.lane k j) rfl).trans ?_
  exact dropUnit48 v2 _ p _

/-- Entry `(p, k, j)` of the repeated point is coordinate `j` of point `p`. -/
theorem pnt_apply (v0 : Vec Ideal S1x512x3 .f32) (p : Fin 512) (k : Fin 16) (j : Fin 3) :
    pnt v0 (ix3 p k j) = v0 (ix3 (0 : Fin 1) p j) :=
  point_apply v0 _ _ _ _ p k j

/-- Entry `(p, k, j)` of the difference. -/
theorem dif_apply (v0 : Vec Ideal S1x512x3 .f32) (v2 : Vec Ideal S1x512x48 .f32) (p : Fin 512) (k : Fin 16) (j : Fin 3) :
    dif v0 v2 (ix3 p k j) = v0 (ix3 (0 : Fin 1) p j) - v2 (ix3 (0 : Fin 1) p (Cert.Spec.lane k j)) := by
  unfold dif
  rw [subf_apply, pnt_apply, nbr_apply]

/-- Entry `(p, k, 0)` of the distance column is the specification's distance from point `p` to its
    neighbour `k`: the [512, 16] array of sums viewed as [512, 16, 1] keeps its row-major positions. -/
theorem dst_apply (v0 : Vec Ideal S1x512x3 .f32) (v2 : Vec Ideal S1x512x48 .f32) (p : Fin 512) (k : Fin 16) :
    dst v0 v2 (ix3 p k (0 : Fin 1))
      = Cert.Spec.dist (fun j => v0 (ix3 (0 : Fin 1) p j)) (fun k' j => v2 (ix3 (0 : Fin 1) p (Cert.Spec.lane k' j))) k := by
  unfold dst Cert.Spec.dist
  refine congrArg Ideal.sqrt ?_
  refine (shapeCast_apply _ _ (ix3 p k (0 : Fin 1)) (ix2 p k) ?_).trans ?_
  · rw [Shape.rowMajor_val_two, Shape.rowMajor_val_three]
    show p.val * 16 + k.val = (p.val * 16 + k.val) * 1 + 0
    omega
  refine (sum3_apply _ _ _ _ p k).trans ?_
  refine Finset.sum_congr rfl fun j _ => ?_
  rw [mulf_apply, dif_apply]

/-! ## The three payloads at an index -/

/-- Entry `(p, k, d)` of the feature block is feature `d` of neighbour `k` of point `p`. The four ranges of
    `d` (0; 1–3; 4–6; 7–9) are the four pieces of the concatenation, which start at columns 0, 1, 4 and 7. -/
theorem pay1_apply (v0 : Vec Ideal S1x512x3 .f32) (v2 : Vec Ideal S1x512x48 .f32) (p : Fin 512) (k : Fin 16) (d : Fin 10) :
    k0_pay1 (F := Ideal) v0 v2 (ix3 p k d)
      = Cert.Spec.feat (fun j => v0 (ix3 (0 : Fin 1) p j)) (fun k' j => v2 (ix3 (0 : Fin 1) p (Cert.Spec.lane k' j))) k d := by
  rw [pay1_eq]
  unfold Cert.Spec.feat
  by_cases h1 : d.val < 1
  · rw [dif_pos h1]
    refine (concatenate_apply_piece _ _ _ (ix3 p k d) 0 (by show 0 < 4; omega) S512x16x1 (dst v0 v2) rfl rfl 0 rfl
      (ix3 p k (0 : Fin 1))
      (fun b hb => match b with
        | ⟨0, _⟩ => rfl
        | ⟨1, _⟩ => rfl
        | ⟨2, _⟩ => absurd rfl hb)
      (by show 0 + 0 = d.val; omega)).trans ?_
    exact dst_apply v0 v2 p k
  · rw [dif_neg h1]
    by_cases h4 : d.val < 4
    · rw [dif_pos h4]
      refine (concatenate_apply_piece _ _ _ (ix3 p k d) 1 (by show 1 < 4; omega) S512x16x3 (dif v0 v2) rfl rfl 1 rfl
        (ix3 p k (⟨d.val - 1, by omega⟩ : Fin 3))
        (fun b hb => match b with
          | ⟨0, _⟩ => rfl
          | ⟨1, _⟩ => rfl
          | ⟨2, _⟩ => absurd rfl hb)
        (by show 1 + (d.val - 1) = d.val; omega)).trans ?_
      exact dif_apply v0 v2 p k _
    · rw [dif_neg h4]
      by_cases h7 : d.val < 7
      · rw [dif_pos h7]
        refine (concatenate_apply_piece _ _ _ (ix3 p k d) 2 (by show 2 < 4; omega) S512x16x3 (pnt v0) rfl rfl 4 rfl
          (ix3 p k (⟨d.val - 4, by omega⟩ : Fin 3))
          (fun b hb => match b with
            | ⟨0, _⟩ => rfl
            | ⟨1, _⟩ => rfl
            | ⟨2, _⟩ => absurd rfl hb)
          (by show 4 + (d.val - 4) = d.val; omega)).trans ?_
        exact pnt_apply v0 p k _
      · rw [dif_neg h7]
        have hd := d.isLt
        refine (concatenate_apply_piece _ _ _ (ix3 p k d) 3 (by show 3 < 4; omega) S512x16x3 (nbr v2) rfl rfl 7 rfl
          (ix3 p k (⟨d.val - 7, by omega⟩ : Fin 3))
          (fun b hb => match b with
            | ⟨0, _⟩ => rfl
            | ⟨1, _⟩ => rfl
            | ⟨2, _⟩ => absurd rfl hb)
          (by show 7 + (d.val - 7) = d.val; omega)).trans ?_
        exact nbr_apply v2 p k _

/-- The block flattened to [8192, 10]: row `16 p + k`, column `d` is entry `(p, k, d)`; both sit at
    row-major position `(16 p + k) · 10 + d`. -/
theorem pay2_apply (v0 : Vec Ideal S1x512x3 .f32) (v2 : Vec Ideal S1x512x48 .f32) (p : Fin 512) (k : Fin 16) (d : Fin 10) :
    k0_pay2 (F := Ideal) v0 v2 (ix2 (Cert.Spec.flat p k) d) = k0_pay1 (F := Ideal) v0 v2 (ix3 p k d) := by
  unfold k0_pay2
  exact shapeCast_apply (k0_pay1 (F := Ideal) v0 v2) shapeCasts_S512x16x10_S8192x10 (ix2 (Cert.Spec.flat p k) d) (ix3 p k d) (by
    rw [Shape.rowMajor_val_three, Shape.rowMajor_val_two]
    show (p.val * 16 + k.val) * 10 + d.val = (16 * p.val + k.val) * 10 + d.val
    omega)

/-- The transposed table reads `(i, o)` at `(o, i)`. -/
theorem pay3_apply (v46 : Vec Ideal S10x10 .f32) (i o : Fin 10) :
    k0_pay3 (F := Ideal) v46 (ix2 i o) = v46 (ix2 o i) := by
  unfold k0_pay3
  exact transpose_apply [1, 0] v46 transposes_S10x10_p1_0_S10x10 (ix2 i o) (ix2 o i) (fun b => match b with
    | ⟨0, _⟩ => rfl
    | ⟨1, _⟩ => rfl)

end Cert.KFeat

end
-- ==== Proof.LibMaxReduce.lean ====
/-
  A maximum taken along ONE axis, at the ideal float values, is the supremum over that axis's coordinates.

  At the ideal values `maximumf` is `max` on the extended reals, so a reduction with a maximum body from
  `-∞` along one axis is, at each reduced index `j`, the least upper bound of the source's entries at
  `j` with each coordinate `k` of the reduced axis put back (`Shape.Reduces.lift j k`). Stated for the
  in-kernel vector reduction and for the host's one-operand reduce, as an `⨆` over `Fin`: a form whose
  only law a proof needs is `iSup_le_iff`.
-/
import Idealize.ShloMosaic.PureOps.Ideal.Laws
import Idealize.ShloMosaic.PureOps.Reduce

noncomputable section

namespace Idealize.ShloMosaic.Ideal

/-- The f32 pattern of `-∞` denotes the bottom of the extended reals. -/
theorem ofBits_negInf_f32 : Ideal.ofBits .f32 0xFF800000#32 = (⊥ : EReal) := by
  simp [Ideal.ofBits, Ideal.ieee]

/-- A fold of `max` from the bottom over all of `Fin n` is the supremum of the entries. -/
theorem fold_max_bot_eq_iSup {n : Nat} (f : Fin n → EReal) :
    (Finset.univ : Finset (Fin n)).fold max (⊥ : EReal) f = ⨆ k : Fin n, f k := by
  refine eq_of_forall_ge_iff fun z => ?_
  rw [Finset.fold_max_le, iSup_le_iff]
  exact ⟨fun h k => h.2 k (Finset.mem_univ k), fun h => ⟨bot_le, fun k _ => h k⟩⟩

/-- The in-kernel maximum along one axis from `-∞`, at a reduced index, is the supremum over that axis. -/
theorem multiReduction_maximumf_single_iSup {s t : Shape} {a : Fin s.rank} (src : FVec Ideal s .f32)
    (h : s.Reduces [a] t) (hφ : FKind.Formats .f32) (hacc : (0xFF800000#32 : BitVec 32) = FKind.maximumf.neutral .f32 hφ)
    (j : t.Idx) :
    multiReduction .maximumf [a] t src 0xFF800000#32 h hφ hacc j = ⨆ k : Fin (s.size a), src (h.lift j k) := by
  rw [multiReduction_maximumf_eq_fold, h.fold_filter_drop_single]
  show (Finset.univ : Finset (Fin (s.size a))).fold max (Ideal.ofBits .f32 0xFF800000#32) (src ∘ h.lift j) = _
  rw [ofBits_negInf_f32]
  exact fold_max_bot_eq_iSup _

/-- The host's one-operand reduce with a maximum body from `-∞` along one axis is the same supremum. -/
theorem hostReduce_maximumf_single_iSup {s t u : Shape} {a : Fin s.rank} (x : FVec Ideal s .f32)
    (h' : s.ReducesTo [a] t) (h : s.Reduces [a] t) (hu : 0 < u.numel) (j : t.Idx) :
    Host.reduce FloatOps.maximumf x (constant (F := Ideal) u .f32 0xFF800000#32) h' hu j
      = ⨆ k : Fin (s.size a), x (h.lift j k) := by
  rw [Host.reduce_eq_fold_single FloatOps.maximumf x _ h' h hu]
  show (Finset.univ : Finset (Fin (s.size a))).fold max (Ideal.ofBits .f32 0xFF800000#32) (x ∘ h.lift j) = _
  rw [ofBits_negInf_f32]
  exact fold_max_bot_eq_iSup _

end Idealize.ShloMosaic.Ideal

end
-- ==== Proof.KRow.lean ====
/-
  One output row of the tile computation, read entry by entry.

  For a tile row `p`, the 16 neighbours' features `f k d` (entry `(p, k, d)` of a `[512, 16, 10]` array) and the
  logits `a k o = Σ_i F (16·p + k, i) · W (i, o)` (the flattened `[8192, 10]` features times a `[10, 10]` table,
  reshaped back to `[512, 16, 10]`) go through: the maximum of the logits over the neighbours, the shifted
  exponentials, their sum, the quotient (a softmax over `k`), the softmax-weighted sum of the features, a second
  product with the transpose of a `[10, 10]` table, the affine normalisation
  `(y − mean) · rsqrt(var + ε) · gamma + beta` and the clamp at zero.

  Each stage is read at coordinates: a reshape keeps the row-major position (row `16·p + k` of the flat array is
  entry `(p, k)`), a broadcast along a unit axis reads that axis at 0, a reduction along axis 1 ranges over the 16
  entries `(p, k, o)`, and a product into the zero array is the sum over the contracted coordinate. Put together,
  the value at `(0, p, o)` is the specification's `rowOf` of those features and logits.
-/
import proofs.«152972_j13804024889408_2_alg».proof.Proof.Gen.KernelIdeal.Skeleton
import proofs.«152972_j13804024889408_2_alg».proof.Proof.Spec
import proofs.«152972_j13804024889408_2_alg».proof.Proof.LibMaxReduce
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KRow

open Cert.KernelIdeal Cert.KernelIdeal.Gen Idealize.ShloMosaic Idealize.ShloMosaic.ValueIdx

/-! ## Layout operations of this kernel read at coordinates -/

variable {α : Type}

/-- Row `16·p + k` of the flattened `[8192, 10]` array is entry `(p, k)` of its `[512, 16, 10]` reshape. -/
theorem cast_rows_apply (X : S8192x10.Idx → α) (h : S8192x10.ShapeCasts S512x16x10) (p : Fin 512) (k : Fin 16) (o : Fin 10) :
    shapeCast S512x16x10 X h (ix3 p k o) = X (ix2 (Cert.Spec.flat p k) o) :=
  shapeCast_apply X h _ _ (by
    rw [Shape.rowMajor_val_two, Shape.rowMajor_val_three]
    show (16 * p.val + k.val) * 10 + o.val = (p.val * 16 + k.val) * 10 + o.val
    omega)

/-- A `[512, 10]` array reshaped to `[512, 1, 10]` reads, at `(p, u, o)`, the operand at `(p, o)`. -/
theorem cast_keep_apply (X : S512x10.Idx → α) (h : S512x10.ShapeCasts S512x1x10) (p : Fin 512) (u : Fin 1) (o : Fin 10) :
    shapeCast S512x1x10 X h (ix3 p u o) = X (ix2 p o) :=
  shapeCast_apply X h _ _ (by
    have hu : u.val = 0 := by omega
    rw [Shape.rowMajor_val_three, Shape.rowMajor_val_two]
    show p.val * 10 + o.val = (p.val * 1 + u.val) * 10 + o.val
    omega)

/-- A `[512, 1, 10]` array broadcast along its middle axis reads, at `(p, k, o)`, the operand at `(p, 0, o)`. -/
theorem bcast_mid_apply (X : S512x1x10.Idx → α) (h : S512x1x10.Broadcasts S512x16x10) (p : Fin 512) (k : Fin 16) (o : Fin 10) :
    broadcastTo S512x16x10 X h (ix3 p k o) = X (ix3 p (0 : Fin 1) o) := by
  refine broadcastTo_apply X h (ix3 p k o) (ix3 p (0 : Fin 1) o) fun ax => ?_
  match ax with
  | ⟨0, _⟩ => rfl
  | ⟨1, _⟩ => rfl
  | ⟨2, _⟩ => rfl

/-- The index of the `[512, 16, 10]` array that a reduction along axis 1 visits at step `k` for the result index `(p, o)`. -/
theorem lift_mid (h : S512x16x10.Reduces [1] S512x10) (p : Fin 512) (o : Fin 10) (k : Fin 16) :
    h.lift (ix2 p o) k = ix3 p k o :=
  funext fun a => Fin.ext (by
    match a with
    | ⟨0, _⟩ => rfl
    | ⟨1, _⟩ => rfl
    | ⟨2, _⟩ => rfl)

/-- The maximum along axis 1 from `-∞`, at `(p, o)`, is the supremum over the 16 entries `(p, k, o)`. -/
theorem max_mid_apply (X : FVec Ideal S512x16x10 .f32) (h : S512x16x10.Reduces [1] S512x10) (hφ : FKind.Formats .f32)
    (hacc : (0xFF800000#32 : BitVec 32) = 0xFF800000#32) (p : Fin 512) (o : Fin 10) :
    multiReduction (F := Ideal) .maximumf [1] S512x10 X 0xFF800000#32 h hφ hacc (ix2 p o) = ⨆ k : Fin 16, X (ix3 p k o) := by
  refine (Ideal.multiReduction_maximumf_single_iSup X h hφ hacc (ix2 p o)).trans ?_
  exact iSup_congr fun k => congrArg X (lift_mid h p o k)

/-- The sum along axis 1 from zero, at `(p, o)`, is the sum over the 16 entries `(p, k, o)`. -/
theorem sum_mid_apply (X : FVec Ideal S512x16x10 .f32) (h : S512x16x10.Reduces [1] S512x10) (hφ : FKind.Formats .f32)
    (hacc : (0x00000000#32 : BitVec 32) = 0x00000000#32) (p : Fin 512) (o : Fin 10) :
    multiReduction (F := Ideal) .add [1] S512x10 X 0x00000000#32 h hφ hacc (ix2 p o) = ∑ k : Fin 16, X (ix3 p k o) := by
  refine (Ideal.multiReduction_add_single X 0x00000000#32 h hφ hacc (ix2 p o)).trans ?_
  exact Finset.sum_congr rfl fun k _ => congrArg X (lift_mid h p o k)

/-! ## The two matrix products read at coordinates -/

/-- The first product's left operand index keeps the output row … -/
theorem dot1_lhs0 (j : S8192x10.Idx) (q : dot_S8192x10_S10x10_S8192x10_1_0_0_1_n_n.contr.Idx) :
    (dot_S8192x10_S10x10_S8192x10_1_0_0_1_n_n.lhsIdx j q 0).val = (j 0).val := by
  unfold DotDims.lhsIdx
  rw [dif_neg (show ¬(0 : Fin S8192x10.rank) ∈ dot_S8192x10_S10x10_S8192x10_1_0_0_1_n_n.lhsBatch by decide),
    dif_pos (show (0 : Fin S8192x10.rank) ∈ dot_S8192x10_S10x10_S8192x10_1_0_0_1_n_n.lhsNonContracting by decide)]
  rfl

/-- … and its right operand index keeps the output column. -/
theorem dot1_rhs1 (j : S8192x10.Idx) (q : dot_S8192x10_S10x10_S8192x10_1_0_0_1_n_n.contr.Idx) :
    (dot_S8192x10_S10x10_S8192x10_1_0_0_1_n_n.rhsIdx j q 1).val = (j 1).val := by
  unfold DotDims.rhsIdx
  rw [dif_neg (show ¬(1 : Fin S10x10.rank) ∈ dot_S8192x10_S10x10_S8192x10_1_0_0_1_n_n.rhsBatch by decide),
    dif_pos (show (1 : Fin S10x10.rank) ∈ dot_S8192x10_S10x10_S8192x10_1_0_0_1_n_n.rhsNonContracting by decide)]
  rfl

/-- The first product into zero, at `(r, o)`: row `r` of the left factor against column `o` of the right one. -/
theorem matmul1_apply (A : FVec Ideal S8192x10 .f32) (B : FVec Ideal S10x10 .f32) (r : Fin 8192) (o : Fin 10) :
    matmul (F := Ideal) dot_S8192x10_S10x10_S8192x10_1_0_0_1_n_n (some .fp32) A B
        (constant (F := Ideal) S8192x10 .f32 0x00000000#32) (ix2 r o)
      = ∑ i : Fin 10, A (ix2 r i) * B (ix2 i o) := by
  simp only [matmul]
  rw [Ideal.matmul_constant_zero_apply,
    ← Equiv.sum_comp (contrEquiv1 dot_S8192x10_S10x10_S8192x10_1_0_0_1_n_n 10 rfl rfl).symm]
  refine Finset.sum_congr rfl fun k _ => ?_
  have hk := contrEquiv1_symm_val dot_S8192x10_S10x10_S8192x10_1_0_0_1_n_n 10 rfl rfl k
  have el : dot_S8192x10_S10x10_S8192x10_1_0_0_1_n_n.lhsIdx (ix2 r o)
      ((contrEquiv1 dot_S8192x10_S10x10_S8192x10_1_0_0_1_n_n 10 rfl rfl).symm k) = ix2 r k :=
    funext fun a => Fin.ext (by
      match a with
      | ⟨0, _⟩ => exact dot1_lhs0 _ _
      | ⟨1, _⟩ => exact (dot_S8192x10_S10x10_S8192x10_1_0_0_1_n_n.lhsIdx_val_of_single rfl _ _).trans hk)
  have er : dot_S8192x10_S10x10_S8192x10_1_0_0_1_n_n.rhsIdx (ix2 r o)
      ((contrEquiv1 dot_S8192x10_S10x10_S8192x10_1_0_0_1_n_n 10 rfl rfl).symm k) = ix2 k o :=
    funext fun a => Fin.ext (by
      match a with
      | ⟨0, _⟩ => exact (dot_S8192x10_S10x10_S8192x10_1_0_0_1_n_n.rhsIdx_val_of_single rfl _ _).trans hk
      | ⟨1, _⟩ => exact dot1_rhs1 _ _)
  rw [el, er]

/-- The second product's left operand index keeps the output row … -/
theorem dot2_lhs0 (j : S512x10.Idx) (q : dot_S512x10_S10x10_S512x10_1_0_0_1_n_n.contr.Idx) :
    (dot_S512x10_S10x10_S512x10_1_0_0_1_n_n.lhsIdx j q 0).val = (j 0).val := by
  unfold DotDims.lhsIdx
  rw [dif_neg (show ¬(0 : Fin S512x10.rank) ∈ dot_S512x10_S10x10_S512x10_1_0_0_1_n_n.lhsBatch by decide),
    dif_pos (show (0 : Fin S512x10.rank) ∈ dot_S512x10_S10x10_S512x10_1_0_0_1_n_n.lhsNonContracting by decide)]
  rfl

/-- … and its right operand index keeps the output column. -/
theorem dot2_rhs1 (j : S512x10.Idx) (q : dot_S512x10_S10x10_S512x10_1_0_0_1_n_n.contr.Idx) :
    (dot_S512x10_S10x10_S512x10_1_0_0_1_n_n.rhsIdx j q 1).val = (j 1).val := by
  unfold DotDims.rhsIdx
  rw [dif_neg (show ¬(1 : Fin S10x10.rank) ∈ dot_S512x10_S10x10_S512x10_1_0_0_1_n_n.rhsBatch by decide),
    dif_pos (show (1 : Fin S10x10.rank) ∈ dot_S512x10_S10x10_S512x10_1_0_0_1_n_n.rhsNonContracting by decide)]
  rfl

/-- The second product into zero, at `(p, o)`. -/
theorem matmul2_apply (A : FVec Ideal S512x10 .f32) (B : FVec Ideal S10x10 .f32) (p : Fin 512) (o : Fin 10) :
    matmul (F := Ideal) dot_S512x10_S10x10_S512x10_1_0_0_1_n_n (some .fp32) A B
        (constant (F := Ideal) S512x10 .f32 0x00000000#32) (ix2 p o)
      = ∑ i : Fin 10, A (ix2 p i) * B (ix2 i o) := by
  simp only [matmul]
  rw [Ideal.matmul_constant_zero_apply,
    ← Equiv.sum_comp (contrEquiv1 dot_S512x10_S10x10_S512x10_1_0_0_1_n_n 10 rfl rfl).symm]
  refine Finset.sum_congr rfl fun k _ => ?_
  have hk := contrEquiv1_symm_val dot_S512x10_S10x10_S512x10_1_0_0_1_n_n 10 rfl rfl k
  have el : dot_S512x10_S10x10_S512x10_1_0_0_1_n_n.lhsIdx (ix2 p o)
      ((contrEquiv1 dot_S512x10_S10x10_S512x10_1_0_0_1_n_n 10 rfl rfl).symm k) = ix2 p k :=
    funext fun a => Fin.ext (by
      match a with
      | ⟨0, _⟩ => exact dot2_lhs0 _ _
      | ⟨1, _⟩ => exact (dot_S512x10_S10x10_S512x10_1_0_0_1_n_n.lhsIdx_val_of_single rfl _ _).trans hk)
  have er : dot_S512x10_S10x10_S512x10_1_0_0_1_n_n.rhsIdx (ix2 p o)
      ((contrEquiv1 dot_S512x10_S10x10_S512x10_1_0_0_1_n_n 10 rfl rfl).symm k) = ix2 k o :=
    funext fun a => Fin.ext (by
      match a with
      | ⟨0, _⟩ => exact (dot_S512x10_S10x10_S512x10_1_0_0_1_n_n.rhsIdx_val_of_single rfl _ _).trans hk
      | ⟨1, _⟩ => exact dot2_rhs1 _ _)
  rw [el, er]

/-! ## The stages of the row computation -/

/-- The logits: the product of the flattened features with the weight table, reshaped, at `(p, k, o)`. -/
theorem logits_apply (A : FVec Ideal S8192x10 .f32) (B : FVec Ideal S10x10 .f32)
    (h : S8192x10.ShapeCasts S512x16x10) (p : Fin 512) (k : Fin 16) (o : Fin 10) :
    shapeCast S512x16x10 (matmul (F := Ideal) dot_S8192x10_S10x10_S8192x10_1_0_0_1_n_n (some .fp32) A B
        (constant (F := Ideal) S8192x10 .f32 0x00000000#32)) h (ix3 p k o)
      = ∑ i : Fin 10, A (ix2 (Cert.Spec.flat p k) i) * B (ix2 i o) :=
  (cast_rows_apply _ h p k o).trans (matmul1_apply A B _ o)

/-- The maximum over the neighbours, kept as a unit axis and broadcast back, at `(p, k, o)`. -/
theorem colmax_apply (X : FVec Ideal S512x16x10 .f32) (h : S512x16x10.Reduces [1] S512x10) (hφ : FKind.Formats .f32)
    (hacc : (0xFF800000#32 : BitVec 32) = 0xFF800000#32) (h2 : S512x10.ShapeCasts S512x1x10)
    (h3 : S512x1x10.Broadcasts S512x16x10) (p : Fin 512) (k : Fin 16) (o : Fin 10) :
    broadcastTo S512x16x10 (shapeCast S512x1x10
        (multiReduction (F := Ideal) .maximumf [1] S512x10 X 0xFF800000#32 h hφ hacc) h2) h3 (ix3 p k o)
      = ⨆ k' : Fin 16, X (ix3 p k' o) :=
  (bcast_mid_apply _ h3 p k o).trans ((cast_keep_apply _ h2 p 0 o).trans (max_mid_apply X h hφ hacc p o))

/-- The sum over the neighbours, kept as a unit axis and broadcast back, at `(p, k, o)`. -/
theorem colsum_apply (X : FVec Ideal S512x16x10 .f32) (h : S512x16x10.Reduces [1] S512x10) (hφ : FKind.Formats .f32)
    (hacc : (0x00000000#32 : BitVec 32) = 0x00000000#32) (h2 : S512x10.ShapeCasts S512x1x10)
    (h3 : S512x1x10.Broadcasts S512x16x10) (p : Fin 512) (k : Fin 16) (o : Fin 10) :
    broadcastTo S512x16x10 (shapeCast S512x1x10
        (multiReduction (F := Ideal) .add [1] S512x10 X 0x00000000#32 h hφ hacc) h2) h3 (ix3 p k o)
      = ∑ k' : Fin 16, X (ix3 p k' o) :=
  (bcast_mid_apply _ h3 p k o).trans ((cast_keep_apply _ h2 p 0 o).trans (sum_mid_apply X h hφ hacc p o))

/-- The exponential at an index. -/
theorem exp_apply {s : Shape} (x : FVec Ideal s .f32) (i : s.Idx) : exp x i = Ideal.exp (x i) := rfl

/-- The reciprocal square root at an index. -/
theorem rsqrt_apply {s : Shape} (x : FVec Ideal s .f32) (i : s.Idx) : rsqrt x i = Ideal.rsqrt (x i) := rfl

/-- The second linear layer: the product with the transposed table, at `(p, o)`. -/
theorem lin_apply (G : FVec Ideal S512x10 .f32) (W : Vec Ideal S10x10 .f32) (ht : S10x10.Transposes [1, 0] S10x10)
    (p : Fin 512) (o : Fin 10) :
    matmul (F := Ideal) dot_S512x10_S10x10_S512x10_1_0_0_1_n_n (some .fp32) G
        (transpose S10x10 [1, 0] W ht : FVec Ideal S10x10 .f32) (constant (F := Ideal) S512x10 .f32 0x00000000#32) (ix2 p o)
      = ∑ i : Fin 10, G (ix2 p i) * W (ix2 o i) :=
  (matmul2_apply G _ p o).trans
    (Finset.sum_congr rfl fun i _ => congrArg (G (ix2 p i) * ·) (transpose_ix2_apply W ht i o))

/-- A parameter row, cast to its own shape and broadcast down the 512 rows, at `(p, o)`. -/
theorem row_apply (v : Vec Ideal S1x10 .f32) (h1 : S1x10.ShapeCasts S1x10) (hb : S1x10.Broadcasts S512x10)
    (p : Fin 512) (o : Fin 10) :
    broadcastTo S512x10 (shapeCast S1x10 v h1) hb (ix2 p o) = v (ix2 (0 : Fin 1) o) := by
  rw [shapeCast_self]
  exact broadcastTo_1b_ab_apply v hb p o

/-! ## The softmax, the weighted sum and the second layer, in the specification's words

Throughout, `X` is the array of logits and `a k o` names its entry `(p, k, o)` for the row `p` at hand. -/

/-- The shifted exponential of the logits at `(p, k, o)`. -/
theorem ex_stage (X : FVec Ideal S512x16x10 .f32) (h : S512x16x10.Reduces [1] S512x10) (hφ : FKind.Formats .f32)
    (hacc : (0xFF800000#32 : BitVec 32) = 0xFF800000#32) (h2 : S512x10.ShapeCasts S512x1x10)
    (h3 : S512x1x10.Broadcasts S512x16x10) (p : Fin 512) (a : Fin 16 → Fin 10 → EReal)
    (ha : ∀ k o, X (ix3 p k o) = a k o) (k : Fin 16) (o : Fin 10) :
    exp (subf X (broadcastTo S512x16x10 (shapeCast S512x1x10
        (multiReduction (F := Ideal) .maximumf [1] S512x10 X 0xFF800000#32 h hφ hacc) h2) h3)) (ix3 p k o)
      = Cert.Spec.ex a k o := by
  refine congrArg Ideal.exp ?_
  show X (ix3 p k o) - broadcastTo S512x16x10 (shapeCast S512x1x10
      (multiReduction (F := Ideal) .maximumf [1] S512x10 X 0xFF800000#32 h hφ hacc) h2) h3 (ix3 p k o)
    = a k o - ⨆ k' : Fin 16, a k' o
  rw [colmax_apply, ha]
  exact congrArg (a k o - ·) (iSup_congr fun k' => ha k' o)

/-- The sum of the shifted exponentials over the neighbours, broadcast back, at `(p, k, o)`. -/
theorem esum_stage (X : FVec Ideal S512x16x10 .f32) (h : S512x16x10.Reduces [1] S512x10) (hφ : FKind.Formats .f32)
    (hacc : (0xFF800000#32 : BitVec 32) = 0xFF800000#32) (hacc0 : (0x00000000#32 : BitVec 32) = 0x00000000#32)
    (h2 : S512x10.ShapeCasts S512x1x10) (h3 : S512x1x10.Broadcasts S512x16x10) (p : Fin 512)
    (a : Fin 16 → Fin 10 → EReal) (ha : ∀ k o, X (ix3 p k o) = a k o) (k : Fin 16) (o : Fin 10) :
    broadcastTo S512x16x10 (shapeCast S512x1x10 (multiReduction (F := Ideal) .add [1] S512x10
        (exp (subf X (broadcastTo S512x16x10 (shapeCast S512x1x10
          (multiReduction (F := Ideal) .maximumf [1] S512x10 X 0xFF800000#32 h hφ hacc) h2) h3)))
        0x00000000#32 h hφ hacc0) h2) h3 (ix3 p k o)
      = Cert.Spec.esum a o :=
  (colsum_apply _ h hφ hacc0 h2 h3 p k o).trans
    (Finset.sum_congr rfl fun k' _ => ex_stage X h hφ hacc h2 h3 p a ha k' o)

/-- The softmax-weighted sum of the features at `(p, d)`. -/
theorem agg_stage (V X : FVec Ideal S512x16x10 .f32) (h : S512x16x10.Reduces [1] S512x10) (hφ : FKind.Formats .f32)
    (hacc : (0xFF800000#32 : BitVec 32) = 0xFF800000#32) (hacc0 : (0x00000000#32 : BitVec 32) = 0x00000000#32)
    (h2 : S512x10.ShapeCasts S512x1x10) (h3 : S512x1x10.Broadcasts S512x16x10) (p : Fin 512)
    (a : Fin 16 → Fin 10 → EReal) (ha : ∀ k o, X (ix3 p k o) = a k o) (d : Fin 10) :
    multiReduction (F := Ideal) .add [1] S512x10
        (mulf V (divf
          (exp (subf X (broadcastTo S512x16x10 (shapeCast S512x1x10
            (multiReduction (F := Ideal) .maximumf [1] S512x10 X 0xFF800000#32 h hφ hacc) h2) h3)))
          (broadcastTo S512x16x10 (shapeCast S512x1x10 (multiReduction (F := Ideal) .add [1] S512x10
            (exp (subf X (broadcastTo S512x16x10 (shapeCast S512x1x10
              (multiReduction (F := Ideal) .maximumf [1] S512x10 X 0xFF800000#32 h hφ hacc) h2) h3)))
            0x00000000#32 h hφ hacc0) h2) h3)))
        0x00000000#32 h hφ hacc0 (ix2 p d)
      = Cert.Spec.agg (fun k d' => V (ix3 p k d')) a d := by
  refine (sum_mid_apply _ h hφ hacc0 p d).trans (Finset.sum_congr rfl fun k _ => ?_)
  refine congrArg (V (ix3 p k d) * ·) ?_
  exact congrArg₂ Ideal.div (ex_stage X h hφ hacc h2 h3 p a ha k d) (esum_stage X h hφ hacc hacc0 h2 h3 p a ha k d)

/-- The second linear layer applied to the weighted sum, at `(p, o)`. -/
theorem lin_stage (V X : FVec Ideal S512x16x10 .f32) (W : Vec Ideal S10x10 .f32) (h : S512x16x10.Reduces [1] S512x10)
    (hφ : FKind.Formats .f32) (hacc : (0xFF800000#32 : BitVec 32) = 0xFF800000#32)
    (hacc0 : (0x00000000#32 : BitVec 32) = 0x00000000#32) (h2 : S512x10.ShapeCasts S512x1x10)
    (h3 : S512x1x10.Broadcasts S512x16x10) (ht : S10x10.Transposes [1, 0] S10x10) (p : Fin 512)
    (a : Fin 16 → Fin 10 → EReal) (ha : ∀ k o, X (ix3 p k o) = a k o) (o : Fin 10) :
    matmul (F := Ideal) dot_S512x10_S10x10_S512x10_1_0_0_1_n_n (some .fp32)
        (multiReduction (F := Ideal) .add [1] S512x10
          (mulf V (divf
            (exp (subf X (broadcastTo S512x16x10 (shapeCast S512x1x10
              (multiReduction (F := Ideal) .maximumf [1] S512x10 X 0xFF800000#32 h hφ hacc) h2) h3)))
            (broadcastTo S512x16x10 (shapeCast S512x1x10 (multiReduction (F := Ideal) .add [1] S512x10
              (exp (subf X (broadcastTo S512x16x10 (shapeCast S512x1x10
                (multiReduction (F := Ideal) .maximumf [1] S512x10 X 0xFF800000#32 h hφ hacc) h2) h3)))
              0x00000000#32 h hφ hacc0) h2) h3)))
          0x00000000#32 h hφ hacc0)
        (transpose S10x10 [1, 0] W ht : FVec Ideal S10x10 .f32) (constant (F := Ideal) S512x10 .f32 0x00000000#32) (ix2 p o)
      = Cert.Spec.lin (fun k d => V (ix3 p k d)) a (fun o' i => W (ix2 o' i)) o :=
  (lin_apply _ W ht p o).trans
    (Finset.sum_congr rfl fun i _ => congrArg (· * W (ix2 o i)) (agg_stage V X h hφ hacc hacc0 h2 h3 p a ha i))

/-- The affine normalisation and the clamp, at `(p, o)`, of any array `Y` standing for the second layer's result. -/
theorem tail_apply (Y : FVec Ideal S512x10 .f32) (v65 v67 v69 v71 : Vec Ideal S1x10 .f32) (h1 : S1x10.ShapeCasts S1x10)
    (hb : S1x10.Broadcasts S512x10) (p : Fin 512) (o : Fin 10) :
    maximumf
        (addf
          (mulf
            (mulf (subf Y (broadcastTo S512x10 (shapeCast S1x10 v69 h1) hb))
              (broadcastTo S512x10
                (rsqrt (addf (shapeCast S1x10 v71 h1)
                  (broadcast S1x10 (Scalar.ofBits (F := Ideal) .f32 0x3727C5AC#32)))) hb))
            (broadcastTo S512x10 (shapeCast S1x10 v65 h1) hb))
          (broadcastTo S512x10 (shapeCast S1x10 v67 h1) hb))
        (broadcast S512x10 (Scalar.ofBits (F := Ideal) .f32 0x00000000#32)) (ix2 p o)
      = max ((Y (ix2 p o) - v69 (ix2 (0 : Fin 1) o)) * Ideal.rsqrt (v71 (ix2 (0 : Fin 1) o) + Cert.Spec.eps)
          * v65 (ix2 (0 : Fin 1) o) + v67 (ix2 (0 : Fin 1) o)) Cert.Spec.zero := by
  simp only [maximumf_apply, addf_apply, mulf_apply, subf_apply, rsqrt_apply, broadcast_apply, row_apply,
    broadcastTo_1b_ab_apply, shapeCast_self, Ideal.ofBits_def, Cert.Spec.eps, Cert.Spec.zero]

/-- One output row of the kernel's payload is the specification's row of the features and the logits. -/
theorem pay4_apply (v45 : FVec Ideal S512x16x10 .f32) (v47 : FVec Ideal S8192x10 .f32) (v48 : FVec Ideal S10x10 .f32)
    (v62 : Vec Ideal S10x10 .f32) (v65 v67 v69 v71 : Vec Ideal S1x10 .f32) (p : Fin 512) (o : Fin 10) :
    k0_pay4 (F := Ideal) v45 v47 v48 v62 v65 v67 v69 v71 (ix3 (0 : Fin 1) p o)
      = Cert.Spec.rowOf (fun k d => v45 (ix3 p k d))
          (fun k o' => ∑ i : Fin 10, v47 (ix2 (Cert.Spec.flat p k) i) * v48 (ix2 i o'))
          (fun o' i => v62 (ix2 o' i)) (fun o' => v65 (ix2 (0 : Fin 1) o')) (fun o' => v67 (ix2 (0 : Fin 1) o'))
          (fun o' => v69 (ix2 (0 : Fin 1) o')) (fun o' => v71 (ix2 (0 : Fin 1) o')) o := by
  unfold k0_pay4
  refine (shapeCast_ab_1ab_apply _ _ 0 p o).trans ?_
  refine (tail_apply _ v65 v67 v69 v71 _ _ p o).trans ?_
  rw [lin_stage v45 _ v62 _ _ _ _ _ _ _ p
    (fun k o' => ∑ i : Fin 10, v47 (ix2 (Cert.Spec.flat p k) i) * v48 (ix2 i o'))
    (fun k o' => logits_apply v47 v48 _ p k o') o]
  rfl

end Cert.KRow

end
-- ==== Proof.KTail.lean ====
/-
  The kernel's host operations after the region, read at an index.

  After the region has written the table `Y : [2, 65536, 10]`, the program takes, for each of the 16 columns `k` of
  the index array `idx : [2, 16384, 16]`, the column's words, wraps the negative ones (adds the table's 65536 rows),
  gathers the rows of `Y` they name (batch with batch, all 10 channels), and folds the 16 gathered arrays with an
  elementwise maximum that starts from `-∞`. At the ideal values the result at `(b, m, o)` is therefore

      ⨆ k : Fin 16, Y (b, row (wrap (idx (b, m, k))), o)

  with `row` the word read signed and clamped into the table: the specification's `poolOf`.

  The proof reads one gather at an index (`gatherK_apply`), one wrapped index word at an index (`word_apply`), hence
  one repetition at an index (`rep_apply`), all over arbitrary arrays; then walks the operation list in seventeen
  consecutive stretches, each read over an arbitrary valuation, and joins them; sixteen maxima from the bottom are the
  supremum (`max16_eq_iSup`).
-/
import proofs.«152972_j13804024889408_2_alg».proof.Proof.Gen.KernelIdeal.Launch
import proofs.«152972_j13804024889408_2_alg».proof.Proof.Spec
import proofs.«152972_j13804024889408_2_alg».proof.Proof.LibMaxReduce
import Idealize.ShloMosaic.Lib.StableHlo.Run
import Idealize.ShloMosaic.Lib.ValueIdx
import Idealize.ShloMosaic.Lib.Pipeline.Value

noncomputable section

namespace Cert.KTail

open Cert.KernelIdeal Cert.KernelIdeal.Gen Idealize.ShloMosaic Idealize.ShloMosaic.ValueIdx Idealize.ShloMosaic.StableHlo

/-! ## Sixteen maxima from the bottom -/

/-- sixteen maxima from the bottom are the supremum -/
theorem max16_eq_iSup (a : Fin 16 → EReal) :
    max (max (max (max (max (max (max (max (max (max (max (max (max (max (max (max ⊥ (a 0)) (a 1)) (a 2)) (a 3)) (a 4)) (a 5)) (a 6)) (a 7)) (a 8)) (a 9)) (a 10)) (a 11)) (a 12)) (a 13)) (a 14)) (a 15) = ⨆ k : Fin 16, a k := by
  refine eq_of_forall_ge_iff fun z => ?_
  simp only [max_le_iff, iSup_le_iff, bot_le, true_and]
  constructor
  · rintro ⟨⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩, h15⟩ k
    fin_cases k <;> assumption
  · intro h
    exact ⟨⟨⟨⟨⟨⟨⟨⟨⟨⟨⟨⟨⟨⟨⟨h 0, h 1⟩, h 2⟩, h 3⟩, h 4⟩, h 5⟩, h 6⟩, h 7⟩, h 8⟩, h 9⟩, h 10⟩, h 11⟩, h 12⟩, h 13⟩, h 14⟩, h 15⟩

/-! ## The gather of rows, at an index

The table has a batch axis (paired with the index array's batch axis), a row axis that the index word selects
(collapsed in the result) and a channel axis carried whole. So on the batch axis the operand coordinate is the
result's batch coordinate, on the row axis it is the index word read signed and clamped into the table, and on the
channel axis it is the result's channel coordinate. -/

/-- a gather of this record at an index: the table at (batch, the row the index word selects, channel) -/
theorem gatherK_apply (Y : FVec Ideal S2x65536x10 .f32) (idx : IVec S2x16384x1 32) (b : Fin 2) (m : Fin 16384) (o : Fin 10) :
    Host.gather gather_S2x65536x10_S2x16384x1_S2x16384x10_2_1_0_0_1_2_1110 Y idx (ix3 b m o)
      = Y (ix3 b (Cert.Spec.rowSel (idx (ix3 b m (0 : Fin 1)))) o) := by
  unfold Host.gather
  refine congrArg Y (funext fun a => Fin.ext ?_)
  show gather_S2x65536x10_S2x16384x1_S2x16384x10_2_1_0_0_1_2_1110.start (ix3 b m o) idx a
      + gather_S2x65536x10_S2x16384x1_S2x16384x10_2_1_0_0_1_2_1110.batchCoord (ix3 b m o) a
      + gather_S2x65536x10_S2x16384x1_S2x16384x10_2_1_0_0_1_2_1110.offCoord (ix3 b m o) a = _
  match a with
  | ⟨0, h0⟩ =>
    -- the batch axis: no start index, the result's batch coordinate, no offset
    have hb : (⟨0, h0⟩ : Fin S2x65536x10.rank) ∈ gather_S2x65536x10_S2x16384x1_S2x16384x10_2_1_0_0_1_2_1110.operandBatchingDims :=
      (by decide : (0 : Fin 3) ∈ gather_S2x65536x10_S2x16384x1_S2x16384x10_2_1_0_0_1_2_1110.operandBatchingDims)
    have hk : (⟨0, h0⟩ : Fin S2x65536x10.rank) ∉ gather_S2x65536x10_S2x16384x1_S2x16384x10_2_1_0_0_1_2_1110.sKept :=
      (by decide : (0 : Fin 3) ∉ gather_S2x65536x10_S2x16384x1_S2x16384x10_2_1_0_0_1_2_1110.sKept)
    have e1 : gather_S2x65536x10_S2x16384x1_S2x16384x10_2_1_0_0_1_2_1110.start (ix3 b m o) idx ⟨0, h0⟩ = 0 := GatherDims.start_batching _ _ _ _ hb
    have e2 : gather_S2x65536x10_S2x16384x1_S2x16384x10_2_1_0_0_1_2_1110.offCoord (ix3 b m o) ⟨0, h0⟩ = 0 := GatherDims.offCoord_eq_zero _ _ _ hk
    have e3 : gather_S2x65536x10_S2x16384x1_S2x16384x10_2_1_0_0_1_2_1110.batchCoord (ix3 b m o) ⟨0, h0⟩ = b.val := by
      unfold GatherDims.batchCoord
      rw [dif_pos hb]
      rfl
    rw [e1, e2, e3]
    show 0 + b.val + 0 = b.val
    omega
  | ⟨1, h1⟩ =>
    -- the row axis: the index word, read signed and clamped; collapsed, so no offset
    have hm : (⟨1, h1⟩ : Fin S2x65536x10.rank) ∈ gather_S2x65536x10_S2x16384x1_S2x16384x10_2_1_0_0_1_2_1110.startIndexMap :=
      (by decide : (1 : Fin 3) ∈ gather_S2x65536x10_S2x16384x1_S2x16384x10_2_1_0_0_1_2_1110.startIndexMap)
    have hb : (⟨1, h1⟩ : Fin S2x65536x10.rank) ∉ gather_S2x65536x10_S2x16384x1_S2x16384x10_2_1_0_0_1_2_1110.operandBatchingDims :=
      (by decide : (1 : Fin 3) ∉ gather_S2x65536x10_S2x16384x1_S2x16384x10_2_1_0_0_1_2_1110.operandBatchingDims)
    have hk : (⟨1, h1⟩ : Fin S2x65536x10.rank) ∉ gather_S2x65536x10_S2x16384x1_S2x16384x10_2_1_0_0_1_2_1110.sKept :=
      (by decide : (1 : Fin 3) ∉ gather_S2x65536x10_S2x16384x1_S2x16384x10_2_1_0_0_1_2_1110.sKept)
    have e1 : gather_S2x65536x10_S2x16384x1_S2x16384x10_2_1_0_0_1_2_1110.batchCoord (ix3 b m o) ⟨1, h1⟩ = 0 := GatherDims.batchCoord_eq_zero _ _ _ hb
    have e2 : gather_S2x65536x10_S2x16384x1_S2x16384x10_2_1_0_0_1_2_1110.offCoord (ix3 b m o) ⟨1, h1⟩ = 0 := GatherDims.offCoord_eq_zero _ _ _ hk
    have e3 : gather_S2x65536x10_S2x16384x1_S2x16384x10_2_1_0_0_1_2_1110.start (ix3 b m o) idx ⟨1, h1⟩ = min (idx (ix3 b m (0 : Fin 1))).toInt.toNat 65535 := by
      unfold GatherDims.start
      rw [dif_pos hm]
      have hsi : gather_S2x65536x10_S2x16384x1_S2x16384x10_2_1_0_0_1_2_1110.siIdx (ix3 b m o) ⟨List.idxOf (⟨1, h1⟩ : Fin S2x65536x10.rank) gather_S2x65536x10_S2x16384x1_S2x16384x10_2_1_0_0_1_2_1110.startIndexMap,
          List.idxOf_lt_length_iff.2 hm⟩ = ix3 b m (0 : Fin 1) := by
        funext c; refine Fin.ext ?_
        match c with
        | ⟨0, _⟩ => rfl
        | ⟨1, _⟩ => rfl
        | ⟨2, _⟩ => rfl
      rw [hsi]; rfl
    rw [e1, e2, e3]; rfl
  | ⟨2, h2⟩ =>
    -- the channel axis: no start index, no batch coordinate, the result's channel coordinate
    have hm : (⟨2, h2⟩ : Fin S2x65536x10.rank) ∉ gather_S2x65536x10_S2x16384x1_S2x16384x10_2_1_0_0_1_2_1110.startIndexMap :=
      (by decide : (2 : Fin 3) ∉ gather_S2x65536x10_S2x16384x1_S2x16384x10_2_1_0_0_1_2_1110.startIndexMap)
    have hb : (⟨2, h2⟩ : Fin S2x65536x10.rank) ∉ gather_S2x65536x10_S2x16384x1_S2x16384x10_2_1_0_0_1_2_1110.operandBatchingDims :=
      (by decide : (2 : Fin 3) ∉ gather_S2x65536x10_S2x16384x1_S2x16384x10_2_1_0_0_1_2_1110.operandBatchingDims)
    have hk : (⟨2, h2⟩ : Fin S2x65536x10.rank) ∈ gather_S2x65536x10_S2x16384x1_S2x16384x10_2_1_0_0_1_2_1110.sKept :=
      (by decide : (2 : Fin 3) ∈ gather_S2x65536x10_S2x16384x1_S2x16384x10_2_1_0_0_1_2_1110.sKept)
    have e1 : gather_S2x65536x10_S2x16384x1_S2x16384x10_2_1_0_0_1_2_1110.batchCoord (ix3 b m o) ⟨2, h2⟩ = 0 := GatherDims.batchCoord_eq_zero _ _ _ hb
    have e2 : gather_S2x65536x10_S2x16384x1_S2x16384x10_2_1_0_0_1_2_1110.start (ix3 b m o) idx ⟨2, h2⟩ = 0 := by
      unfold GatherDims.start
      rw [dif_neg hm]
    have e3 : gather_S2x65536x10_S2x16384x1_S2x16384x10_2_1_0_0_1_2_1110.offCoord (ix3 b m o) ⟨2, h2⟩ = o.val := by
      unfold GatherDims.offCoord
      rw [dif_pos hk]
      rfl
    rw [e1, e2, e3]
    show 0 + 0 + o.val = o.val
    omega

/-! ## One index word, wrapped, at an index

Each repetition cuts one column of the index array, drops the unit axis, replaces a negative word by the word plus
the table's row count, and puts the unit axis back. At (b, m) that is the wrap of the word at (b, m, column). -/

/-- the wrap of negative words, at an index: a select between the elements -/
theorem wrap_apply {s : Shape} (X Z0 Z1 : IVec s 32) (i : s.Idx) (w : BitVec 32)
    (hx : X i = w) (h0 : Z0 i = 0#32) (h1 : Z1 i = 65536#32) :
    select (cmpi .slt X Z0) (addi X Z1) X i = Cert.Spec.wrapW w := by
  show Scalar.select (IntOp.cmpi .slt (X i) (Z0 i)) (IntOp.addi (X i) (Z1 i)) (X i) = _
  rw [hx, h0, h1]
  rfl

section Word
variable (A : IVec S2x16384x16 32) (kk : Nat) (hkk : kk < 16)
  (hs : S2x16384x16.Slices ![0, 0, kk] S2x16384x1) (hc : S2x16384x1.ShapeCasts S2x16384)
  (hb0 : S_.BroadcastsInDim S2x16384 (![] : Fin 0 → Fin S2x16384.rank))
  (hb1 : S2x16384.BroadcastsInDim S2x16384x1 (![0, 1] : Fin 2 → Fin S2x16384x1.rank))

/-- column `kk` of the index words, as a [2, 16384] array, at (b, m) -/
theorem col_apply (b : Fin 2) (m : Fin 16384) :
    shapeCast S2x16384 (extractStridedSlice S2x16384x1 ![0, 0, kk] A hs) hc (ix2 b m) = A (ix3 b m ⟨kk, hkk⟩) := by
  refine (shapeCast_apply _ hc (ix2 b m) (ix3 b m (0 : Fin 1)) ?_).trans ?_
  · -- the two row-major positions agree: the dropped axis has one coordinate
    refine (Shape.rowMajor_val_three (d := ![2, 16384, 1]) (ix3 b m (0 : Fin 1))).trans
      (Eq.trans ?_ (Shape.rowMajor_val_two (d := ![2, 16384]) (ix2 b m)).symm)
    show (b.val * 16384 + m.val) * 1 + 0 = b.val * 16384 + m.val
    omega
  · refine extractStridedSlice_apply _ A hs (ix3 b m (0 : Fin 1)) (ix3 b m ⟨kk, hkk⟩) fun a => ?_
    match a with
    | ⟨0, _⟩ => show b.val = 0 + b.val; omega
    | ⟨1, _⟩ => show m.val = 0 + m.val; omega
    | ⟨2, _⟩ => show kk = kk + 0; omega

/-- a scalar word broadcast to [2, 16384], at an index -/
theorem splat_apply (c : BitVec 32) (b : Fin 2) (m : Fin 16384) :
    broadcastInDim S2x16384 ![] hb0 (constantI S_ 32 c) (ix2 b m) = c :=
  broadcastInDim_apply _ hb0 _ (ix2 b m) ix0 (fun a => a.elim0)

/-- the wrapped index word of column `kk`, with its unit axis back, at (b, m, 0) -/
theorem word_apply (b : Fin 2) (m : Fin 16384) :
    broadcastInDim S2x16384x1 ![0, 1] hb1
      (select
        (cmpi .slt (fun i => shapeCast S2x16384 (extractStridedSlice S2x16384x1 ![0, 0, kk] A hs) hc i)
          (broadcastInDim S2x16384 ![] hb0 (constantI S_ 32 0#32)))
        (addi (fun i => shapeCast S2x16384 (extractStridedSlice S2x16384x1 ![0, 0, kk] A hs) hc i)
          (broadcastInDim S2x16384 ![] hb0 (constantI S_ 32 65536#32)))
        (fun i => shapeCast S2x16384 (extractStridedSlice S2x16384x1 ![0, 0, kk] A hs) hc i))
      (ix3 b m (0 : Fin 1))
      = Cert.Spec.wrapW (A (ix3 b m ⟨kk, hkk⟩)) := by
  refine (broadcastInDim_apply _ hb1 _ (ix3 b m (0 : Fin 1)) (ix2 b m) fun a => ?_).trans ?_
  · match a with
    | ⟨0, _⟩ => rfl
    | ⟨1, _⟩ => rfl
  · exact wrap_apply _ _ _ (ix2 b m) _ (col_apply A kk hkk hs hc b m) (splat_apply hb0 _ b m) (splat_apply hb0 _ b m)

/-- one repetition at an index: the running maximum against the table's row that the wrapped word selects -/
theorem rep_apply (R : FVec Ideal S2x16384x10 .f32) (Y : FVec Ideal S2x65536x10 .f32)
    (b : Fin 2) (m : Fin 16384) (o : Fin 10) :
    maximumf R (Host.gather gather_S2x65536x10_S2x16384x1_S2x16384x10_2_1_0_0_1_2_1110 Y
      (broadcastInDim S2x16384x1 ![0, 1] hb1
        (select
          (cmpi .slt (fun i => shapeCast S2x16384 (extractStridedSlice S2x16384x1 ![0, 0, kk] A hs) hc i)
            (broadcastInDim S2x16384 ![] hb0 (constantI S_ 32 0#32)))
          (addi (fun i => shapeCast S2x16384 (extractStridedSlice S2x16384x1 ![0, 0, kk] A hs) hc i)
            (broadcastInDim S2x16384 ![] hb0 (constantI S_ 32 65536#32)))
          (fun i => shapeCast S2x16384 (extractStridedSlice S2x16384x1 ![0, 0, kk] A hs) hc i))))
      (ix3 b m o)
      = max (R (ix3 b m o))
          (Y (ix3 b (Cert.Spec.rowSel (Cert.Spec.wrapW (A (ix3 b m ⟨kk, hkk⟩)))) o)) := by
  refine (maximumf_apply R _ (ix3 b m o)).trans ?_
  rw [gatherK_apply, word_apply A kk hkk hs hc hb0 hb1 b m]

end Word

/-! ## The tail, stretch by stretch

The tail is read in seventeen consecutive stretches: the first sixteen operations (the bottom start and the first
repetition), then fifteen repetitions of twelve operations. Each stretch is read over an arbitrary valuation: it
leaves the table and the index words as they were, and its last operation is the running maximum against the row
its column's wrapped word selects. -/

/-- the start of the running maximum, at an index: the bottom of the extended reals -/
theorem start_apply (h0 : S_.BroadcastsInDim S16384x10 (![] : Fin 0 → Fin S16384x10.rank))
    (h1 : S16384x10.BroadcastsInDim S1x16384x10 (![1, 2] : Fin 2 → Fin S1x16384x10.rank))
    (h2 : S1x16384x10.BroadcastsInDim S2x16384x10 (![0, 1, 2] : Fin 3 → Fin S2x16384x10.rank))
    (b : Fin 2) (m : Fin 16384) (o : Fin 10) :
    broadcastInDim S2x16384x10 ![0, 1, 2] h2
      (broadcastInDim S1x16384x10 ![1, 2] h1
        (broadcastInDim S16384x10 ![] h0 (constant (F := Ideal) S_ .f32 0xFF800000#32))) (ix3 b m o) = (⊥ : EReal) := by
  refine (broadcastInDim_apply _ h2 _ (ix3 b m o) (ix3 (0 : Fin 1) m o) fun a => ?_).trans ?_
  · match a with
    | ⟨0, _⟩ => rfl
    | ⟨1, _⟩ => rfl
    | ⟨2, _⟩ => rfl
  refine (broadcastInDim_apply _ h1 _ (ix3 (0 : Fin 1) m o) (ix2 m o) fun a => ?_).trans ?_
  · match a with
    | ⟨0, _⟩ => rfl
    | ⟨1, _⟩ => rfl
  refine (broadcastInDim_apply _ h0 _ (ix2 m o) ix0 fun a => a.elim0).trans ?_
  exact Ideal.ofBits_negInf_f32

/-- the contents after the first `n` operations of the tail -/
def St (W : Valuation τ sig (Elt Ideal)) (n : Nat) : Valuation τ sig (Elt Ideal) :=
  StableHlo.after ((hostOps1 (F := Ideal)).take n) W

/-- the contents after `n + d` operations are the next `d` operations run from the contents after `n` -/
theorem St_step (W : Valuation τ sig (Elt Ideal)) (n d n' : Nat) (h : n + d = n') :
    St W n' = StableHlo.after (((hostOps1 (F := Ideal)).drop n).take d) (St W n) := by
  subst h
  unfold St
  rw [List.take_add, StableHlo.after_append]

/-- the tail has 196 operations -/
theorem St_all (W : Valuation τ sig (Elt Ideal)) : StableHlo.after (hostOps1 (F := Ideal)) W = St W 196 := by
  have hl : (hostOps1 (F := Ideal)).length = 196 := rfl
  unfold St
  rw [List.take_of_length_le (le_of_eq hl)]

/-- the table's entry that the `k`-th index word of point (b, m) selects, at channel o -/
def sel (W : Valuation τ sig (Elt Ideal)) (b : Fin 2) (m : Fin 16384) (o : Fin 10) (k : Fin 16) : EReal :=
  (W (Proc.devRef .tc main_v12) (ix3 b (Cert.Spec.rowSel (Cert.Spec.wrapW (W (Proc.devRef .tc main_arg8) (ix3 b m k) : BitVec 32))) o) : EReal)

/-- the first sixteen operations: the bottom start and the first repetition -/
theorem stretch0 (V : Valuation τ sig (Elt Ideal)) :
    StableHlo.after ((hostOps1 (F := Ideal)).take 16) V (Proc.devRef .tc main_v12) = V (Proc.devRef .tc main_v12)
    ∧ StableHlo.after ((hostOps1 (F := Ideal)).take 16) V (Proc.devRef .tc main_arg8) = V (Proc.devRef .tc main_arg8)
    ∧ ∀ (b : Fin 2) (m : Fin 16384) (o : Fin 10),
        (StableHlo.after ((hostOps1 (F := Ideal)).take 16) V (Proc.devRef .tc main_v25) (ix3 b m o) : EReal)
          = max (α := EReal) ⊥ (V (Proc.devRef .tc main_v12) (ix3 b (Cert.Spec.rowSel (Cert.Spec.wrapW (V (Proc.devRef .tc main_arg8) (ix3 b m 0) : BitVec 32))) o) : EReal) := by
  dsimp only [hostOps1, List.take]
  refine ⟨?_, ?_, fun b m o => ?_⟩
  · after_results_simp
  · after_results_simp
  · after_results_simp
    refine (rep_apply (V (Proc.devRef .tc main_arg8)) 0 (by decide) _ _ _ _ _ _ b m o).trans ?_
    rw [start_apply]
    rfl

/-- repetition 1: the twelve operations after the first 16 -/
theorem stretch1 (V : Valuation τ sig (Elt Ideal)) :
    StableHlo.after (((hostOps1 (F := Ideal)).drop 16).take 12) V (Proc.devRef .tc main_v12) = V (Proc.devRef .tc main_v12)
    ∧ StableHlo.after (((hostOps1 (F := Ideal)).drop 16).take 12) V (Proc.devRef .tc main_arg8) = V (Proc.devRef .tc main_arg8)
    ∧ ∀ (b : Fin 2) (m : Fin 16384) (o : Fin 10),
        (StableHlo.after (((hostOps1 (F := Ideal)).drop 16).take 12) V (Proc.devRef .tc main_v35) (ix3 b m o) : EReal)
          = max (α := EReal) (V (Proc.devRef .tc main_v25) (ix3 b m o) : EReal)
              (V (Proc.devRef .tc main_v12) (ix3 b (Cert.Spec.rowSel (Cert.Spec.wrapW (V (Proc.devRef .tc main_arg8) (ix3 b m 1) : BitVec 32))) o) : EReal) := by
  dsimp only [hostOps1, List.drop, List.take]
  refine ⟨?_, ?_, fun b m o => ?_⟩
  · after_results_simp
  · after_results_simp
  · after_results_simp
    exact rep_apply (V (Proc.devRef .tc main_arg8)) 1 (by decide) _ _ _ _ _ _ b m o

/-- repetition 2: the twelve operations after the first 28 -/
theorem stretch2 (V : Valuation τ sig (Elt Ideal)) :
    StableHlo.after (((hostOps1 (F := Ideal)).drop 28).take 12) V (Proc.devRef .tc main_v12) = V (Proc.devRef .tc main_v12)
    ∧ StableHlo.after (((hostOps1 (F := Ideal)).drop 28).take 12) V (Proc.devRef .tc main_arg8) = V (Proc.devRef .tc main_arg8)
    ∧ ∀ (b : Fin 2) (m : Fin 16384) (o : Fin 10),
        (StableHlo.after (((hostOps1 (F := Ideal)).drop 28).take 12) V (Proc.devRef .tc main_v45) (ix3 b m o) : EReal)
          = max (α := EReal) (V (Proc.devRef .tc main_v35) (ix3 b m o) : EReal)
              (V (Proc.devRef .tc main_v12) (ix3 b (Cert.Spec.rowSel (Cert.Spec.wrapW (V (Proc.devRef .tc main_arg8) (ix3 b m 2) : BitVec 32))) o) : EReal) := by
  dsimp only [hostOps1, List.drop, List.take]
  refine ⟨?_, ?_, fun b m o => ?_⟩
  · after_results_simp
  · after_results_simp
  · after_results_simp
    exact rep_apply (V (Proc.devRef .tc main_arg8)) 2 (by decide) _ _ _ _ _ _ b m o

/-- repetition 3: the twelve operations after the first 40 -/
theorem stretch3 (V : Valuation τ sig (Elt Ideal)) :
    StableHlo.after (((hostOps1 (F := Ideal)).drop 40).take 12) V (Proc.devRef .tc main_v12) = V (Proc.devRef .tc main_v12)
    ∧ StableHlo.after (((hostOps1 (F := Ideal)).drop 40).take 12) V (Proc.devRef .tc main_arg8) = V (Proc.devRef .tc main_arg8)
    ∧ ∀ (b : Fin 2) (m : Fin 16384) (o : Fin 10),
        (StableHlo.after (((hostOps1 (F := Ideal)).drop 40).take 12) V (Proc.devRef .tc main_v55) (ix3 b m o) : EReal)
          = max (α := EReal) (V (Proc.devRef .tc main_v45) (ix3 b m o) : EReal)
              (V (Proc.devRef .tc main_v12) (ix3 b (Cert.Spec.rowSel (Cert.Spec.wrapW (V (Proc.devRef .tc main_arg8) (ix3 b m 3) : BitVec 32))) o) : EReal) := by
  dsimp only [hostOps1, List.drop, List.take]
  refine ⟨?_, ?_, fun b m o => ?_⟩
  · after_results_simp
  · after_results_simp
  · after_results_simp
    exact rep_apply (V (Proc.devRef .tc main_arg8)) 3 (by decide) _ _ _ _ _ _ b m o

/-- repetition 4: the twelve operations after the first 52 -/
theorem stretch4 (V : Valuation τ sig (Elt Ideal)) :
    StableHlo.after (((hostOps1 (F := Ideal)).drop 52).take 12) V (Proc.devRef .tc main_v12) = V (Proc.devRef .tc main_v12)
    ∧ StableHlo.after (((hostOps1 (F := Ideal)).drop 52).take 12) V (Proc.devRef .tc main_arg8) = V (Proc.devRef .tc main_arg8)
    ∧ ∀ (b : Fin 2) (m : Fin 16384) (o : Fin 10),
        (StableHlo.after (((hostOps1 (F := Ideal)).drop 52).take 12) V (Proc.devRef .tc main_v65) (ix3 b m o) : EReal)
          = max (α := EReal) (V (Proc.devRef .tc main_v55) (ix3 b m o) : EReal)
              (V (Proc.devRef .tc main_v12) (ix3 b (Cert.Spec.rowSel (Cert.Spec.wrapW (V (Proc.devRef .tc main_arg8) (ix3 b m 4) : BitVec 32))) o) : EReal) := by
  dsimp only [hostOps1, List.drop, List.take]
  refine ⟨?_, ?_, fun b m o => ?_⟩
  · after_results_simp
  · after_results_simp
  · after_results_simp
    exact rep_apply (V (Proc.devRef .tc main_arg8)) 4 (by decide) _ _ _ _ _ _ b m o

/-- repetition 5: the twelve operations after the first 64 -/
theorem stretch5 (V : Valuation τ sig (Elt Ideal)) :
    StableHlo.after (((hostOps1 (F := Ideal)).drop 64).take 12) V (Proc.devRef .tc main_v12) = V (Proc.devRef .tc main_v12)
    ∧ StableHlo.after (((hostOps1 (F := Ideal)).drop 64).take 12) V (Proc.devRef .tc main_arg8) = V (Proc.devRef .tc main_arg8)
    ∧ ∀ (b : Fin 2) (m : Fin 16384) (o : Fin 10),
        (StableHlo.after (((hostOps1 (F := Ideal)).drop 64).take 12) V (Proc.devRef .tc main_v75) (ix3 b m o) : EReal)
          = max (α := EReal) (V (Proc.devRef .tc main_v65) (ix3 b m o) : EReal)
              (V (Proc.devRef .tc main_v12) (ix3 b (Cert.Spec.rowSel (Cert.Spec.wrapW (V (Proc.devRef .tc main_arg8) (ix3 b m 5) : BitVec 32))) o) : EReal) := by
  dsimp only [hostOps1, List.drop, List.take]
  refine ⟨?_, ?_, fun b m o => ?_⟩
  · after_results_simp
  · after_results_simp
  · after_results_simp
    exact rep_apply (V (Proc.devRef .tc main_arg8)) 5 (by decide) _ _ _ _ _ _ b m o

/-- repetition 6: the twelve operations after the first 76 -/
theorem stretch6 (V : Valuation τ sig (Elt Ideal)) :
    StableHlo.after (((hostOps1 (F := Ideal)).drop 76).take 12) V (Proc.devRef .tc main_v12) = V (Proc.devRef .tc main_v12)
    ∧ StableHlo.after (((hostOps1 (F := Ideal)).drop 76).take 12) V (Proc.devRef .tc main_arg8) = V (Proc.devRef .tc main_arg8)
    ∧ ∀ (b : Fin 2) (m : Fin 16384) (o : Fin 10),
        (StableHlo.after (((hostOps1 (F := Ideal)).drop 76).take 12) V (Proc.devRef .tc main_v85) (ix3 b m o) : EReal)
          = max (α := EReal) (V (Proc.devRef .tc main_v75) (ix3 b m o) : EReal)
              (V (Proc.devRef .tc main_v12) (ix3 b (Cert.Spec.rowSel (Cert.Spec.wrapW (V (Proc.devRef .tc main_arg8) (ix3 b m 6) : BitVec 32))) o) : EReal) := by
  dsimp only [hostOps1, List.drop, List.take]
  refine ⟨?_, ?_, fun b m o => ?_⟩
  · after_results_simp
  · after_results_simp
  · after_results_simp
    exact rep_apply (V (Proc.devRef .tc main_arg8)) 6 (by decide) _ _ _ _ _ _ b m o

/-- repetition 7: the twelve operations after the first 88 -/
theorem stretch7 (V : Valuation τ sig (Elt Ideal)) :
    StableHlo.after (((hostOps1 (F := Ideal)).drop 88).take 12) V (Proc.devRef .tc main_v12) = V (Proc.devRef .tc main_v12)
    ∧ StableHlo.after (((hostOps1 (F := Ideal)).drop 88).take 12) V (Proc.devRef .tc main_arg8) = V (Proc.devRef .tc main_arg8)
    ∧ ∀ (b : Fin 2) (m : Fin 16384) (o : Fin 10),
        (StableHlo.after (((hostOps1 (F := Ideal)).drop 88).take 12) V (Proc.devRef .tc main_v95) (ix3 b m o) : EReal)
          = max (α := EReal) (V (Proc.devRef .tc main_v85) (ix3 b m o) : EReal)
              (V (Proc.devRef .tc main_v12) (ix3 b (Cert.Spec.rowSel (Cert.Spec.wrapW (V (Proc.devRef .tc main_arg8) (ix3 b m 7) : BitVec 32))) o) : EReal) := by
  dsimp only [hostOps1, List.drop, List.take]
  refine ⟨?_, ?_, fun b m o => ?_⟩
  · after_results_simp
  · after_results_simp
  · after_results_simp
    exact rep_apply (V (Proc.devRef .tc main_arg8)) 7 (by decide) _ _ _ _ _ _ b m o

/-- repetition 8: the twelve operations after the first 100 -/
theorem stretch8 (V : Valuation τ sig (Elt Ideal)) :
    StableHlo.after (((hostOps1 (F := Ideal)).drop 100).take 12) V (Proc.devRef .tc main_v12) = V (Proc.devRef .tc main_v12)
    ∧ StableHlo.after (((hostOps1 (F := Ideal)).drop 100).take 12) V (Proc.devRef .tc main_arg8) = V (Proc.devRef .tc main_arg8)
    ∧ ∀ (b : Fin 2) (m : Fin 16384) (o : Fin 10),
        (StableHlo.after (((hostOps1 (F := Ideal)).drop 100).take 12) V (Proc.devRef .tc main_v105) (ix3 b m o) : EReal)
          = max (α := EReal) (V (Proc.devRef .tc main_v95) (ix3 b m o) : EReal)
              (V (Proc.devRef .tc main_v12) (ix3 b (Cert.Spec.rowSel (Cert.Spec.wrapW (V (Proc.devRef .tc main_arg8) (ix3 b m 8) : BitVec 32))) o) : EReal) := by
  dsimp only [hostOps1, List.drop, List.take]
  refine ⟨?_, ?_, fun b m o => ?_⟩
  · after_results_simp
  · after_results_simp
  · after_results_simp
    exact rep_apply (V (Proc.devRef .tc main_arg8)) 8 (by decide) _ _ _ _ _ _ b m o

/-- repetition 9: the twelve operations after the first 112 -/
theorem stretch9 (V : Valuation τ sig (Elt Ideal)) :
    StableHlo.after (((hostOps1 (F := Ideal)).drop 112).take 12) V (Proc.devRef .tc main_v12) = V (Proc.devRef .tc main_v12)
    ∧ StableHlo.after (((hostOps1 (F := Ideal)).drop 112).take 12) V (Proc.devRef .tc main_arg8) = V (Proc.devRef .tc main_arg8)
    ∧ ∀ (b : Fin 2) (m : Fin 16384) (o : Fin 10),
        (StableHlo.after (((hostOps1 (F := Ideal)).drop 112).take 12) V (Proc.devRef .tc main_v115) (ix3 b m o) : EReal)
          = max (α := EReal) (V (Proc.devRef .tc main_v105) (ix3 b m o) : EReal)
              (V (Proc.devRef .tc main_v12) (ix3 b (Cert.Spec.rowSel (Cert.Spec.wrapW (V (Proc.devRef .tc main_arg8) (ix3 b m 9) : BitVec 32))) o) : EReal) := by
  dsimp only [hostOps1, List.drop, List.take]
  refine ⟨?_, ?_, fun b m o => ?_⟩
  · after_results_simp
  · after_results_simp
  · after_results_simp
    exact rep_apply (V (Proc.devRef .tc main_arg8)) 9 (by decide) _ _ _ _ _ _ b m o

/-- repetition 10: the twelve operations after the first 124 -/
theorem stretch10 (V : Valuation τ sig (Elt Ideal)) :
    StableHlo.after (((hostOps1 (F := Ideal)).drop 124).take 12) V (Proc.devRef .tc main_v12) = V (Proc.devRef .tc main_v12)
    ∧ StableHlo.after (((hostOps1 (F := Ideal)).drop 124).take 12) V (Proc.devRef .tc main_arg8) = V (Proc.devRef .tc main_arg8)
    ∧ ∀ (b : Fin 2) (m : Fin 16384) (o : Fin 10),
        (StableHlo.after (((hostOps1 (F := Ideal)).drop 124).take 12) V (Proc.devRef .tc main_v125) (ix3 b m o) : EReal)
          = max (α := EReal) (V (Proc.devRef .tc main_v115) (ix3 b m o) : EReal)
              (V (Proc.devRef .tc main_v12) (ix3 b (Cert.Spec.rowSel (Cert.Spec.wrapW (V (Proc.devRef .tc main_arg8) (ix3 b m 10) : BitVec 32))) o) : EReal) := by
  dsimp only [hostOps1, List.drop, List.take]
  refine ⟨?_, ?_, fun b m o => ?_⟩
  · after_results_simp
  · after_results_simp
  · after_results_simp
    exact rep_apply (V (Proc.devRef .tc main_arg8)) 10 (by decide) _ _ _ _ _ _ b m o

/-- repetition 11: the twelve operations after the first 136 -/
theorem stretch11 (V : Valuation τ sig (Elt Ideal)) :
    StableHlo.after (((hostOps1 (F := Ideal)).drop 136).take 12) V (Proc.devRef .tc main_v12) = V (Proc.devRef .tc main_v12)
    ∧ StableHlo.after (((hostOps1 (F := Ideal)).drop 136).take 12) V (Proc.devRef .tc main_arg8) = V (Proc.devRef .tc main_arg8)
    ∧ ∀ (b : Fin 2) (m : Fin 16384) (o : Fin 10),
        (StableHlo.after (((hostOps1 (F := Ideal)).drop 136).take 12) V (Proc.devRef .tc main_v135) (ix3 b m o) : EReal)
          = max (α := EReal) (V (Proc.devRef .tc main_v125) (ix3 b m o) : EReal)
              (V (Proc.devRef .tc main_v12) (ix3 b (Cert.Spec.rowSel (Cert.Spec.wrapW (V (Proc.devRef .tc main_arg8) (ix3 b m 11) : BitVec 32))) o) : EReal) := by
  dsimp only [hostOps1, List.drop, List.take]
  refine ⟨?_, ?_, fun b m o => ?_⟩
  · after_results_simp
  · after_results_simp
  · after_results_simp
    exact rep_apply (V (Proc.devRef .tc main_arg8)) 11 (by decide) _ _ _ _ _ _ b m o

/-- repetition 12: the twelve operations after the first 148 -/
theorem stretch12 (V : Valuation τ sig (Elt Ideal)) :
    StableHlo.after (((hostOps1 (F := Ideal)).drop 148).take 12) V (Proc.devRef .tc main_v12) = V (Proc.devRef .tc main_v12)
    ∧ StableHlo.after (((hostOps1 (F := Ideal)).drop 148).take 12) V (Proc.devRef .tc main_arg8) = V (Proc.devRef .tc main_arg8)
    ∧ ∀ (b : Fin 2) (m : Fin 16384) (o : Fin 10),
        (StableHlo.after (((hostOps1 (F := Ideal)).drop 148).take 12) V (Proc.devRef .tc main_v145) (ix3 b m o) : EReal)
          = max (α := EReal) (V (Proc.devRef .tc main_v135) (ix3 b m o) : EReal)
              (V (Proc.devRef .tc main_v12) (ix3 b (Cert.Spec.rowSel (Cert.Spec.wrapW (V (Proc.devRef .tc main_arg8) (ix3 b m 12) : BitVec 32))) o) : EReal) := by
  dsimp only [hostOps1, List.drop, List.take]
  refine ⟨?_, ?_, fun b m o => ?_⟩
  · after_results_simp
  · after_results_simp
  · after_results_simp
    exact rep_apply (V (Proc.devRef .tc main_arg8)) 12 (by decide) _ _ _ _ _ _ b m o

/-- repetition 13: the twelve operations after the first 160 -/
theorem stretch13 (V : Valuation τ sig (Elt Ideal)) :
    StableHlo.after (((hostOps1 (F := Ideal)).drop 160).take 12) V (Proc.devRef .tc main_v12) = V (Proc.devRef .tc main_v12)
    ∧ StableHlo.after (((hostOps1 (F := Ideal)).drop 160).take 12) V (Proc.devRef .tc main_arg8) = V (Proc.devRef .tc main_arg8)
    ∧ ∀ (b : Fin 2) (m : Fin 16384) (o : Fin 10),
        (StableHlo.after (((hostOps1 (F := Ideal)).drop 160).take 12) V (Proc.devRef .tc main_v155) (ix3 b m o) : EReal)
          = max (α := EReal) (V (Proc.devRef .tc main_v145) (ix3 b m o) : EReal)
              (V (Proc.devRef .tc main_v12) (ix3 b (Cert.Spec.rowSel (Cert.Spec.wrapW (V (Proc.devRef .tc main_arg8) (ix3 b m 13) : BitVec 32))) o) : EReal) := by
  dsimp only [hostOps1, List.drop, List.take]
  refine ⟨?_, ?_, fun b m o => ?_⟩
  · after_results_simp
  · after_results_simp
  · after_results_simp
    exact rep_apply (V (Proc.devRef .tc main_arg8)) 13 (by decide) _ _ _ _ _ _ b m o

/-- repetition 14: the twelve operations after the first 172 -/
theorem stretch14 (V : Valuation τ sig (Elt Ideal)) :
    StableHlo.after (((hostOps1 (F := Ideal)).drop 172).take 12) V (Proc.devRef .tc main_v12) = V (Proc.devRef .tc main_v12)
    ∧ StableHlo.after (((hostOps1 (F := Ideal)).drop 172).take 12) V (Proc.devRef .tc main_arg8) = V (Proc.devRef .tc main_arg8)
    ∧ ∀ (b : Fin 2) (m : Fin 16384) (o : Fin 10),
        (StableHlo.after (((hostOps1 (F := Ideal)).drop 172).take 12) V (Proc.devRef .tc main_v165) (ix3 b m o) : EReal)
          = max (α := EReal) (V (Proc.devRef .tc main_v155) (ix3 b m o) : EReal)
              (V (Proc.devRef .tc main_v12) (ix3 b (Cert.Spec.rowSel (Cert.Spec.wrapW (V (Proc.devRef .tc main_arg8) (ix3 b m 14) : BitVec 32))) o) : EReal) := by
  dsimp only [hostOps1, List.drop, List.take]
  refine ⟨?_, ?_, fun b m o => ?_⟩
  · after_results_simp
  · after_results_simp
  · after_results_simp
    exact rep_apply (V (Proc.devRef .tc main_arg8)) 14 (by decide) _ _ _ _ _ _ b m o

/-- repetition 15: the twelve operations after the first 184 -/
theorem stretch15 (V : Valuation τ sig (Elt Ideal)) :
    StableHlo.after (((hostOps1 (F := Ideal)).drop 184).take 12) V (Proc.devRef .tc main_v12) = V (Proc.devRef .tc main_v12)
    ∧ StableHlo.after (((hostOps1 (F := Ideal)).drop 184).take 12) V (Proc.devRef .tc main_arg8) = V (Proc.devRef .tc main_arg8)
    ∧ ∀ (b : Fin 2) (m : Fin 16384) (o : Fin 10),
        (StableHlo.after (((hostOps1 (F := Ideal)).drop 184).take 12) V (Proc.devRef .tc main_v175) (ix3 b m o) : EReal)
          = max (α := EReal) (V (Proc.devRef .tc main_v165) (ix3 b m o) : EReal)
              (V (Proc.devRef .tc main_v12) (ix3 b (Cert.Spec.rowSel (Cert.Spec.wrapW (V (Proc.devRef .tc main_arg8) (ix3 b m 15) : BitVec 32))) o) : EReal) := by
  dsimp only [hostOps1, List.drop, List.take]
  refine ⟨?_, ?_, fun b m o => ?_⟩
  · after_results_simp
  · after_results_simp
  · after_results_simp
    exact rep_apply (V (Proc.devRef .tc main_arg8)) 15 (by decide) _ _ _ _ _ _ b m o

/-- after the first stretch -/
theorem chain0 (W : Valuation τ sig (Elt Ideal)) :
    St W 16 (Proc.devRef .tc main_v12) = W (Proc.devRef .tc main_v12)
    ∧ St W 16 (Proc.devRef .tc main_arg8) = W (Proc.devRef .tc main_arg8)
    ∧ ∀ (b : Fin 2) (m : Fin 16384) (o : Fin 10),
        (St W 16 (Proc.devRef .tc main_v25) (ix3 b m o) : EReal) = max (α := EReal) ⊥ (sel W b m o 0) :=
  stretch0 W

/-- after repetition 1 -/
theorem chain1 (W : Valuation τ sig (Elt Ideal)) :
    St W 28 (Proc.devRef .tc main_v12) = W (Proc.devRef .tc main_v12)
    ∧ St W 28 (Proc.devRef .tc main_arg8) = W (Proc.devRef .tc main_arg8)
    ∧ ∀ (b : Fin 2) (m : Fin 16384) (o : Fin 10),
        (St W 28 (Proc.devRef .tc main_v35) (ix3 b m o) : EReal)
          = max (α := EReal) (St W 16 (Proc.devRef .tc main_v25) (ix3 b m o) : EReal) (sel W b m o 1) := by
  have e := St_step W 16 12 28 rfl
  obtain ⟨s12, s8, sv⟩ := stretch1 (St W 16)
  obtain ⟨p12, p8, -⟩ := chain0 W
  refine ⟨?_, ?_, fun b m o => ?_⟩
  · rw [e, s12, p12]
  · rw [e, s8, p8]
  · rw [e, sv b m o, p12, p8]
    rfl

/-- after repetition 2 -/
theorem chain2 (W : Valuation τ sig (Elt Ideal)) :
    St W 40 (Proc.devRef .tc main_v12) = W (Proc.devRef .tc main_v12)
    ∧ St W 40 (Proc.devRef .tc main_arg8) = W (Proc.devRef .tc main_arg8)
    ∧ ∀ (b : Fin 2) (m : Fin 16384) (o : Fin 10),
        (St W 40 (Proc.devRef .tc main_v45) (ix3 b m o) : EReal)
          = max (α := EReal) (St W 28 (Proc.devRef .tc main_v35) (ix3 b m o) : EReal) (sel W b m o 2) := by
  have e := St_step W 28 12 40 rfl
  obtain ⟨s12, s8, sv⟩ := stretch2 (St W 28)
  obtain ⟨p12, p8, -⟩ := chain1 W
  refine ⟨?_, ?_, fun b m o => ?_⟩
  · rw [e, s12, p12]
  · rw [e, s8, p8]
  · rw [e, sv b m o, p12, p8]
    rfl

/-- after repetition 3 -/
theorem chain3 (W : Valuation τ sig (Elt Ideal)) :
    St W 52 (Proc.devRef .tc main_v12) = W (Proc.devRef .tc main_v12)
    ∧ St W 52 (Proc.devRef .tc main_arg8) = W (Proc.devRef .tc main_arg8)
    ∧ ∀ (b : Fin 2) (m : Fin 16384) (o : Fin 10),
        (St W 52 (Proc.devRef .tc main_v55) (ix3 b m o) : EReal)
          = max (α := EReal) (St W 40 (Proc.devRef .tc main_v45) (ix3 b m o) : EReal) (sel W b m o 3) := by
  have e := St_step W 40 12 52 rfl
  obtain ⟨s12, s8, sv⟩ := stretch3 (St W 40)
  obtain ⟨p12, p8, -⟩ := chain2 W
  refine ⟨?_, ?_, fun b m o => ?_⟩
  · rw [e, s12, p12]
  · rw [e, s8, p8]
  · rw [e, sv b m o, p12, p8]
    rfl

/-- after repetition 4 -/
theorem chain4 (W : Valuation τ sig (Elt Ideal)) :
    St W 64 (Proc.devRef .tc main_v12) = W (Proc.devRef .tc main_v12)
    ∧ St W 64 (Proc.devRef .tc main_arg8) = W (Proc.devRef .tc main_arg8)
    ∧ ∀ (b : Fin 2) (m : Fin 16384) (o : Fin 10),
        (St W 64 (Proc.devRef .tc main_v65) (ix3 b m o) : EReal)
          = max (α := EReal) (St W 52 (Proc.devRef .tc main_v55) (ix3 b m o) : EReal) (sel W b m o 4) := by
  have e := St_step W 52 12 64 rfl
  obtain ⟨s12, s8, sv⟩ := stretch4 (St W 52)
  obtain ⟨p12, p8, -⟩ := chain3 W
  refine ⟨?_, ?_, fun b m o => ?_⟩
  · rw [e, s12, p12]
  · rw [e, s8, p8]
  · rw [e, sv b m o, p12, p8]
    rfl

/-- after repetition 5 -/
theorem chain5 (W : Valuation τ sig (Elt Ideal)) :
    St W 76 (Proc.devRef .tc main_v12) = W (Proc.devRef .tc main_v12)
    ∧ St W 76 (Proc.devRef .tc main_arg8) = W (Proc.devRef .tc main_arg8)
    ∧ ∀ (b : Fin 2) (m : Fin 16384) (o : Fin 10),
        (St W 76 (Proc.devRef .tc main_v75) (ix3 b m o) : EReal)
          = max (α := EReal) (St W 64 (Proc.devRef .tc main_v65) (ix3 b m o) : EReal) (sel W b m o 5) := by
  have e := St_step W 64 12 76 rfl
  obtain ⟨s12, s8, sv⟩ := stretch5 (St W 64)
  obtain ⟨p12, p8, -⟩ := chain4 W
  refine ⟨?_, ?_, fun b m o => ?_⟩
  · rw [e, s12, p12]
  · rw [e, s8, p8]
  · rw [e, sv b m o, p12, p8]
    rfl

/-- after repetition 6 -/
theorem chain6 (W : Valuation τ sig (Elt Ideal)) :
    St W 88 (Proc.devRef .tc main_v12) = W (Proc.devRef .tc main_v12)
    ∧ St W 88 (Proc.devRef .tc main_arg8) = W (Proc.devRef .tc main_arg8)
    ∧ ∀ (b : Fin 2) (m : Fin 16384) (o : Fin 10),
        (St W 88 (Proc.devRef .tc main_v85) (ix3 b m o) : EReal)
          = max (α := EReal) (St W 76 (Proc.devRef .tc main_v75) (ix3 b m o) : EReal) (sel W b m o 6) := by
  have e := St_step W 76 12 88 rfl
  obtain ⟨s12, s8, sv⟩ := stretch6 (St W 76)
  obtain ⟨p12, p8, -⟩ := chain5 W
  refine ⟨?_, ?_, fun b m o => ?_⟩
  · rw [e, s12, p12]
  · rw [e, s8, p8]
  · rw [e, sv b m o, p12, p8]
    rfl

/-- after repetition 7 -/
theorem chain7 (W : Valuation τ sig (Elt Ideal)) :
    St W 100 (Proc.devRef .tc main_v12) = W (Proc.devRef .tc main_v12)
    ∧ St W 100 (Proc.devRef .tc main_arg8) = W (Proc.devRef .tc main_arg8)
    ∧ ∀ (b : Fin 2) (m : Fin 16384) (o : Fin 10),
        (St W 100 (Proc.devRef .tc main_v95) (ix3 b m o) : EReal)
          = max (α := EReal) (St W 88 (Proc.devRef .tc main_v85) (ix3 b m o) : EReal) (sel W b m o 7) := by
  have e := St_step W 88 12 100 rfl
  obtain ⟨s12, s8, sv⟩ := stretch7 (St W 88)
  obtain ⟨p12, p8, -⟩ := chain6 W
  refine ⟨?_, ?_, fun b m o => ?_⟩
  · rw [e, s12, p12]
  · rw [e, s8, p8]
  · rw [e, sv b m o, p12, p8]
    rfl

/-- after repetition 8 -/
theorem chain8 (W : Valuation τ sig (Elt Ideal)) :
    St W 112 (Proc.devRef .tc main_v12) = W (Proc.devRef .tc main_v12)
    ∧ St W 112 (Proc.devRef .tc main_arg8) = W (Proc.devRef .tc main_arg8)
    ∧ ∀ (b : Fin 2) (m : Fin 16384) (o : Fin 10),
        (St W 112 (Proc.devRef .tc main_v105) (ix3 b m o) : EReal)
          = max (α := EReal) (St W 100 (Proc.devRef .tc main_v95) (ix3 b m o) : EReal) (sel W b m o 8) := by
  have e := St_step W 100 12 112 rfl
  obtain ⟨s12, s8, sv⟩ := stretch8 (St W 100)
  obtain ⟨p12, p8, -⟩ := chain7 W
  refine ⟨?_, ?_, fun b m o => ?_⟩
  · rw [e, s12, p12]
  · rw [e, s8, p8]
  · rw [e, sv b m o, p12, p8]
    rfl

/-- after repetition 9 -/
theorem chain9 (W : Valuation τ sig (Elt Ideal)) :
    St W 124 (Proc.devRef .tc main_v12) = W (Proc.devRef .tc main_v12)
    ∧ St W 124 (Proc.devRef .tc main_arg8) = W (Proc.devRef .tc main_arg8)
    ∧ ∀ (b : Fin 2) (m : Fin 16384) (o : Fin 10),
        (St W 124 (Proc.devRef .tc main_v115) (ix3 b m o) : EReal)
          = max (α := EReal) (St W 112 (Proc.devRef .tc main_v105) (ix3 b m o) : EReal) (sel W b m o 9) := by
  have e := St_step W 112 12 124 rfl
  obtain ⟨s12, s8, sv⟩ := stretch9 (St W 112)
  obtain ⟨p12, p8, -⟩ := chain8 W
  refine ⟨?_, ?_, fun b m o => ?_⟩
  · rw [e, s12, p12]
  · rw [e, s8, p8]
  · rw [e, sv b m o, p12, p8]
    rfl

/-- after repetition 10 -/
theorem chain10 (W : Valuation τ sig (Elt Ideal)) :
    St W 136 (Proc.devRef .tc main_v12) = W (Proc.devRef .tc main_v12)
    ∧ St W 136 (Proc.devRef .tc main_arg8) = W (Proc.devRef .tc main_arg8)
    ∧ ∀ (b : Fin 2) (m : Fin 16384) (o : Fin 10),
        (St W 136 (Proc.devRef .tc main_v125) (ix3 b m o) : EReal)
          = max (α := EReal) (St W 124 (Proc.devRef .tc main_v115) (ix3 b m o) : EReal) (sel W b m o 10) := by
  have e := St_step W 124 12 136 rfl
  obtain ⟨s12, s8, sv⟩ := stretch10 (St W 124)
  obtain ⟨p12, p8, -⟩ := chain9 W
  refine ⟨?_, ?_, fun b m o => ?_⟩
  · rw [e, s12, p12]
  · rw [e, s8, p8]
  · rw [e, sv b m o, p12, p8]
    rfl

/-- after repetition 11 -/
theorem chain11 (W : Valuation τ sig (Elt Ideal)) :
    St W 148 (Proc.devRef .tc main_v12) = W (Proc.devRef .tc main_v12)
    ∧ St W 148 (Proc.devRef .tc main_arg8) = W (Proc.devRef .tc main_arg8)
    ∧ ∀ (b : Fin 2) (m : Fin 16384) (o : Fin 10),
        (St W 148 (Proc.devRef .tc main_v135) (ix3 b m o) : EReal)
          = max (α := EReal) (St W 136 (Proc.devRef .tc main_v125) (ix3 b m o) : EReal) (sel W b m o 11) := by
  have e := St_step W 136 12 148 rfl
  obtain ⟨s12, s8, sv⟩ := stretch11 (St W 136)
  obtain ⟨p12, p8, -⟩ := chain10 W
  refine ⟨?_, ?_, fun b m o => ?_⟩
  · rw [e, s12, p12]
  · rw [e, s8, p8]
  · rw [e, sv b m o, p12, p8]
    rfl

/-- after repetition 12 -/
theorem chain12 (W : Valuation τ sig (Elt Ideal)) :
    St W 160 (Proc.devRef .tc main_v12) = W (Proc.devRef .tc main_v12)
    ∧ St W 160 (Proc.devRef .tc main_arg8) = W (Proc.devRef .tc main_arg8)
    ∧ ∀ (b : Fin 2) (m : Fin 16384) (o : Fin 10),
        (St W 160 (Proc.devRef .tc main_v145) (ix3 b m o) : EReal)
          = max (α := EReal) (St W 148 (Proc.devRef .tc main_v135) (ix3 b m o) : EReal) (sel W b m o 12) := by
  have e := St_step W 148 12 160 rfl
  obtain ⟨s12, s8, sv⟩ := stretch12 (St W 148)
  obtain ⟨p12, p8, -⟩ := chain11 W
  refine ⟨?_, ?_, fun b m o => ?_⟩
  · rw [e, s12, p12]
  · rw [e, s8, p8]
  · rw [e, sv b m o, p12, p8]
    rfl

/-- after repetition 13 -/
theorem chain13 (W : Valuation τ sig (Elt Ideal)) :
    St W 172 (Proc.devRef .tc main_v12) = W (Proc.devRef .tc main_v12)
    ∧ St W 172 (Proc.devRef .tc main_arg8) = W (Proc.devRef .tc main_arg8)
    ∧ ∀ (b : Fin 2) (m : Fin 16384) (o : Fin 10),
        (St W 172 (Proc.devRef .tc main_v155) (ix3 b m o) : EReal)
          = max (α := EReal) (St W 160 (Proc.devRef .tc main_v145) (ix3 b m o) : EReal) (sel W b m o 13) := by
  have e := St_step W 160 12 172 rfl
  obtain ⟨s12, s8, sv⟩ := stretch13 (St W 160)
  obtain ⟨p12, p8, -⟩ := chain12 W
  refine ⟨?_, ?_, fun b m o => ?_⟩
  · rw [e, s12, p12]
  · rw [e, s8, p8]
  · rw [e, sv b m o, p12, p8]
    rfl

/-- after repetition 14 -/
theorem chain14 (W : Valuation τ sig (Elt Ideal)) :
    St W 184 (Proc.devRef .tc main_v12) = W (Proc.devRef .tc main_v12)
    ∧ St W 184 (Proc.devRef .tc main_arg8) = W (Proc.devRef .tc main_arg8)
    ∧ ∀ (b : Fin 2) (m : Fin 16384) (o : Fin 10),
        (St W 184 (Proc.devRef .tc main_v165) (ix3 b m o) : EReal)
          = max (α := EReal) (St W 172 (Proc.devRef .tc main_v155) (ix3 b m o) : EReal) (sel W b m o 14) := by
  have e := St_step W 172 12 184 rfl
  obtain ⟨s12, s8, sv⟩ := stretch14 (St W 172)
  obtain ⟨p12, p8, -⟩ := chain13 W
  refine ⟨?_, ?_, fun b m o => ?_⟩
  · rw [e, s12, p12]
  · rw [e, s8, p8]
  · rw [e, sv b m o, p12, p8]
    rfl

/-- after repetition 15 -/
theorem chain15 (W : Valuation τ sig (Elt Ideal)) :
    St W 196 (Proc.devRef .tc main_v12) = W (Proc.devRef .tc main_v12)
    ∧ St W 196 (Proc.devRef .tc main_arg8) = W (Proc.devRef .tc main_arg8)
    ∧ ∀ (b : Fin 2) (m : Fin 16384) (o : Fin 10),
        (St W 196 (Proc.devRef .tc main_v175) (ix3 b m o) : EReal)
          = max (α := EReal) (St W 184 (Proc.devRef .tc main_v165) (ix3 b m o) : EReal) (sel W b m o 15) := by
  have e := St_step W 184 12 196 rfl
  obtain ⟨s12, s8, sv⟩ := stretch15 (St W 184)
  obtain ⟨p12, p8, -⟩ := chain14 W
  refine ⟨?_, ?_, fun b m o => ?_⟩
  · rw [e, s12, p12]
  · rw [e, s8, p8]
  · rw [e, sv b m o, p12, p8]
    rfl

/-! ## The tail read at an index -/

/-- the tail's last maximum, at an index: the maximum over the sixteen rows that the point's index words select -/
theorem tail_read (W : Valuation τ sig (Elt Ideal)) (b : Fin 2) (m : Fin 16384) (o : Fin 10) :
    StableHlo.after (hostOps1 (F := Ideal)) W (Proc.devRef .tc main_v175) (ix3 b m o)
      = Cert.Spec.poolOf (W (Proc.devRef .tc main_v12)) (W (Proc.devRef .tc main_arg8)) b m o := by
  rw [St_all W]
  refine ((chain15 W).2.2 b m o).trans ?_
  rw [(chain14 W).2.2 b m o,
    (chain13 W).2.2 b m o,
    (chain12 W).2.2 b m o,
    (chain11 W).2.2 b m o,
    (chain10 W).2.2 b m o,
    (chain9 W).2.2 b m o,
    (chain8 W).2.2 b m o,
    (chain7 W).2.2 b m o,
    (chain6 W).2.2 b m o,
    (chain5 W).2.2 b m o,
    (chain4 W).2.2 b m o,
    (chain3 W).2.2 b m o,
    (chain2 W).2.2 b m o,
    (chain1 W).2.2 b m o,
    (chain0 W).2.2 b m o]
  exact max16_eq_iSup (sel W b m o)

end Cert.KTail

end
-- ==== Proof.KValue.lean ====
/-
  The idealized kernel's result, entry by entry.

  Row `n` of batch `b` of the array the region writes is the specification's row function of point `n`, its
  sixteen gathered neighbours and the parameter tables: row `n` lies in tile `n / 512` at row `n % 512`,
  that tile's block is the kernel body's payload of the tile's input blocks, and the payload at an entry is
  the row function of that row of the blocks. The result of @main is, at `(b, j, o)`, the supremum over the
  sixteen sampled rows of channel `o` of those rows.
-/
import proofs.«152972_j13804024889408_2_alg».proof.Proof.KRun
import proofs.«152972_j13804024889408_2_alg».proof.Proof.KArray
import proofs.«152972_j13804024889408_2_alg».proof.Proof.KFeat
import proofs.«152972_j13804024889408_2_alg».proof.Proof.KRow
import proofs.«152972_j13804024889408_2_alg».proof.Proof.KTail
import proofs.«152972_j13804024889408_2_alg».proof.Proof.Spec

set_option maxRecDepth 16384

noncomputable section

open scoped BigOperators

namespace Cert.KValue

open Cert.KernelIdeal Cert.KernelIdeal.Gen Cert.KernelIdeal.Fr
open Idealize.ShloMosaic Idealize.ShloMosaic.TcCoe Idealize.ShloMosaic.ValueIdx Idealize.SL.Sem

variable (m : (ℓ : Loc nD τ sig) → Buf (Elt Ideal) ℓ) (c : Dev nD)

/-- Every row number is a row of a tile. -/
theorem rowAt_div_mod (n : Fin 65536) :
    Cert.Spec.rowAt ⟨n.val / 512, by have := n.isLt; omega⟩ ⟨n.val % 512, Nat.mod_lt _ (by decide)⟩ = n :=
  Fin.ext (by show 512 * (n.val / 512) + n.val % 512 = n.val; omega)

/-- Row `n` of batch `b`, from the launch memory. -/
def rowK (b : Fin 2) (n : Fin 65536) (o : Fin 10) : EReal :=
  Cert.Spec.row (fun j => (m ((c.tc : Thread nD τ).loc main_arg0)) (ix3 b n j))
    (fun k j => Cert.ReferenceIdeal.Read.val_main_v6 (F := Ideal) (m ((c.tc : Thread nD τ).loc main_arg0)) (m ((c.tc : Thread nD τ).loc main_arg7)) (ix4 b n k j))
    (fun o' i => (m ((c.tc : Thread nD τ).loc main_arg1)) (ix2 o' i)) (fun o' i => (m ((c.tc : Thread nD τ).loc main_arg2)) (ix2 o' i))
    (fun o' => (m ((c.tc : Thread nD τ).loc main_arg3)) (ix1 o')) (fun o' => (m ((c.tc : Thread nD τ).loc main_arg4)) (ix1 o')) (fun o' => (m ((c.tc : Thread nD τ).loc main_arg5)) (ix1 o')) (fun o' => (m ((c.tc : Thread nD τ).loc main_arg6)) (ix1 o')) o

/-- The row function respects equal arguments. -/
theorem rowOf_congr {f f' a a' : Fin 16 → Fin 10 → EReal} {w w' : Fin 10 → Fin 10 → EReal}
    {g g' be be' mu mu' va va' : Fin 10 → EReal} (hf : f = f') (ha : a = a') (hw : w = w') (hg : g = g')
    (hb : be = be') (hm : mu = mu') (hv : va = va') (o : Fin 10) :
    Cert.Spec.rowOf f a w g be mu va o = Cert.Spec.rowOf f' a' w' g' be' mu' va' o := by
  subst hf ha hw hg hb hm hv; rfl

/-- A tile's block of point coordinates, read at a row, is the argument array's row. -/
theorem blkPt_row (b : Fin 2) (i : Fin 128) (p : Fin 512) :
    (fun j : Fin 3 => Cert.KArray.blkPt m c b i (ix3 (0 : Fin 1) p j))
      = fun j => (m ((c.tc : Thread nD τ).loc main_arg0)) (ix3 b (Cert.Spec.rowAt i p) j) := by
  funext j
  show V m c main_arg0 (ix3 b (Cert.Spec.rowAt i p) j) = _
  rw [V_main_arg0]

/-- A tile's block of packed neighbours, read at a row and lane, is the gathered neighbour's coordinate. -/
theorem blkNb_row (b : Fin 2) (i : Fin 128) (p : Fin 512) :
    (fun (k : Fin 16) (j : Fin 3) => Cert.KArray.blkNb m c b i (ix3 (0 : Fin 1) p (Cert.Spec.lane k j)))
      = fun k j => Cert.ReferenceIdeal.Read.val_main_v6 (F := Ideal) (m ((c.tc : Thread nD τ).loc main_arg0)) (m ((c.tc : Thread nD τ).loc main_arg7)) (ix4 b (Cert.Spec.rowAt i p) k j) := by
  funext k j
  show V m c main_v7 (ix3 b (Cert.Spec.rowAt i p) (Cert.Spec.lane k j)) = _
  exact Cert.KArray.V_v7_apply m c b (Cert.Spec.rowAt i p) k j

/-- The array the region writes, at an entry. -/
theorem arr8_row (b : Fin 2) (n : Fin 65536) (o : Fin 10) :
    (dats (F := Ideal) m 0 c).arrAt 8 cfg0.N (ix3 b n o) = rowK m c b n o := by
  obtain ⟨i, p, rfl⟩ : ∃ (i : Fin 128) (p : Fin 512), n = Cert.Spec.rowAt i p := ⟨_, _, (rowAt_div_mod n).symm⟩
  refine (Cert.KArray.arr8_apply m c b i p o).trans ?_
  refine (Cert.KRow.pay4_apply _ _ _ _ _ _ _ _ p o).trans ?_
  unfold rowK Cert.Spec.row
  refine rowOf_congr ?_ ?_ ?_ ?_ ?_ ?_ ?_ o
  · funext k d
    rw [Cert.KFeat.pay1_apply, blkPt_row, blkNb_row]
  · funext k o'
    unfold Cert.Spec.attOf
    refine Finset.sum_congr rfl fun x _ => ?_
    rw [Cert.KFeat.pay2_apply, Cert.KFeat.pay1_apply, Cert.KFeat.pay3_apply, blkPt_row, blkNb_row, V_main_arg1]
  · funext o' x
    rw [V_main_arg2]
  · funext o'; exact Cert.KArray.V_v8_apply m c o'
  · funext o'; exact Cert.KArray.V_v9_apply m c o'
  · funext o'; exact Cert.KArray.V_v10_apply m c o'
  · funext o'; exact Cert.KArray.V_v11_apply m c o'

/-- The result of @main, at an entry. -/
theorem result_apply (b : Fin 2) (j : Fin 16384) (o : Fin 10) :
    @Eq EReal (result (F := Ideal) m c (ix3 b j o))
      (⨆ k : Fin 16, rowK m c b (Cert.Spec.rowSel (Cert.Spec.wrapW ((m ((c.tc : Thread nD τ).loc main_arg8)) (ix3 b j k)))) o) := by
  unfold result Pipeline.afterTail₀
  simp only [List.flatten_cons, List.flatten_nil, List.append_nil]
  rw [Cert.KTail.tail_read]
  unfold Cert.Spec.poolOf
  rw [Pipeline.withArrays_arr spec0 launch0.win.arr_inj c _ _ 8,
    Pipeline.withArrays_of_ne _ c (V0 m c) _ main_arg8 (by exact (by decide : ∀ w, Pipeline.arrRef spec0 w ≠ main_arg8))]
  rw [show V0 m c (Proc.devRef .tc main_arg8) = m ((c : Thread nD τ).loc main_arg8) from V_main_arg8 m c]
  exact iSup_congr fun k => arr8_row m c b _ o

end Cert.KValue

end
-- ==== Proof.RRow.lean ====
/-
  The reference's output row, read at an index, in the specification's words.

  For point `n` of batch `b`: the ten features of each of its sixteen gathered neighbours (distance, difference,
  point, neighbour: the four pieces of a concatenation along the last axis); the logits of the features against the
  first weight table; the softmax of the logits over the neighbours, shifted by their maximum (a maximum taken from
  `-∞` along the neighbour axis is a supremum, and a further maximum with `-∞` changes nothing); the softmax-weighted
  sum of the features; the second weight table; the affine normalisation `(y − mean) · rsqrt(var + ε) · gamma + beta`
  and the clamp at zero. Each stage is read at an index built from plain coordinates and identified with the
  specification's function of the same name. The gather that fetches the neighbours is not opened: it appears as
  itself on both sides.
-/
import proofs.«152972_j13804024889408_2_alg».proof.Proof.Gen.ReferenceIdeal.Read
import proofs.«152972_j13804024889408_2_alg».proof.Proof.Spec
import proofs.«152972_j13804024889408_2_alg».proof.Proof.LibMaxReduce
import Idealize.ShloMosaic.Lib.Pipeline.Value
import Idealize.ShloMosaic.Lib.ValueIdx
import Idealize.ShloMosaic.PureOps.Ideal
import Idealize.ShloMosaic.PureOps.Ideal.Laws

noncomputable section

open scoped BigOperators

namespace Cert.RRow

open Cert.ReferenceIdeal Cert.ReferenceIdeal.Read Idealize.ShloMosaic Idealize.ShloMosaic.ValueIdx

/-! ## The point, its neighbours and the parameters as plain functions of plain indices -/

/-- The three coordinates of point `n` of batch `b`. -/
def pt (x0 : (⟨S2x65536x3, .f32⟩ : BufTy).Contents (Elt Ideal)) (b : Fin 2) (n : Fin 65536) : Fin 3 → EReal :=
  fun j => x0 (ix3 b n j)

/-- The three coordinates of each of the sixteen gathered neighbours of point `n` of batch `b`. -/
def nbr (x0 : (⟨S2x65536x3, .f32⟩ : BufTy).Contents (Elt Ideal)) (x7 : (⟨S2x65536x16, .i32⟩ : BufTy).Contents (Elt Ideal))
    (b : Fin 2) (n : Fin 65536) : Fin 16 → Fin 3 → EReal :=
  fun k j => val_main_v6 (F := Ideal) x0 x7 (ix4 b n k j)

/-! ## The features: distance, difference, point, neighbour -/

/-- The difference `point − neighbour`, coordinate by coordinate. -/
theorem v9_at (x0 : (⟨S2x65536x3, .f32⟩ : BufTy).Contents (Elt Ideal)) (x7 : (⟨S2x65536x16, .i32⟩ : BufTy).Contents (Elt Ideal))
    (b : Fin 2) (n : Fin 65536) (k : Fin 16) (j : Fin 3) :
    val_main_v9 (F := Ideal) x0 x7 (ix4 b n k j) = pt x0 b n j - nbr x0 x7 b n k j := by
  rw [val_main_v9_apply, val_main_v8_apply, val_main_v7_apply]
  have e : idx_main_v7 (idx_main_v8 (ix4 b n k j)) = ix3 b n j :=
    funext fun a => Fin.ext (by match a with | ⟨0, _⟩ => rfl | ⟨1, _⟩ => rfl | ⟨2, _⟩ => rfl)
  rw [e]
  rfl

/-- The point itself, repeated for every neighbour. -/
theorem v14_at (x0 : (⟨S2x65536x3, .f32⟩ : BufTy).Contents (Elt Ideal))
    (b : Fin 2) (n : Fin 65536) (k : Fin 16) (j : Fin 3) :
    val_main_v14 (F := Ideal) x0 (ix4 b n k j) = pt x0 b n j := by
  rw [val_main_v14_apply, val_main_v7_apply]
  have e : idx_main_v7 (idx_main_v14 (ix4 b n k j)) = ix3 b n j :=
    funext fun a => Fin.ext (by match a with | ⟨0, _⟩ => rfl | ⟨1, _⟩ => rfl | ⟨2, _⟩ => rfl)
  rw [e]
  rfl

/-- The distance: the square root of the sum of the squared differences. -/
theorem v13_at (x0 : (⟨S2x65536x3, .f32⟩ : BufTy).Contents (Elt Ideal)) (x7 : (⟨S2x65536x16, .i32⟩ : BufTy).Contents (Elt Ideal))
    (b : Fin 2) (n : Fin 65536) (k : Fin 16) (z : Fin 1) :
    val_main_v13 (F := Ideal) x0 x7 (ix4 b n k z) = Cert.Spec.dist (pt x0 b n) (nbr x0 x7 b n) k := by
  rw [val_main_v13_apply, val_main_v12_apply, val_main_v11_apply]
  have e : ∀ j : Fin 3, idx_main_v11 (idx_main_v12 (ix4 b n k z)) j = ix4 b n k j := fun j =>
    funext fun a => Fin.ext (by match a with | ⟨0, _⟩ => rfl | ⟨1, _⟩ => rfl | ⟨2, _⟩ => rfl | ⟨3, _⟩ => rfl)
  simp only [e, val_main_v10_apply, v9_at, val_main_cst_apply, Ideal.hostUnary_sqrt_def, Ideal.mulf_def, Ideal.ofBits_def,
    Ideal.ofBits_zero_f32, zero_add]
  rfl

/-! ### The four pieces of the concatenation along the feature axis -/

/-- Feature 0 is the distance piece. -/
theorem v15_piece0 (x0 : (⟨S2x65536x3, .f32⟩ : BufTy).Contents (Elt Ideal)) (x7 : (⟨S2x65536x16, .i32⟩ : BufTy).Contents (Elt Ideal))
    (b : Fin 2) (n : Fin 65536) (k : Fin 16) (d : Fin 10) (h1 : d.val < 1) :
    val_main_v15 (F := Ideal) x0 x7 (ix4 b n k d) = val_main_v13 (F := Ideal) x0 x7 (ix4 b n k (0 : Fin 1)) := by
  unfold val_main_v15
  generalize val_main_v13 (F := Ideal) x0 x7 = y13
  generalize val_main_v9 (F := Ideal) x0 x7 = y9
  generalize val_main_v14 (F := Ideal) x0 = y14
  generalize val_main_v6 (F := Ideal) x0 x7 = y6
  exact concatenate_apply_piece 3 _ _ (ix4 b n k d) 0 (by show (0 : Nat) < 4; omega) S2x65536x16x1 y13 rfl rfl 0 rfl (ix4 b n k (0 : Fin 1))
    (fun c hc => by
      match c, hc with
      | ⟨0, _⟩, _ => rfl
      | ⟨1, _⟩, _ => rfl
      | ⟨2, _⟩, _ => rfl
      | ⟨3, _⟩, hc => exact absurd rfl hc)
    (by show 0 + 0 = d.val; omega)

/-- Features 1–3 are the difference piece. -/
theorem v15_piece1 (x0 : (⟨S2x65536x3, .f32⟩ : BufTy).Contents (Elt Ideal)) (x7 : (⟨S2x65536x16, .i32⟩ : BufTy).Contents (Elt Ideal))
    (b : Fin 2) (n : Fin 65536) (k : Fin 16) (d : Fin 10) (h1 : ¬ d.val < 1) (h4 : d.val < 4) :
    val_main_v15 (F := Ideal) x0 x7 (ix4 b n k d)
      = val_main_v9 (F := Ideal) x0 x7 (ix4 b n k (⟨d.val - 1, by omega⟩ : Fin 3)) := by
  unfold val_main_v15
  generalize val_main_v13 (F := Ideal) x0 x7 = y13
  generalize val_main_v9 (F := Ideal) x0 x7 = y9
  generalize val_main_v14 (F := Ideal) x0 = y14
  generalize val_main_v6 (F := Ideal) x0 x7 = y6
  exact concatenate_apply_piece 3 _ _ (ix4 b n k d) 1 (by show (1 : Nat) < 4; omega) S2x65536x16x3 y9 rfl rfl 1 rfl
    (ix4 b n k (⟨d.val - 1, by omega⟩ : Fin 3))
    (fun c hc => by
      match c, hc with
      | ⟨0, _⟩, _ => rfl
      | ⟨1, _⟩, _ => rfl
      | ⟨2, _⟩, _ => rfl
      | ⟨3, _⟩, hc => exact absurd rfl hc)
    (by show 1 + (d.val - 1) = d.val; omega)

/-- Features 4–6 are the point piece. -/
theorem v15_piece2 (x0 : (⟨S2x65536x3, .f32⟩ : BufTy).Contents (Elt Ideal)) (x7 : (⟨S2x65536x16, .i32⟩ : BufTy).Contents (Elt Ideal))
    (b : Fin 2) (n : Fin 65536) (k : Fin 16) (d : Fin 10) (h4 : ¬ d.val < 4) (h7 : d.val < 7) :
    val_main_v15 (F := Ideal) x0 x7 (ix4 b n k d)
      = val_main_v14 (F := Ideal) x0 (ix4 b n k (⟨d.val - 4, by omega⟩ : Fin 3)) := by
  unfold val_main_v15
  generalize val_main_v13 (F := Ideal) x0 x7 = y13
  generalize val_main_v9 (F := Ideal) x0 x7 = y9
  generalize val_main_v14 (F := Ideal) x0 = y14
  generalize val_main_v6 (F := Ideal) x0 x7 = y6
  exact concatenate_apply_piece 3 _ _ (ix4 b n k d) 2 (by show (2 : Nat) < 4; omega) S2x65536x16x3 y14 rfl rfl 4 rfl
    (ix4 b n k (⟨d.val - 4, by omega⟩ : Fin 3))
    (fun c hc => by
      match c, hc with
      | ⟨0, _⟩, _ => rfl
      | ⟨1, _⟩, _ => rfl
      | ⟨2, _⟩, _ => rfl
      | ⟨3, _⟩, hc => exact absurd rfl hc)
    (by show 4 + (d.val - 4) = d.val; omega)

/-- Features 7–9 are the neighbour piece. -/
theorem v15_piece3 (x0 : (⟨S2x65536x3, .f32⟩ : BufTy).Contents (Elt Ideal)) (x7 : (⟨S2x65536x16, .i32⟩ : BufTy).Contents (Elt Ideal))
    (b : Fin 2) (n : Fin 65536) (k : Fin 16) (d : Fin 10) (h7 : ¬ d.val < 7) :
    val_main_v15 (F := Ideal) x0 x7 (ix4 b n k d)
      = val_main_v6 (F := Ideal) x0 x7 (ix4 b n k (⟨d.val - 7, by have := d.isLt; omega⟩ : Fin 3)) := by
  unfold val_main_v15
  generalize val_main_v13 (F := Ideal) x0 x7 = y13
  generalize val_main_v9 (F := Ideal) x0 x7 = y9
  generalize val_main_v14 (F := Ideal) x0 = y14
  generalize val_main_v6 (F := Ideal) x0 x7 = y6
  exact concatenate_apply_piece 3 _ _ (ix4 b n k d) 3 (by show (3 : Nat) < 4; omega) S2x65536x16x3 y6 rfl rfl 7 rfl
    (ix4 b n k (⟨d.val - 7, by have := d.isLt; omega⟩ : Fin 3))
    (fun c hc => by
      match c, hc with
      | ⟨0, _⟩, _ => rfl
      | ⟨1, _⟩, _ => rfl
      | ⟨2, _⟩, _ => rfl
      | ⟨3, _⟩, hc => exact absurd rfl hc)
    (by show 7 + (d.val - 7) = d.val; have := d.isLt; omega)

/-- The ten features of neighbour `k`, in the specification's words. -/
theorem v15_at (x0 : (⟨S2x65536x3, .f32⟩ : BufTy).Contents (Elt Ideal)) (x7 : (⟨S2x65536x16, .i32⟩ : BufTy).Contents (Elt Ideal))
    (b : Fin 2) (n : Fin 65536) (k : Fin 16) (d : Fin 10) :
    val_main_v15 (F := Ideal) x0 x7 (ix4 b n k d) = Cert.Spec.feat (pt x0 b n) (nbr x0 x7 b n) k d := by
  unfold Cert.Spec.feat
  by_cases h1 : d.val < 1
  · rw [dif_pos h1, v15_piece0 x0 x7 b n k d h1, v13_at]
  · rw [dif_neg h1]
    by_cases h4 : d.val < 4
    · rw [dif_pos h4, v15_piece1 x0 x7 b n k d h1 h4, v9_at]
    · rw [dif_neg h4]
      by_cases h7 : d.val < 7
      · rw [dif_pos h7, v15_piece2 x0 x7 b n k d h4 h7, v14_at]
      · rw [dif_neg h7, v15_piece3 x0 x7 b n k d h7]
        rfl

theorem v15_apply (x0 : (⟨S2x65536x3, .f32⟩ : BufTy).Contents (Elt Ideal)) (x7 : (⟨S2x65536x16, .i32⟩ : BufTy).Contents (Elt Ideal))
    (b : Fin 2) (n : Fin 65536) (k : Fin 16) (d : Fin 10) :
    val_main_v15 (F := Ideal) x0 x7 (ix4 b n k d)
      = Cert.Spec.feat (fun j => x0 (ix3 b n j)) (fun k' j => val_main_v6 (F := Ideal) x0 x7 (ix4 b n k' j)) k d :=
  v15_at x0 x7 b n k d

/-! ## The logits and the softmax over the sixteen neighbours -/

/-- A 10×10 table as a function of its row and its column. -/
def tbl (x : (⟨S10x10, .f32⟩ : BufTy).Contents (Elt Ideal)) : Fin 10 → Fin 10 → EReal := fun o i => x (ix2 o i)

/-- A vector of ten channel parameters as a function of the channel. -/
def vec (x : (⟨S10, .f32⟩ : BufTy).Contents (Elt Ideal)) : Fin 10 → EReal := fun o => x (ix1 o)

/-- The features of the sixteen neighbours of point `n` of batch `b`. -/
def ft (x0 : (⟨S2x65536x3, .f32⟩ : BufTy).Contents (Elt Ideal)) (x7 : (⟨S2x65536x16, .i32⟩ : BufTy).Contents (Elt Ideal)) (b : Fin 2) (n : Fin 65536) : Fin 16 → Fin 10 → EReal :=
  Cert.Spec.feat (pt x0 b n) (nbr x0 x7 b n)

/-- Their logits against the first weight table. -/
def lg (x0 : (⟨S2x65536x3, .f32⟩ : BufTy).Contents (Elt Ideal)) (x1 : (⟨S10x10, .f32⟩ : BufTy).Contents (Elt Ideal)) (x7 : (⟨S2x65536x16, .i32⟩ : BufTy).Contents (Elt Ideal)) (b : Fin 2) (n : Fin 65536) : Fin 16 → Fin 10 → EReal :=
  Cert.Spec.attOf (ft x0 x7 b n) (tbl x1)

/-- The first contraction: features against the rows of the weight table. -/
theorem v16_at (x0 : (⟨S2x65536x3, .f32⟩ : BufTy).Contents (Elt Ideal)) (x1 : (⟨S10x10, .f32⟩ : BufTy).Contents (Elt Ideal)) (x7 : (⟨S2x65536x16, .i32⟩ : BufTy).Contents (Elt Ideal))
    (b : Fin 2) (n : Fin 65536) (k : Fin 16) (o : Fin 10) :
    val_main_v16 (F := Ideal) x0 x1 x7 (ix4 b n k o) = lg x0 x1 x7 b n k o := by
  rw [val_main_v16_apply]
  have el : ∀ i : Fin 10, lidx_main_v16 (ix4 b n k o) i = ix4 b n k i := fun i =>
    funext fun a => Fin.ext (by match a with | ⟨0, _⟩ => rfl | ⟨1, _⟩ => rfl | ⟨2, _⟩ => rfl | ⟨3, _⟩ => rfl)
  have er : ∀ i : Fin 10, ridx_main_v16 (ix4 b n k o) i = ix2 o i := fun i =>
    funext fun a => Fin.ext (by match a with | ⟨0, _⟩ => rfl | ⟨1, _⟩ => rfl)
  simp only [el, er, v15_at]
  rfl

/-- The reduced index `(b, n, o)` with neighbour `k` put back on the reduced axis is `(b, n, k, o)`. -/
theorem lift_nbr (h : S2x65536x16x10.Reduces [2] S2x65536x10) (b : Fin 2) (n : Fin 65536) (o : Fin 10) (k : Fin 16) :
    h.lift (ix3 b n o) k = ix4 b n k o :=
  funext fun a => Fin.ext (by match a with | ⟨0, _⟩ => rfl | ⟨1, _⟩ => rfl | ⟨2, _⟩ => rfl | ⟨3, _⟩ => rfl)

/-- The maximum over the neighbours, from `-∞`, is the supremum of the logits. -/
theorem v17_at (x0 : (⟨S2x65536x3, .f32⟩ : BufTy).Contents (Elt Ideal)) (x1 : (⟨S10x10, .f32⟩ : BufTy).Contents (Elt Ideal)) (x7 : (⟨S2x65536x16, .i32⟩ : BufTy).Contents (Elt Ideal))
    (b : Fin 2) (n : Fin 65536) (o : Fin 10) :
    val_main_v17 (F := Ideal) x0 x1 x7 (ix3 b n o) = Cert.Spec.amax (lg x0 x1 x7 b n) o := by
  unfold val_main_v17 val_main_cst_1
  refine (Ideal.hostReduce_maximumf_single_iSup (val_main_v16 (F := Ideal) x0 x1 x7)
    _ (by decide : S2x65536x16x10.Reduces [2] S2x65536x10) _ (ix3 b n o)).trans ?_
  unfold Cert.Spec.amax
  exact iSup_congr fun k =>
    (congrArg (val_main_v16 (F := Ideal) x0 x1 x7) (lift_nbr _ b n o k)).trans (v16_at x0 x1 x7 b n k o)

/-- A further maximum with `-∞` changes nothing: `max ⊥ a = a`. -/
theorem v19_at (x0 : (⟨S2x65536x3, .f32⟩ : BufTy).Contents (Elt Ideal)) (x1 : (⟨S10x10, .f32⟩ : BufTy).Contents (Elt Ideal)) (x7 : (⟨S2x65536x16, .i32⟩ : BufTy).Contents (Elt Ideal))
    (b : Fin 2) (n : Fin 65536) (o : Fin 10) :
    val_main_v19 (F := Ideal) x0 x1 x7 (ix3 b n o) = Cert.Spec.amax (lg x0 x1 x7 b n) o := by
  rw [val_main_v19_apply, val_main_v18_apply, val_main_cst_2_apply, v17_at, Ideal.maximumf_def, Ideal.ofBits_def,
    Ideal.ofBits_negInf_f32]
  exact max_eq_right bot_le

/-- The exponential of each logit less the largest. -/
theorem v23_at (x0 : (⟨S2x65536x3, .f32⟩ : BufTy).Contents (Elt Ideal)) (x1 : (⟨S10x10, .f32⟩ : BufTy).Contents (Elt Ideal)) (x7 : (⟨S2x65536x16, .i32⟩ : BufTy).Contents (Elt Ideal))
    (b : Fin 2) (n : Fin 65536) (k : Fin 16) (o : Fin 10) :
    val_main_v23 (F := Ideal) x0 x1 x7 (ix4 b n k o) = Cert.Spec.ex (lg x0 x1 x7 b n) k o := by
  rw [val_main_v23_apply, val_main_v22_apply, val_main_v21_apply, val_main_v20_apply]
  have e : idx_main_v20 (idx_main_v21 (ix4 b n k o)) = ix3 b n o :=
    funext fun a => Fin.ext (by match a with | ⟨0, _⟩ => rfl | ⟨1, _⟩ => rfl | ⟨2, _⟩ => rfl)
  rw [e, v19_at, v16_at]
  rfl

/-- Their sum over the neighbours (the sum starts from the zero word). -/
theorem v24_at (x0 : (⟨S2x65536x3, .f32⟩ : BufTy).Contents (Elt Ideal)) (x1 : (⟨S10x10, .f32⟩ : BufTy).Contents (Elt Ideal)) (x7 : (⟨S2x65536x16, .i32⟩ : BufTy).Contents (Elt Ideal))
    (b : Fin 2) (n : Fin 65536) (o : Fin 10) :
    val_main_v24 (F := Ideal) x0 x1 x7 (ix3 b n o) = Cert.Spec.esum (lg x0 x1 x7 b n) o := by
  rw [val_main_v24_apply]
  have e : ∀ k : Fin 16, idx_main_v24 (ix3 b n o) k = ix4 b n k o := fun k =>
    funext fun a => Fin.ext (by match a with | ⟨0, _⟩ => rfl | ⟨1, _⟩ => rfl | ⟨2, _⟩ => rfl | ⟨3, _⟩ => rfl)
  simp only [e, v23_at, val_main_cst_3_apply, Ideal.ofBits_def, Ideal.ofBits_zero_f32, zero_add]
  rfl

/-- The softmax weight of neighbour `k` in channel `o`. -/
theorem v27_at (x0 : (⟨S2x65536x3, .f32⟩ : BufTy).Contents (Elt Ideal)) (x1 : (⟨S10x10, .f32⟩ : BufTy).Contents (Elt Ideal)) (x7 : (⟨S2x65536x16, .i32⟩ : BufTy).Contents (Elt Ideal))
    (b : Fin 2) (n : Fin 65536) (k : Fin 16) (o : Fin 10) :
    val_main_v27 (F := Ideal) x0 x1 x7 (ix4 b n k o)
      = Ideal.div (Cert.Spec.ex (lg x0 x1 x7 b n) k o) (Cert.Spec.esum (lg x0 x1 x7 b n) o) := by
  rw [val_main_v27_apply, val_main_v26_apply, val_main_v25_apply]
  have e : idx_main_v25 (idx_main_v26 (ix4 b n k o)) = ix3 b n o :=
    funext fun a => Fin.ext (by match a with | ⟨0, _⟩ => rfl | ⟨1, _⟩ => rfl | ⟨2, _⟩ => rfl)
  rw [e, v24_at, v23_at]
  rfl

/-! ## The weighted sum of the features and the second linear layer -/

/-- The softmax-weighted sum of the features over the neighbours. -/
theorem v29_at (x0 : (⟨S2x65536x3, .f32⟩ : BufTy).Contents (Elt Ideal)) (x1 : (⟨S10x10, .f32⟩ : BufTy).Contents (Elt Ideal)) (x7 : (⟨S2x65536x16, .i32⟩ : BufTy).Contents (Elt Ideal))
    (b : Fin 2) (n : Fin 65536) (d : Fin 10) :
    val_main_v29 (F := Ideal) x0 x1 x7 (ix3 b n d) = Cert.Spec.agg (ft x0 x7 b n) (lg x0 x1 x7 b n) d := by
  rw [val_main_v29_apply]
  have e : ∀ k : Fin 16, idx_main_v29 (ix3 b n d) k = ix4 b n k d := fun k =>
    funext fun a => Fin.ext (by match a with | ⟨0, _⟩ => rfl | ⟨1, _⟩ => rfl | ⟨2, _⟩ => rfl | ⟨3, _⟩ => rfl)
  simp only [e, val_main_v28_apply, v15_at, v27_at, val_main_cst_4_apply, Ideal.mulf_def, Ideal.ofBits_def,
    Ideal.ofBits_zero_f32, zero_add]
  rfl

/-- The second contraction: the aggregate against the rows of the second weight table. -/
theorem v30_at (x0 : (⟨S2x65536x3, .f32⟩ : BufTy).Contents (Elt Ideal)) (x1 x2 : (⟨S10x10, .f32⟩ : BufTy).Contents (Elt Ideal)) (x7 : (⟨S2x65536x16, .i32⟩ : BufTy).Contents (Elt Ideal))
    (b : Fin 2) (n : Fin 65536) (o : Fin 10) :
    val_main_v30 (F := Ideal) x0 x1 x2 x7 (ix3 b n o)
      = Cert.Spec.lin (ft x0 x7 b n) (lg x0 x1 x7 b n) (tbl x2) o := by
  rw [val_main_v30_apply]
  have el : ∀ i : Fin 10, lidx_main_v30 (ix3 b n o) i = ix3 b n i := fun i =>
    funext fun a => Fin.ext (by match a with | ⟨0, _⟩ => rfl | ⟨1, _⟩ => rfl | ⟨2, _⟩ => rfl)
  have er : ∀ i : Fin 10, ridx_main_v30 (ix3 b n o) i = ix2 o i := fun i =>
    funext fun a => Fin.ext (by match a with | ⟨0, _⟩ => rfl | ⟨1, _⟩ => rfl)
  simp only [el, er, v29_at]
  rfl

/-! ## The affine normalisation and the clamp at zero -/

/-- The mean, spread over batch and point. -/
theorem v32_at (x5 : (⟨S10, .f32⟩ : BufTy).Contents (Elt Ideal)) (b : Fin 2) (n : Fin 65536) (o : Fin 10) :
    val_main_v32 (F := Ideal) x5 (ix3 b n o) = vec x5 o := by
  rw [val_main_v32_apply, val_main_v31_apply]
  have e : idx_main_v31 (idx_main_v32 (ix3 b n o)) = ix1 o :=
    funext fun a => Fin.ext (by match a with | ⟨0, _⟩ => rfl)
  rw [e]
  rfl

/-- The reciprocal square root of the variance plus epsilon, spread over batch and point. -/
theorem v38_at (x6 : (⟨S10, .f32⟩ : BufTy).Contents (Elt Ideal)) (b : Fin 2) (n : Fin 65536) (o : Fin 10) :
    val_main_v38 (F := Ideal) x6 (ix3 b n o) = Ideal.rsqrt (vec x6 o + Cert.Spec.eps) := by
  rw [val_main_v38_apply, val_main_v37_apply, val_main_v36_apply, val_main_v35_apply, val_main_v34_apply,
    val_main_cst_5_apply]
  have e : idx_main_v37 (idx_main_v38 (ix3 b n o)) = ix1 o :=
    funext fun a => Fin.ext (by match a with | ⟨0, _⟩ => rfl)
  rw [e]
  rfl

/-- The scale, spread over batch and point. -/
theorem v41_at (x3 : (⟨S10, .f32⟩ : BufTy).Contents (Elt Ideal)) (b : Fin 2) (n : Fin 65536) (o : Fin 10) :
    val_main_v41 (F := Ideal) x3 (ix3 b n o) = vec x3 o := by
  rw [val_main_v41_apply, val_main_v40_apply]
  have e : idx_main_v40 (idx_main_v41 (ix3 b n o)) = ix1 o :=
    funext fun a => Fin.ext (by match a with | ⟨0, _⟩ => rfl)
  rw [e]
  rfl

/-- The shift, spread over batch and point. -/
theorem v44_at (x4 : (⟨S10, .f32⟩ : BufTy).Contents (Elt Ideal)) (b : Fin 2) (n : Fin 65536) (o : Fin 10) :
    val_main_v44 (F := Ideal) x4 (ix3 b n o) = vec x4 o := by
  rw [val_main_v44_apply, val_main_v43_apply]
  have e : idx_main_v43 (idx_main_v44 (ix3 b n o)) = ix1 o :=
    funext fun a => Fin.ext (by match a with | ⟨0, _⟩ => rfl)
  rw [e]
  rfl

/-- The output row: `(y − mean) · rsqrt(var + ε) · gamma + beta`, clamped at zero. -/
theorem v46_at (x0 : (⟨S2x65536x3, .f32⟩ : BufTy).Contents (Elt Ideal)) (x1 x2 : (⟨S10x10, .f32⟩ : BufTy).Contents (Elt Ideal))
    (x3 x4 x5 x6 : (⟨S10, .f32⟩ : BufTy).Contents (Elt Ideal)) (x7 : (⟨S2x65536x16, .i32⟩ : BufTy).Contents (Elt Ideal))
    (b : Fin 2) (n : Fin 65536) (o : Fin 10) :
    val_main_v46 (F := Ideal) x0 x1 x2 x3 x4 x5 x6 x7 (ix3 b n o)
      = Cert.Spec.rowOf (ft x0 x7 b n) (lg x0 x1 x7 b n) (tbl x2) (vec x3) (vec x4) (vec x5) (vec x6) o := by
  rw [val_main_v46_apply, val_main_v45_apply, val_main_v42_apply, val_main_v39_apply, val_main_v33_apply,
    val_main_call0_v0_apply, val_main_call0_cst_apply, v30_at, v32_at, v38_at, v41_at, v44_at]
  rfl

theorem v46_apply (x0 : (⟨S2x65536x3, .f32⟩ : BufTy).Contents (Elt Ideal)) (x1 x2 : (⟨S10x10, .f32⟩ : BufTy).Contents (Elt Ideal))
    (x3 x4 x5 x6 : (⟨S10, .f32⟩ : BufTy).Contents (Elt Ideal)) (x7 : (⟨S2x65536x16, .i32⟩ : BufTy).Contents (Elt Ideal))
    (b : Fin 2) (n : Fin 65536) (o : Fin 10) :
    val_main_v46 (F := Ideal) x0 x1 x2 x3 x4 x5 x6 x7 (ix3 b n o)
      = Cert.Spec.row (fun j => x0 (ix3 b n j)) (fun k j => val_main_v6 (F := Ideal) x0 x7 (ix4 b n k j))
          (fun o' i => x1 (ix2 o' i)) (fun o' i => x2 (ix2 o' i))
          (fun o' => x3 (ix1 o')) (fun o' => x4 (ix1 o')) (fun o' => x5 (ix1 o')) (fun o' => x6 (ix1 o')) o :=
  v46_at x0 x1 x2 x3 x4 x5 x6 x7 b n o

end Cert.RRow

end
-- ==== Proof.RPool.lean ====
/-
  The reference's final pooling, read at one index.

  The last two stages of the reference gather, for each batch `b`, query point `m` and neighbour slot `k`, one row of a
  table `Y : [2, 65536, 10]`, and then take the maximum over the 16 slots. The row is named by a 32-bit index word: a
  negative word has 65536 added (it counts from the end of the table), and the gather reads the word signed and clamps it
  into `[0, 65535]`.

  * `gatherR_apply`: the gather at `(b, m, k, o)` is `Y` at `(b, row, o)`. Per operand axis the operand index is
    start + batch coordinate + offset coordinate: axis 0 is the batch axis (start 0, batch coordinate `b`, no offset);
    axis 1 is the collapsed axis the start index names (the clamped word, nothing else); axis 2 is the offset axis
    (start 0, no batch coordinate, offset `o`).
  * `v52_apply`: the index word the gather is handed at `(b, m, k, 0)` is the wrapped word of the argument at `(b, m, k)`.
  * `v54_apply`: a maximum from `-∞` along axis 2 is the supremum over that axis's 16 coordinates, so the last stage at
    `(b, m, o)` is the supremum over `k` of the gathered entries, with the row table left as it is.
-/
import proofs.«152972_j13804024889408_2_alg».proof.Proof.Gen.ReferenceIdeal.Read
import proofs.«152972_j13804024889408_2_alg».proof.Proof.Spec
import proofs.«152972_j13804024889408_2_alg».proof.Proof.LibMaxReduce
import Idealize.ShloMosaic.Lib.ValueIdx
import Idealize.ShloMosaic.PureOps.Dims
import Idealize.ShloMosaic.PureOps.ShapeOps

noncomputable section

namespace Cert.RPool

open Cert.ReferenceIdeal Cert.ReferenceIdeal.Read Idealize.ShloMosaic Idealize.ShloMosaic.ValueIdx

/-- The dimension numbers of the final pooling's gather: batch axis 0 of the table paired with batch axis 0 of the index
    words, row axis 1 collapsed and named by the start index, the 10 channels an offset axis; slices of sizes 1, 1, 10. -/
abbrev gd := gather_S2x65536x10_S2x16384x16x1_S2x16384x16x10_3_1_0_0_1_3_1110

/-- a gather of this record at an index: the table at (batch, the row the index word selects, channel) -/
theorem gatherR_apply (Y : (⟨S2x65536x10, .f32⟩ : BufTy).Contents (Elt Ideal)) (idx : (⟨S2x16384x16x1, .i32⟩ : BufTy).Contents (Elt Ideal))
    (b : Fin 2) (m : Fin 16384) (k : Fin 16) (o : Fin 10) :
    Host.gather gather_S2x65536x10_S2x16384x16x1_S2x16384x16x10_3_1_0_0_1_3_1110 Y idx (ix4 b m k o)
      = Y (ix3 b (Cert.Spec.rowSel (idx (ix4 b m k (0 : Fin 1)))) o) := by
  unfold Host.gather
  refine congrArg Y (funext fun a => Fin.ext ?_)
  match a with
  | ⟨0, _⟩ =>
    -- the batch axis: no start, the batch coordinate of the index, no offset
    show gd.start (ix4 b m k o) idx 0 + gd.batchCoord (ix4 b m k o) 0 + gd.offCoord (ix4 b m k o) 0 = b.val
    have hb : (0 : Fin 3) ∈ gd.operandBatchingDims := List.mem_singleton.mpr rfl
    rw [GatherDims.start_batching _ _ _ _ hb,
      GatherDims.offCoord_eq_zero _ _ _ (fun h => ((GatherDims.mem_sKept _ _).mp h).2 hb)]
    simp only [Nat.zero_add, Nat.add_zero]
    unfold GatherDims.batchCoord
    rw [dif_pos hb]
    rfl
  | ⟨1, _⟩ =>
    -- the collapsed row axis: the start index word read signed, clamped to the last row; nothing added
    show gd.start (ix4 b m k o) idx 1 + gd.batchCoord (ix4 b m k o) 1 + gd.offCoord (ix4 b m k o) 1
      = min (idx (ix4 b m k (0 : Fin 1))).toInt.toNat 65535
    have hc : (1 : Fin 3) ∈ gd.collapsedSliceDims := List.mem_singleton.mpr rfl
    have hnb : (1 : Fin 3) ∉ gd.operandBatchingDims := by decide
    rw [GatherDims.batchCoord_eq_zero _ _ _ hnb,
      GatherDims.offCoord_eq_zero _ _ _ (fun h => ((GatherDims.mem_sKept _ _).mp h).1 hc)]
    simp only [Nat.add_zero]
    unfold GatherDims.start
    have hs : (1 : Fin 3) ∈ gd.startIndexMap := List.mem_singleton.mpr rfl
    rw [dif_pos hs]
    have hsi : gd.siIdx (ix4 b m k o) ⟨List.idxOf (1 : Fin 3) gd.startIndexMap, List.idxOf_lt_length_iff.2 hs⟩
        = ix4 b m k (0 : Fin 1) := by
      funext c; refine Fin.ext ?_
      match c with
      | ⟨0, _⟩ => rfl
      | ⟨1, _⟩ => rfl
      | ⟨2, _⟩ => rfl
      | ⟨3, _⟩ => rfl
    rw [hsi]
    rfl
  | ⟨2, _⟩ =>
    -- the channel axis: no start, no batch coordinate, the offset coordinate of the index
    show gd.start (ix4 b m k o) idx 2 + gd.batchCoord (ix4 b m k o) 2 + gd.offCoord (ix4 b m k o) 2 = o.val
    have hnb : (2 : Fin 3) ∉ gd.operandBatchingDims := by decide
    have hns : (2 : Fin 3) ∉ gd.startIndexMap := by decide
    rw [GatherDims.batchCoord_eq_zero _ _ _ hnb]
    unfold GatherDims.start
    rw [dif_neg hns]
    simp only [Nat.zero_add, Nat.add_zero]
    unfold GatherDims.offCoord
    have hk : (2 : Fin 3) ∈ gd.sKept := (GatherDims.mem_sKept _ _).mpr ⟨by decide, hnb⟩
    rw [dif_pos hk]
    rfl

/-- Putting coordinate `k` back on the reduced axis 2 of the index `(b, m, o)` gives `(b, m, k, o)`. -/
theorem lift_ix (hR : S2x16384x16x10.Reduces [2] S2x16384x10) (b : Fin 2) (m : Fin 16384) (k : Fin 16) (o : Fin 10) :
    hR.lift (ix3 b m o) k = ix4 b m k o := by
  funext c; refine Fin.ext ?_
  match c with
  | ⟨0, _⟩ => rfl
  | ⟨1, _⟩ => rfl
  | ⟨2, _⟩ => rfl
  | ⟨3, _⟩ => rfl

/-- The index words of the final pooling, broadcast to a trailing unit axis, read at `(b, m, k, 0)`: the word of
    `x8` at `(b, m, k)`, wrapped when negative. -/
theorem v52_apply (x8 : (⟨S2x16384x16, .i32⟩ : BufTy).Contents (Elt Ideal)) (b : Fin 2) (m : Fin 16384) (k : Fin 16) :
    val_main_v52 (F := Ideal) x8 (ix4 b m k (0 : Fin 1)) = Cert.Spec.wrapW (x8 (ix3 b m k)) := by
  have hi : idx_main_v52 (ix4 b m k (0 : Fin 1)) = ix3 b m k := by
    funext a; refine Fin.ext ?_
    match a with
    | ⟨0, _⟩ => rfl
    | ⟨1, _⟩ => rfl
    | ⟨2, _⟩ => rfl
  rw [val_main_v52_apply, hi, val_main_v51_apply, val_main_v48_apply, val_main_v50_apply, val_main_v47_apply,
    val_main_v49_apply, val_main_c_6_apply, val_main_c_7_apply]
  rfl

/-- The reference's last stage at `(b, m, o)`: the maximum over the 16 sampled rows of the row table. -/
theorem v54_apply (x0 : (⟨S2x65536x3, .f32⟩ : BufTy).Contents (Elt Ideal)) (x1 x2 : (⟨S10x10, .f32⟩ : BufTy).Contents (Elt Ideal))
    (x3 x4 x5 x6 : (⟨S10, .f32⟩ : BufTy).Contents (Elt Ideal)) (x7 : (⟨S2x65536x16, .i32⟩ : BufTy).Contents (Elt Ideal))
    (x8 : (⟨S2x16384x16, .i32⟩ : BufTy).Contents (Elt Ideal)) (b : Fin 2) (m : Fin 16384) (o : Fin 10) :
    val_main_v54 (F := Ideal) x0 x1 x2 x3 x4 x5 x6 x7 x8 (ix3 b m o)
      = Cert.Spec.poolOf (val_main_v46 (F := Ideal) x0 x1 x2 x3 x4 x5 x6 x7) x8 b m o := by
  have hR : S2x16384x16x10.Reduces [2] S2x16384x10 := by decide
  unfold val_main_v54 val_main_cst_8
  refine (Ideal.hostReduce_maximumf_single_iSup (val_main_v53 (F := Ideal) x0 x1 x2 x3 x4 x5 x6 x7 x8)
    Gen.reducesTo_S2x16384x16x10_S2x16384x10_d2 hR Gen.h_S_ (ix3 b m o)).trans ?_
  unfold Cert.Spec.poolOf
  show (⨆ k : Fin 16, val_main_v53 (F := Ideal) x0 x1 x2 x3 x4 x5 x6 x7 x8 (hR.lift (ix3 b m o) k)) = _
  refine iSup_congr fun k => ?_
  rw [lift_ix hR b m k o]
  unfold val_main_v53
  rw [gatherR_apply, v52_apply]

end Cert.RPool

end
-- ==== Proof.lean ====
/-
  Equivalence, over the extended reals, of a fused point-cloud kernel and its reference.

  For every point `n` of a batch both programs gather the point's sixteen neighbours, form for each the ten
  features (distance, difference, point, neighbour), score them by a 1×1 convolution, take the softmax over
  the neighbours, sum the features by the softmax weights, apply a second 1×1 convolution, an affine
  normalisation and a clamp at zero; then, for each of 16384 sampled positions, they take the maximum over
  sixteen sampled rows. The kernel computes the rows tile by tile inside one pipelined region and folds the
  last maximum as sixteen gathers and running maxima from `-∞` on the host; the reference computes whole
  arrays and takes one maximum along an axis.
  Entry by entry both results are `⨆ k, row (…)` of the specification (Proof/Spec.lean): the kernel's by the
  frame run, the blocks-to-array lemma and the payload read at an entry; the reference's by its run read one
  operation at a time. The two agree on memories that agree on the arguments; nothing here needs the inputs
  to be finite, since a finite sum does not depend on its order and a fold of `max` from the bottom is a supremum.
  The three frames: the two kernel programs' by the launch theorem around the region (Proof/FrameRunI.lean,
  Proof/FrameRunB.lean), the reference's as its run with the result dropped. Nothing was rewritten between the
  kernel and its idealization, so that conjunct is trivial.
-/
import proofs.«152972_j13804024889408_2_alg».proof.Defs
import proofs.«152972_j13804024889408_2_alg».proof.Proof.Gen.Kernel
import proofs.«152972_j13804024889408_2_alg».proof.Proof.Gen.KernelIdeal
import proofs.«152972_j13804024889408_2_alg».proof.Proof.Gen.ReferenceIdeal
import proofs.«152972_j13804024889408_2_alg».proof.Proof.Gen.Pre_finite_inputs
import proofs.«152972_j13804024889408_2_alg».proof.Proof.Gen.ReferenceIdeal.Run
import proofs.«152972_j13804024889408_2_alg».proof.Proof.Gen.ReferenceIdeal.Read
import proofs.«152972_j13804024889408_2_alg».proof.Proof.FrameRunB
import proofs.«152972_j13804024889408_2_alg».proof.Proof.KValue
import proofs.«152972_j13804024889408_2_alg».proof.Proof.RRow
import proofs.«152972_j13804024889408_2_alg».proof.Proof.RPool
import Idealize.ShloMosaic.Adequacy
import Idealize.ShloMosaic.Init

noncomputable section

namespace Cert.Proof

open Idealize.ShloMosaic Idealize.ShloMosaic.ValueIdx Idealize.SL.Sem

theorem frame_k [Cert.Kernel.Facts] [Cert.Pre_finite_inputs.Facts] : Cert.frame_Kernel :=
  fun m ρ _ => Cert.Kernel.Fr.frame m ρ

theorem frame_ki [Cert.KernelIdeal.Facts] [Cert.Pre_finite_inputs.Facts] : Cert.frame_KernelIdeal :=
  fun m ρ _ => Cert.KernelIdeal.Fr.frame m ρ

theorem frame_ri [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Value.run (F := Ideal) m ρ)

/-- The reference's result at an entry: the supremum over the sixteen sampled rows of the row function. -/
theorem ref_result_apply (m' : (ℓ : Loc Cert.ReferenceIdeal.nD Cert.ReferenceIdeal.τ Cert.ReferenceIdeal.sig) → Buf (Elt Ideal) ℓ)
    (c : Dev Cert.ReferenceIdeal.nD) (b : Fin 2) (j : Fin 16384) (o : Fin 10) :
    @Eq EReal (Cert.ReferenceIdeal.Value.res_main_v54 m' c (ix3 b j o))
      (⨆ k : Fin 16, Cert.Spec.row (fun i => (m' ((c.tc : Thread Cert.ReferenceIdeal.nD Cert.ReferenceIdeal.τ).loc Cert.ReferenceIdeal.main_arg0)) (ix3 b (Cert.Spec.rowSel (Cert.Spec.wrapW ((m' ((c.tc : Thread Cert.ReferenceIdeal.nD Cert.ReferenceIdeal.τ).loc Cert.ReferenceIdeal.main_arg8)) (ix3 b j k)))) i))
          (fun k' i => Cert.ReferenceIdeal.Read.val_main_v6 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg7)) (ix4 b (Cert.Spec.rowSel (Cert.Spec.wrapW ((m' ((c.tc : Thread Cert.ReferenceIdeal.nD Cert.ReferenceIdeal.τ).loc Cert.ReferenceIdeal.main_arg8)) (ix3 b j k)))) k' i))
          (fun o' i => (m' ((c.tc : Thread Cert.ReferenceIdeal.nD Cert.ReferenceIdeal.τ).loc Cert.ReferenceIdeal.main_arg1)) (ix2 o' i)) (fun o' i => (m' ((c.tc : Thread Cert.ReferenceIdeal.nD Cert.ReferenceIdeal.τ).loc Cert.ReferenceIdeal.main_arg2)) (ix2 o' i))
          (fun o' => (m' ((c.tc : Thread Cert.ReferenceIdeal.nD Cert.ReferenceIdeal.τ).loc Cert.ReferenceIdeal.main_arg3)) (ix1 o')) (fun o' => (m' ((c.tc : Thread Cert.ReferenceIdeal.nD Cert.ReferenceIdeal.τ).loc Cert.ReferenceIdeal.main_arg4)) (ix1 o')) (fun o' => (m' ((c.tc : Thread Cert.ReferenceIdeal.nD Cert.ReferenceIdeal.τ).loc Cert.ReferenceIdeal.main_arg5)) (ix1 o')) (fun o' => (m' ((c.tc : Thread Cert.ReferenceIdeal.nD Cert.ReferenceIdeal.τ).loc Cert.ReferenceIdeal.main_arg6)) (ix1 o')) o) := by
  rw [Cert.ReferenceIdeal.Read.val_main_v54_eq, Cert.RPool.v54_apply]
  unfold Cert.Spec.poolOf
  exact iSup_congr fun k => Cert.RRow.v46_apply _ _ _ _ _ _ _ _ b _ o

theorem algebraic [Cert.KernelIdeal.Facts] [Cert.ReferenceIdeal.Facts] [Cert.Pre_finite_inputs.Facts] :
    Cert.algebraic_KernelIdeal_ReferenceIdeal := by
  intro m ρ m' ρ' _ hagree
  refine ⟨Cert.KernelIdeal.Fr.result (F := Ideal) m, Cert.KernelIdeal.Fr.run_result (F := Ideal) m ρ, ?_⟩
  refine (θ_run Cert.ReferenceIdeal.defs _ _).mono (fun _ h c => ⟨(h c).1.trans ?_, (h c).2⟩)
    (Cert.ReferenceIdeal.Value.run (F := Ideal) m' ρ')
  funext idx
  obtain ⟨b, j, o, rfl⟩ : ∃ (b : Fin 2) (j : Fin 16384) (o : Fin 10), idx = ix3 b j o := ⟨idx 0, idx 1, idx 2, eq_ix3 idx⟩
  rw [ref_result_apply, Cert.KValue.result_apply]
  obtain ⟨h0, h1, h2, h3, h4, h5, h6, h7, h8⟩ := hagree c
  unfold Cert.KValue.rowK
  rw [h0, h1, h2, h3, h4, h5, h6, h7, h8]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
